-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16x256 : Shape := ⟨3, ![2048, 16, 256]⟩
abbrev S2x32768 : Shape := ⟨2, ![2, 32768]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S2048x16x256 : S_.BroadcastsInDim S2048x16x256 (![] : Fin 0 → Fin S2048x16x256.rank)
  reducesTo_S2048x16x256_S_d0_1_2 : S2048x16x256.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x32768 : S_.BroadcastsInDim S2x32768 (![] : Fin 0 → Fin S2x32768.rank)
  reducesTo_S2x32768_S_d0_1 : S2x32768.ReducesTo [0, 1] S_

variable [Facts]

def fn_part2 {F : FTy → Type} [FloatOps F] (main_arg1 : IVec S2x32768 32) (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_c_16 : IVec S_ 32 := constantI S_ 32 0#32
  let main_v44 : IVec S2x32768 32 := broadcastInDim S2x32768 ![] bcast_S_S2x32768 main_c_16
  let main_v45 : IVec S2x32768 1 := cmpi .sge main_arg1 main_v44
  let main_c_17 : IVec S_ 32 := constantI S_ 32 2048#32
  let main_v46 : IVec S2x32768 32 := broadcastInDim S2x32768 ![] bcast_S_S2x32768 main_c_17
  let main_v47 : IVec S2x32768 1 := cmpi .slt main_arg1 main_v46
  let main_v48 : IVec S2x32768 1 := andi main_v45 main_v47
  let main_c_18 : IVec S_ 1 := constantI S_ 1 1#1
  let main_v49 : IVec S_ 1 := (fun x v => Host.reduce IntOp.andi x v reducesTo_S2x32768_S_d0_1 h_S_) main_v48 main_c_18
  let main_v50 : IVec S_ 1 := andi main_v43 main_v49
  main_v50

def fn_part1 {F : FTy → Type} [FloatOps F] (main_arg1 : IVec S2x32768 32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_v33

def fn {F : FTy → Type} [FloatOps F] (main_arg0 : FVec F S2048x16x256 .f32) (main_arg1 : IVec S2x32768 32) (main_arg2 : FVec F S256x128 .f32) (main_arg3 : FVec F S128 .f32) (main_arg4 : FVec F S128x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S2048x16x256 .f32 := Host.absf main_arg0
  let main_cst : FVec F S_ .f32 := constant S_ .f32 0x7F800000#32
  let main_v1 : FVec F S2048x16x256 .f32 := broadcastInDim S2048x16x256 ![] bcast_S_S2048x16x256 main_cst
  let main_v2 : IVec S2048x16x256 1 := cmpf .olt main_v0 main_v1
  let main_c : IVec S_ 1 := constantI S_ 1 1#1
  let main_v3 : IVec S_ 1 := (fun x v => Host.reduce IntOp.andi x v reducesTo_S2048x16x256_S_d0_1_2 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_arg8 main_arg9 main_v13 main_v16
-- ==== Kernel.lean ====
abbrev S2048x16x256 : Shape := ⟨3, ![2048, 16, 256]⟩
abbrev S2x32768 : Shape := ⟨2, ![2, 32768]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S2048 : Shape := ⟨1, ![2048]⟩
abbrev S1x32768 : Shape := ⟨2, ![1, 32768]⟩
abbrev S32768 : Shape := ⟨1, ![32768]⟩
abbrev S34816 : Shape := ⟨1, ![34816]⟩
abbrev S_ : Shape := ⟨0, ![]⟩
abbrev S34816x1 : Shape := ⟨2, ![34816, 1]⟩
abbrev S2048x2048 : Shape := ⟨2, ![2048, 2048]⟩
abbrev S34816x2 : Shape := ⟨2, ![34816, 2]⟩
abbrev S32768x256 : Shape := ⟨2, ![32768, 256]⟩
abbrev S1x128 : Shape := ⟨2, ![1, 128]⟩
abbrev S1x256 : Shape := ⟨2, ![1, 256]⟩
abbrev S2048x256 : Shape := ⟨2, ![2048, 256]⟩
abbrev S2048x128 : Shape := ⟨2, ![2048, 128]⟩
abbrev S2048x4096 : Shape := ⟨2, ![2048, 4096]⟩
abbrev S2048x8192 : Shape := ⟨2, ![2048, 8192]⟩
abbrev S16x256 : Shape := ⟨2, ![16, 256]⟩
abbrev S4096 : Shape := ⟨1, ![4096]⟩
abbrev S8192 : Shape := ⟨1, ![8192]⟩
abbrev S1x8192 : Shape := ⟨2, ![1, 8192]⟩
abbrev S1024x1024 : Shape := ⟨2, ![1024, 1024]⟩
abbrev S1x1024 : Shape := ⟨2, ![1, 1024]⟩

abbrev nBuf : Space → Nat
  | .hbm => 93
  | .vmem => 21
  | .smem => 0
  | _ => 0

abbrev bufTy : (tb : Table) → Fin (tcTables nBuf tb) → BufTy
  | .hbm, ⟨0, _⟩ => ⟨S2048x16x256, .f32⟩
  | .hbm, ⟨1, _⟩ => ⟨S2x32768, .i32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S2048, .i32⟩
  | .hbm, ⟨11, _⟩ => ⟨S1x32768, .i32⟩
  | .hbm, ⟨12, _⟩ => ⟨S32768, .i32⟩
  | .hbm, ⟨13, _⟩ => ⟨S34816, .i32⟩
  | .hbm, ⟨14, _⟩ => ⟨S1x32768, .i32⟩
  | .hbm, ⟨15, _⟩ => ⟨S32768, .i32⟩
  | .hbm, ⟨16, _⟩ => ⟨S34816, .i32⟩
  | .hbm, ⟨17, _⟩ => ⟨S_, .f32⟩
  | .hbm, ⟨18, _⟩ => ⟨S34816, .f32⟩
  | .hbm, ⟨19, _⟩ => ⟨S_, .f32⟩
  | .hbm, ⟨20, _⟩ => ⟨S2048, .f32⟩
  | .hbm, ⟨21, _⟩ => ⟨S34816x1, .i32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .i1⟩
  | .hbm, ⟨26, _⟩ => ⟨S2048, .f32⟩
  | .hbm, ⟨27, _⟩ => ⟨S_, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .i32⟩
  | .hbm, ⟨32, _⟩ => ⟨S34816, .i32⟩
  | .hbm, ⟨33, _⟩ => ⟨S34816, .i1⟩
  | .hbm, ⟨34, _⟩ => ⟨S_, .i32⟩
  | .hbm, ⟨35, _⟩ => ⟨S34816, .i32⟩
  | .hbm, ⟨36, _⟩ => ⟨S34816, .i32⟩
  | .hbm, ⟨37, _⟩ => ⟨S34816, .i32⟩
  | .hbm, ⟨38, _⟩ => ⟨S34816x1, .i32⟩
  | .hbm, ⟨39, _⟩ => ⟨S34816, .f32⟩
  | .hbm, ⟨40, _⟩ => ⟨S_, .i32⟩
  | .hbm, ⟨41, _⟩ => ⟨S34816, .i32⟩
  | .hbm, ⟨42, _⟩ => ⟨S34816, .i1⟩
  | .hbm, ⟨43, _⟩ => ⟨S_, .i32⟩
  | .hbm, ⟨44, _⟩ => ⟨S34816, .i32⟩
  | .hbm, ⟨45, _⟩ => ⟨S34816, .i32⟩
  | .hbm, ⟨46, _⟩ => ⟨S34816, .i32⟩
  | .hbm, ⟨47, _⟩ => ⟨S34816x1, .i32⟩
  | .hbm, ⟨48, _⟩ => ⟨S34816, .f32⟩
  | .hbm, ⟨49, _⟩ => ⟨S34816, .f32⟩
  | .hbm, ⟨50, _⟩ => ⟨S_, .f32⟩
  | .hbm, ⟨51, _⟩ => ⟨S2048x2048, .f32⟩
  | .hbm, ⟨52, _⟩ => ⟨S_, .i32⟩
  | .hbm, ⟨53, _⟩ => ⟨S34816, .i32⟩
  | .hbm, ⟨54, _⟩ => ⟨S34816, .i1⟩
  | .hbm, ⟨55, _⟩ => ⟨S_, .i32⟩
  | .hbm, ⟨56, _⟩ => ⟨S34816, .i32⟩
  | .hbm, ⟨57, _⟩ => ⟨S34816, .i32⟩
  | .hbm, ⟨58, _⟩ => ⟨S34816, .i32⟩
  | .hbm, ⟨59, _⟩ => ⟨S_, .i32⟩
  | .hbm, ⟨60, _⟩ => ⟨S34816, .i32⟩
  | .hbm, ⟨61, _⟩ => ⟨S34816, .i1⟩
  | .hbm, ⟨62, _⟩ => ⟨S_, .i32⟩
  | .hbm, ⟨63, _⟩ => ⟨S34816, .i32⟩
  | .hbm, ⟨64, _⟩ => ⟨S34816, .i32⟩
  | .hbm, ⟨65, _⟩ => ⟨S34816, .i32⟩
  | .hbm, ⟨66, _⟩ => ⟨S34816x1, .i32⟩
  | .hbm, ⟨67, _⟩ => ⟨S34816x1, .i32⟩
  | .hbm, ⟨68, _⟩ => ⟨S34816x2, .i32⟩
  | .hbm, ⟨69, _⟩ => ⟨S2048x2048, .f32⟩
  | .hbm, ⟨70, _⟩ => ⟨S2048x2048, .bf16⟩
  | .hbm, ⟨71, _⟩ => ⟨S32768x256, .f32⟩
  | .hbm, ⟨72, _⟩ => ⟨S1x128, .f32⟩
  | .hbm, ⟨73, _⟩ => ⟨S1x256, .f32⟩
  | .hbm, ⟨74, _⟩ => ⟨S32768x256, .f32⟩
  | .hbm, ⟨75, _⟩ => ⟨S32768x256, .f32⟩
  | .hbm, ⟨76, _⟩ => ⟨S2048x4096, .f32⟩
  | .hbm, ⟨77, _⟩ => ⟨S2048x4096, .f32⟩
  | .hbm, ⟨78, _⟩ => ⟨S2048x8192, .f32⟩
  | .hbm, ⟨79, _⟩ => ⟨S2048x8192, .bf16⟩
  | .hbm, ⟨80, _⟩ => ⟨S1x256, .f32⟩
  | .hbm, ⟨81, _⟩ => ⟨S16x256, .f32⟩
  | .hbm, ⟨82, _⟩ => ⟨S4096, .f32⟩
  | .hbm, ⟨83, _⟩ => ⟨S1x256, .f32⟩
  | .hbm, ⟨84, _⟩ => ⟨S16x256, .f32⟩
  | .hbm, ⟨85, _⟩ => ⟨S4096, .f32⟩
  | .hbm, ⟨86, _⟩ => ⟨S8192, .f32⟩
  | .hbm, ⟨87, _⟩ => ⟨S1x8192, .f32⟩
  | .hbm, ⟨88, _⟩ => ⟨S2048x8192, .f32⟩
  | .hbm, ⟨89, _⟩ => ⟨S2048x4096, .f32⟩
  | .hbm, ⟨90, _⟩ => ⟨S2048x16x256, .f32⟩
  | .hbm, ⟨91, _⟩ => ⟨S2048x4096, .f32⟩
  | .hbm, ⟨92, _⟩ => ⟨S2048x16x256, .f32⟩
  | .local _ .vmem, ⟨0, _⟩ => ⟨S2048x256, .f32⟩
  | .local _ .vmem, ⟨1, _⟩ => ⟨S2048x256, .f32⟩
  | .local _ .vmem, ⟨2, _⟩ => ⟨S256x128, .f32⟩
  | .local _ .vmem, ⟨3, _⟩ => ⟨S1x128, .f32⟩
  | .local _ .vmem, ⟨4, _⟩ => ⟨S128x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S2048x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49_0 : Ref sig .tc := ⟨.hbm, 74, rfl⟩
abbrev main_v49_1 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![2, 8, 2], ![false, false, false]⟩

def k1_cond2 (i : grid1.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  slices_S2x32768_S1x32768_0_0 : S2x32768.Slices ![0, 0] S1x32768
  shapeCasts_S1x32768_S32768 : S1x32768.ShapeCasts S32768
  concatenates_S32768_S2048_S34816_d0 : Shape.Concatenates [S32768, S2048] S34816 0
  slices_S2x32768_S1x32768_1_0 : S2x32768.Slices ![1, 0] S1x32768
  bcast_S_S34816 : S_.BroadcastsInDim S34816 (![] : Fin 0 → Fin S34816.rank)
  bcast_S_S2048 : S_.BroadcastsInDim S2048 (![] : Fin 0 → Fin S2048.rank)
  bcast_S34816_S34816x1_0 : S34816.BroadcastsInDim S34816x1 (![0] : Fin 1 → Fin S34816x1.rank)
  bcast_S_S2048x2048 : S_.BroadcastsInDim S2048x2048 (![] : Fin 0 → Fin S2048x2048.rank)
  concatenates_S34816x1_S34816x1_S34816x2_d1 : Shape.Concatenates [S34816x1, S34816x1] S34816x2 1
  bitsLt_bf16_f32 : FTy.bits .bf16 < FTy.bits .f32
  shapeCasts_S2048x16x256_S32768x256 : S2048x16x256.ShapeCasts S32768x256
  shapeCasts_S128_S1x128 : S128.ShapeCasts S1x128
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S32768x256_S2048x4096 : S32768x256.ShapeCasts S2048x4096
  concatenates_S2048x4096_S2048x4096_S2048x8192_d1 : Shape.Concatenates [S2048x4096, S2048x4096] S2048x8192 1
  bcast_S1x256_S16x256_0_1 : S1x256.BroadcastsInDim S16x256 (![0, 1] : Fin 2 → Fin S16x256.rank)
  shapeCasts_S16x256_S4096 : S16x256.ShapeCasts S4096
  concatenates_S4096_S4096_S8192_d0 : Shape.Concatenates [S4096, S4096] S8192 0
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S2048x8192_S2048x4096_0_0 : S2048x8192.Slices ![0, 0] S2048x4096
  shapeCasts_S2048x4096_S2048x16x256 : S2048x4096.ShapeCasts S2048x16x256
  slices_S2048x8192_S2048x4096_0_4096 : S2048x8192.Slices ![0, 4096] S2048x4096
  scatter_S2048_S34816x1_S34816_n_0_0_1_wf : ScatterDims.WF S2048 S34816x1 S34816 [] [0] [0] 1
  gather_S2048_S34816x1_S34816_n_0_n_n_0_1_1_wf : GatherDims.WF S2048 S34816x1 S34816 [] [0] [] [0] [] 1 ![1]
  scatter_S2048x2048_S34816x2_S34816_n_01_01_1_wf : ScatterDims.WF S2048x2048 S34816x2 S34816 [] [0, 1] [0, 1] 1
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S2048x256_S256x256_S2048x256_1_0_0_1_n_n_wf : DotDims.WF S2048x256 S256x256 S2048x256 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S32768x256.size a
  hwx0_7 : ∀ i : grid0.Coords, EltTy.bits .f32 = 32 ∨ (Rect.block (s := S32768x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S32768x256.size a
  hwx0_8 : ∀ i : grid0.Coords, EltTy.bits .f32 = 32 ∨ (Rect.block (s := S32768x256) S2048x256.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S2048x2048.size a
  hwx1_0 : ∀ i : grid1.Coords, EltTy.bits .bf16 = 32 ∨ (Rect.block (s := S2048x2048) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x8192.size a
  hwx1_1 : ∀ i : grid1.Coords, EltTy.bits .bf16 = 32 ∨ (Rect.block (s := S2048x8192) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S2048x8192.size a
  hwx1_3 : ∀ i : grid1.Coords, EltTy.bits .f32 = 32 ∨ (Rect.block (s := S2048x8192) S1024x1024.size (cc1_transform_3 i) (hinb1_3 i)).WholeWords (EltTy.packing .f32)

variable [Facts₀]

def scatter_S2048_S34816x1_S34816_n_0_0_1 : ScatterDims S2048 S34816x1 S34816 where
  updateWindowDims := []
  insertedWindowDims := [0]
  scatterDimsToOperandDims := [0]
  indexVectorDim := 1
  wf := scatter_S2048_S34816x1_S34816_n_0_0_1_wf
def gather_S2048_S34816x1_S34816_n_0_n_n_0_1_1 : GatherDims S2048 S34816x1 S34816 where
  offsetDims := []
  collapsedSliceDims := [0]
  operandBatchingDims := []
  startIndicesBatchingDims := []
  startIndexMap := [0]
  indexVectorDim := 1
  sliceSizes := ![1]
  wf := gather_S2048_S34816x1_S34816_n_0_n_n_0_1_1_wf
def scatter_S2048x2048_S34816x2_S34816_n_01_01_1 : ScatterDims S2048x2048 S34816x2 S34816 where
  updateWindowDims := []
  insertedWindowDims := [0, 1]
  scatterDimsToOperandDims := [0, 1]
  indexVectorDim := 1
  wf := scatter_S2048x2048_S34816x2_S34816_n_01_01_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v46) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v48) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v49_1) S2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v45) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v61) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v62) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S2048x16x256 : Shape := ⟨3, ![2048, 16, 256]⟩
abbrev S2x32768 : Shape := ⟨2, ![2, 32768]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S2048x16x128 : Shape := ⟨3, ![2048, 16, 128]⟩
abbrev S1x1x128 : Shape := ⟨3, ![1, 1, 128]⟩
abbrev S_ : Shape := ⟨0, ![]⟩
abbrev S1x1x256 : Shape := ⟨3, ![1, 1, 256]⟩
abbrev S2048 : Shape := ⟨1, ![2048]⟩
abbrev S1x32768 : Shape := ⟨2, ![1, 32768]⟩
abbrev S32768 : Shape := ⟨1, ![32768]⟩
abbrev S34816 : Shape := ⟨1, ![34816]⟩
abbrev S34816x1 : Shape := ⟨2, ![34816, 1]⟩
abbrev S34816x16x256 : Shape := ⟨3, ![34816, 16, 256]⟩
abbrev S34816x1x1 : Shape := ⟨3, ![34816, 1, 1]⟩

abbrev nBuf : Space → Nat
  | .hbm => 120
  | .vmem => 0
  | .smem => 0
  | _ => 0

abbrev bufTy : (tb : Table) → Fin (tcTables nBuf tb) → BufTy
  | .hbm, ⟨0, _⟩ => ⟨S2048x16x256, .f32⟩
  | .hbm, ⟨1, _⟩ => ⟨S2x32768, .i32⟩
  | .hbm, ⟨2, _⟩ => ⟨S256x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S2048x16x128, .f32⟩
  | .hbm, ⟨11, _⟩ => ⟨S1x1x128, .f32⟩
  | .hbm, ⟨12, _⟩ => ⟨S2048x16x128, .f32⟩
  | .hbm, ⟨13, _⟩ => ⟨S2048x16x128, .f32⟩
  | .hbm, ⟨14, _⟩ => ⟨S_, .f32⟩
  | .hbm, ⟨15, _⟩ => ⟨S2048x16x128, .f32⟩
  | .hbm, ⟨16, _⟩ => ⟨S2048x16x128, .f32⟩
  | .hbm, ⟨17, _⟩ => ⟨S2048x16x256, .f32⟩
  | .hbm, ⟨18, _⟩ => ⟨S1x1x256, .f32⟩
  | .hbm, ⟨19, _⟩ => ⟨S2048x16x256, .f32⟩
  | .hbm, ⟨20, _⟩ => ⟨S2048x16x256, .f32⟩
  | .hbm, ⟨21, _⟩ => ⟨S2048x16x256, .f32⟩
  | .hbm, ⟨22, _⟩ => ⟨S2048x16x256, .f32⟩
  | .hbm, ⟨23, _⟩ => ⟨S2048x16x256, .f32⟩
  | .hbm, ⟨24, _⟩ => ⟨S_, .f32⟩
  | .hbm, ⟨25, _⟩ => ⟨S2048x16x256, .f32⟩
  | .hbm, ⟨26, _⟩ => ⟨S2048x16x256, .f32⟩
  | .hbm, ⟨27, _⟩ => ⟨S_, .f32⟩
  | .hbm, ⟨28, _⟩ => ⟨S2048x16x256, .f32⟩
  | .hbm, ⟨29, _⟩ => ⟨S2048x16x256, .f32⟩
  | .hbm, ⟨30, _⟩ => ⟨S2048x16x256, .f32⟩
  | .hbm, ⟨31, _⟩ => ⟨S2048x16x256, .f32⟩
  | .hbm, ⟨32, _⟩ => ⟨S2048x16x256, .f32⟩
  | .hbm, ⟨33, _⟩ => ⟨S_, .f32⟩
  | .hbm, ⟨34, _⟩ => ⟨S2048x16x256, .f32⟩
  | .hbm, ⟨35, _⟩ => ⟨S2048x16x256, .f32⟩
  | .hbm, ⟨36, _⟩ => ⟨S_, .f32⟩
  | .hbm, ⟨37, _⟩ => ⟨S2048x16x256, .f32⟩
  | .hbm, ⟨38, _⟩ => ⟨S2048x16x256, .f32⟩
  | .hbm, ⟨39, _⟩ => ⟨S2048x16x256, .f32⟩
  | .hbm, ⟨40, _⟩ => ⟨S2048, .i32⟩
  | .hbm, ⟨41, _⟩ => ⟨S1x32768, .i32⟩
  | .hbm, ⟨42, _⟩ => ⟨S32768, .i32⟩
  | .hbm, ⟨43, _⟩ => ⟨S34816, .i32⟩
  | .hbm, ⟨44, _⟩ => ⟨S1x32768, .i32⟩
  | .hbm, ⟨45, _⟩ => ⟨S32768, .i32⟩
  | .hbm, ⟨46, _⟩ => ⟨S34816, .i32⟩
  | .hbm, ⟨47, _⟩ => ⟨S_, .f32⟩
  | .hbm, ⟨48, _⟩ => ⟨S34816, .f32⟩
  | .hbm, ⟨49, _⟩ => ⟨S_, .f32⟩
  | .hbm, ⟨50, _⟩ => ⟨S2048, .f32⟩
  | .hbm, ⟨51, _⟩ => ⟨S34816x1, .i32⟩
  | .hbm, ⟨52, _⟩ => ⟨S2048, .f32⟩
  | .hbm, ⟨53, _⟩ => ⟨S_, .f32⟩
  | .hbm, ⟨54, _⟩ => ⟨S2048, .f32⟩
  | .hbm, ⟨55, _⟩ => ⟨S2048, .i1⟩
  | .hbm, ⟨56, _⟩ => ⟨S2048, .f32⟩
  | .hbm, ⟨57, _⟩ => ⟨S_, .f32⟩
  | .hbm, ⟨58, _⟩ => ⟨S_, .f32⟩
  | .hbm, ⟨59, _⟩ => ⟨S2048, .f32⟩
  | .hbm, ⟨60, _⟩ => ⟨S2048, .f32⟩
  | .hbm, ⟨61, _⟩ => ⟨S_, .i32⟩
  | .hbm, ⟨62, _⟩ => ⟨S34816, .i32⟩
  | .hbm, ⟨63, _⟩ => ⟨S34816, .i1⟩
  | .hbm, ⟨64, _⟩ => ⟨S_, .i32⟩
  | .hbm, ⟨65, _⟩ => ⟨S34816, .i32⟩
  | .hbm, ⟨66, _⟩ => ⟨S34816, .i32⟩
  | .hbm, ⟨67, _⟩ => ⟨S34816, .i32⟩
  | .hbm, ⟨68, _⟩ => ⟨S34816x1, .i32⟩
  | .hbm, ⟨69, _⟩ => ⟨S34816, .f32⟩
  | .hbm, ⟨70, _⟩ => ⟨S_, .i32⟩
  | .hbm, ⟨71, _⟩ => ⟨S34816, .i32⟩
  | .hbm, ⟨72, _⟩ => ⟨S34816, .i1⟩
  | .hbm, ⟨73, _⟩ => ⟨S_, .i32⟩
  | .hbm, ⟨74, _⟩ => ⟨S34816, .i32⟩
  | .hbm, ⟨75, _⟩ => ⟨S34816, .i32⟩
  | .hbm, ⟨76, _⟩ => ⟨S34816, .i32⟩
  | .hbm, ⟨77, _⟩ => ⟨S34816x1, .i32⟩
  | .hbm, ⟨78, _⟩ => ⟨S34816, .f32⟩
  | .hbm, ⟨79, _⟩ => ⟨S34816, .f32⟩
  | .hbm, ⟨80, _⟩ => ⟨S2048x16x256, .f32⟩
  | .hbm, ⟨81, _⟩ => ⟨S_, .i32⟩
  | .hbm, ⟨82, _⟩ => ⟨S34816, .i32⟩
  | .hbm, ⟨83, _⟩ => ⟨S34816, .i1⟩
  | .hbm, ⟨84, _⟩ => ⟨S_, .i32⟩
  | .hbm, ⟨85, _⟩ => ⟨S34816, .i32⟩
  | .hbm, ⟨86, _⟩ => ⟨S34816, .i32⟩
  | .hbm, ⟨87, _⟩ => ⟨S34816, .i32⟩
  | .hbm, ⟨88, _⟩ => ⟨S34816x1, .i32⟩
  | .hbm, ⟨89, _⟩ => ⟨S34816x16x256, .f32⟩
  | .hbm, ⟨90, _⟩ => ⟨S34816x1x1, .f32⟩
  | .hbm, ⟨91, _⟩ => ⟨S34816x16x256, .f32⟩
  | .hbm, ⟨92, _⟩ => ⟨S34816x16x256, .f32⟩
  | .hbm, ⟨93, _⟩ => ⟨S_, .f32⟩
  | .hbm, ⟨94, _⟩ => ⟨S2048x16x256, .f32⟩
  | .hbm, ⟨95, _⟩ => ⟨S34816x1, .i32⟩
  | .hbm, ⟨96, _⟩ => ⟨S2048x16x256, .f32⟩
  | .hbm, ⟨97, _⟩ => ⟨S1x1x256, .f32⟩
  | .hbm, ⟨98, _⟩ => ⟨S2048x16x256, .f32⟩
  | .hbm, ⟨99, _⟩ => ⟨S2048x16x256, .f32⟩
  | .hbm, ⟨100, _⟩ => ⟨S2048x16x256, .f32⟩
  | .hbm, ⟨101, _⟩ => ⟨S_, .i32⟩
  | .hbm, ⟨102, _⟩ => ⟨S34816, .i32⟩
  | .hbm, ⟨103, _⟩ => ⟨S34816, .i1⟩
  | .hbm, ⟨104, _⟩ => ⟨S_, .i32⟩
  | .hbm, ⟨105, _⟩ => ⟨S34816, .i32⟩
  | .hbm, ⟨106, _⟩ => ⟨S34816, .i32⟩
  | .hbm, ⟨107, _⟩ => ⟨S34816, .i32⟩
  | .hbm, ⟨108, _⟩ => ⟨S34816x1, .i32⟩
  | .hbm, ⟨109, _⟩ => ⟨S34816x16x256, .f32⟩
  | .hbm, ⟨110, _⟩ => ⟨S34816x1x1, .f32⟩
  | .hbm, ⟨111, _⟩ => ⟨S34816x16x256, .f32⟩
  | .hbm, ⟨112, _⟩ => ⟨S34816x16x256, .f32⟩
  | .hbm, ⟨113, _⟩ => ⟨S_, .f32⟩
  | .hbm, ⟨114, _⟩ => ⟨S2048x16x256, .f32⟩
  | .hbm, ⟨115, _⟩ => ⟨S34816x1, .i32⟩
  | .hbm, ⟨116, _⟩ => ⟨S2048x16x256, .f32⟩
  | .hbm, ⟨117, _⟩ => ⟨S1x1x256, .f32⟩
  | .hbm, ⟨118, _⟩ => ⟨S2048x16x256, .f32⟩
  | .hbm, ⟨119, _⟩ => ⟨S2048x16x256, .f32⟩
  | _, _ => ⟨S2048x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_v38 : Ref sig .tc := ⟨.hbm, 60, rfl⟩
abbrev main_c : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_c_8 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_12 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2048x16x128_0_1_2 : S1x1x128.BroadcastsInDim S2048x16x128 (![0, 1, 2] : Fin 3 → Fin S2048x16x128.rank)
  bcast_S_S2048x16x128 : S_.BroadcastsInDim S2048x16x128 (![] : Fin 0 → Fin S2048x16x128.rank)
  bcast_S256_S1x1x256_2 : S256.BroadcastsInDim S1x1x256 (![2] : Fin 1 → Fin S1x1x256.rank)
  bcast_S1x1x256_S2048x16x256_0_1_2 : S1x1x256.BroadcastsInDim S2048x16x256 (![0, 1, 2] : Fin 3 → Fin S2048x16x256.rank)
  bcast_S_S2048x16x256 : S_.BroadcastsInDim S2048x16x256 (![] : Fin 0 → Fin S2048x16x256.rank)
  slices_S2x32768_S1x32768_0_0 : S2x32768.Slices ![0, 0] S1x32768
  shapeCasts_S1x32768_S32768 : S1x32768.ShapeCasts S32768
  concatenates_S32768_S2048_S34816_d0 : Shape.Concatenates [S32768, S2048] S34816 0
  slices_S2x32768_S1x32768_1_0 : S2x32768.Slices ![1, 0] S1x32768
  bcast_S_S34816 : S_.BroadcastsInDim S34816 (![] : Fin 0 → Fin S34816.rank)
  bcast_S_S2048 : S_.BroadcastsInDim S2048 (![] : Fin 0 → Fin S2048.rank)
  bcast_S34816_S34816x1_0 : S34816.BroadcastsInDim S34816x1 (![0] : Fin 1 → Fin S34816x1.rank)
  bcast_S34816_S34816x1x1_0 : S34816.BroadcastsInDim S34816x1x1 (![0] : Fin 1 → Fin S34816x1x1.rank)
  bcast_S34816x1x1_S34816x16x256_0_1_2 : S34816x1x1.BroadcastsInDim S34816x16x256 (![0, 1, 2] : Fin 3 → Fin S34816x16x256.rank)
  dot_S2048x16x256_S256x128_S2048x16x128_2_0_01_1_n_n_wf : DotDims.WF S2048x16x256 S256x128 S2048x16x128 [2] [0] [0, 1] [1] [] []
  dot_S2048x16x128_S128x256_S2048x16x256_2_0_01_1_n_n_wf : DotDims.WF S2048x16x128 S128x256 S2048x16x256 [2] [0] [0, 1] [1] [] []
  scatter_S2048_S34816x1_S34816_n_0_0_1_wf : ScatterDims.WF S2048 S34816x1 S34816 [] [0] [0] 1
  gather_S2048_S34816x1_S34816_n_0_n_n_0_1_1_wf : GatherDims.WF S2048 S34816x1 S34816 [] [0] [] [0] [] 1 ![1]
  dot_S2048x16x256_S256x256_S2048x16x256_2_0_01_1_n_n_wf : DotDims.WF S2048x16x256 S256x256 S2048x16x256 [2] [0] [0, 1] [1] [] []
  gather_S2048x16x256_S34816x1_S34816x16x256_12_0_n_n_0_1_116256_wf : GatherDims.WF S2048x16x256 S34816x1 S34816x16x256 [1, 2] [0] [] [0] [] 1 ![1, 16, 256]
  scatter_S2048x16x256_S34816x1_S34816x16x256_12_0_0_1_wf : ScatterDims.WF S2048x16x256 S34816x1 S34816x16x256 [1, 2] [0] [0] 1

variable [Facts₀]

def dot_S2048x16x256_S256x128_S2048x16x128_2_0_01_1_n_n : DotDims S2048x16x256 S256x128 S2048x16x128 where
  lhsContracting := [2]
  rhsContracting := [0]
  lhsNonContracting := [0, 1]
  rhsNonContracting := [1]
  lhsBatch := []
  rhsBatch := []
  wf := dot_S2048x16x256_S256x128_S2048x16x128_2_0_01_1_n_n_wf
def dot_S2048x16x128_S128x256_S2048x16x256_2_0_01_1_n_n : DotDims S2048x16x128 S128x256 S2048x16x256 where
  lhsContracting := [2]
  rhsContracting := [0]
  lhsNonContracting := [0, 1]
  rhsNonContracting := [1]
  lhsBatch := []
  rhsBatch := []
  wf := dot_S2048x16x128_S128x256_S2048x16x256_2_0_01_1_n_n_wf
def scatter_S2048_S34816x1_S34816_n_0_0_1 : ScatterDims S2048 S34816x1 S34816 where
  updateWindowDims := []
  insertedWindowDims := [0]
  scatterDimsToOperandDims := [0]
  indexVectorDim := 1
  wf := scatter_S2048_S34816x1_S34816_n_0_0_1_wf
def gather_S2048_S34816x1_S34816_n_0_n_n_0_1_1 : GatherDims S2048 S34816x1 S34816 where
  offsetDims := []
  collapsedSliceDims := [0]
  operandBatchingDims := []
  startIndicesBatchingDims := []
  startIndexMap := [0]
  indexVectorDim := 1
  sliceSizes := ![1]
  wf := gather_S2048_S34816x1_S34816_n_0_n_n_0_1_1_wf
def dot_S2048x16x256_S256x256_S2048x16x256_2_0_01_1_n_n : DotDims S2048x16x256 S256x256 S2048x16x256 where
  lhsContracting := [2]
  rhsContracting := [0]
  lhsNonContracting := [0, 1]
  rhsNonContracting := [1]
  lhsBatch := []
  rhsBatch := []
  wf := dot_S2048x16x256_S256x256_S2048x16x256_2_0_01_1_n_n_wf
def gather_S2048x16x256_S34816x1_S34816x16x256_12_0_n_n_0_1_116256 : GatherDims S2048x16x256 S34816x1 S34816x16x256 where
  offsetDims := [1, 2]
  collapsedSliceDims := [0]
  operandBatchingDims := []
  startIndicesBatchingDims := []
  startIndexMap := [0]
  indexVectorDim := 1
  sliceSizes := ![1, 16, 256]
  wf := gather_S2048x16x256_S34816x1_S34816x16x256_12_0_n_n_0_1_116256_wf
def scatter_S2048x16x256_S34816x1_S34816x16x256_12_0_0_1 : ScatterDims S2048x16x256 S34816x1 S34816x16x256 where
  updateWindowDims := [1, 2]
  insertedWindowDims := [0]
  scatterDimsToOperandDims := [0]
  indexVectorDim := 1
  wf := scatter_S2048x16x256_S34816x1_S34816x16x256_12_0_0_1_wf

class Facts : Prop extends Facts₀ where

variable [Facts]
-- ==== Proof.FrR0Run.lean ====
import proofs.«175657_j3204045603773_1_alg».proof.Proof.Gen.KernelIdeal.Launch
import proofs.«175657_j3204045603773_1_alg».proof.Proof.Gen.KernelIdeal.Skeleton
import proofs.«175657_j3204045603773_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The gate kernel's body on whole staging memrefs: it loads its seven operand blocks, computes, and stores each of its
    two result blocks whole. The pieces each result's memref ends with are found by running the body. -/

set_option maxHeartbeats 4000000 in
/-- The body's run: with the operand memrefs at contents `x0 … x6` and the result memrefs at anything, it ends with the
    operands as they were and each result memref with its pieces written. -/
noncomputable def kernelRun0 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) :
    Σ' (L7 : List (View.Piece (Elt F) S2048x256 .f32)), { L8 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mask_gate_kernel i arg1 harg1 arg2 harg2 arg3 harg3 arg4 harg4 arg5 harg5 arg6 harg6 arg7 harg7 arg8 harg8 arg9 harg9) K } := by
  refine ⟨?_, ?_, fun E K => ?run⟩
  case run =>
    simp only [cc0__mask_gate_kernel_eq_skeleton]; unfold cc0__mask_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.KernelIdeal.Fr

end
-- ==== Proof.FrR0.lean ====
import proofs.«175657_j3204045603773_1_alg».proof.Proof.FrR0Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The gate kernel's region (one grid axis of 16 points; each point takes 2048 rows of the flattened input, the
    weights and biases whole, and writes 2048 rows of each of the two results). -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
end

abbrev VO0_7 : View sig .tc .vmem S2048x256 .f32 := (Memref.whole cc0_stg7_0 : Memref sig .tc .vmem S2048x256 .f32).view
abbrev VO0_8 : View sig .tc .vmem S2048x256 .f32 := (Memref.whole cc0_stg8_0 : Memref sig .tc .vmem S2048x256 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .f32 := win0_8.stage (cfg0.slots t 8)
abbrev hs0_8 (t : Fin cfg0.N) : (ms0_8 t).IsWhole := hstage0_8 ((cfg0.slots t 8).cast nbuf0_8)

/-- The first result's pieces tile its block. -/
theorem cover0_7 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) (y : S2048x256.Idx) :
    ∃ pc ∈ (kernelRun0 c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).1 S2048x256.size (by sl_kernel_rfl) y
/-- What the body leaves in the first result's staging buffer. -/
def out0_7 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) : Vec F S2048x256 .f32 :=
  VO0_7.read (Elt F) (VO0_7.writes (Elt F) VO0_7.junk (kernelRun0 c i arg1 harg1 arg2 harg2 arg3 harg3 arg4 harg4 arg5 harg5 arg6 harg6 arg7 harg7 arg8 harg8 arg9 harg9 x0 x1 x2 x3 x4 x5 x6).1)
/-- The second result's pieces tile its block. -/
theorem cover0_8 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) (y : S2048x256.Idx) :
    ∃ pc ∈ (kernelRun0 c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).2.1 S2048x256.size (by sl_kernel_rfl) y
/-- What the body leaves in the second result's staging buffer. -/
def out0_8 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) : Vec F S2048x256 .f32 :=
  VO0_8.read (Elt F) (VO0_8.writes (Elt F) VO0_8.junk (kernelRun0 c i arg1 harg1 arg2 harg2 arg3 harg3 arg4 harg4 arg5 harg5 arg6 harg6 arg7 harg7 arg8 harg8 arg9 harg9 x0 x1 x2 x3 x4 x5 x6).2.1)

section
variable (V : (c : Dev nD) → (b : Ref sig .tc) → Buf (Elt F) ((c : Thread nD τ).loc b))

/-- The region's proof data on core `c`: the arrays as the region finds them; after the body at point `t` each
    operand's buffer at its block and each result's at what the body leaves; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the operands' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0_7 out0_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _)
  unfold owns; iexists _; isplitr
  swap; · iexact H8
  ipureintro; exact View.read_writes_of_cover _ _ _ _ _ (cover0_8 c _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t
end

end Cert.KernelIdeal.Fr

end
-- ==== Proof.FrR1Base.lean ====
import proofs.«175657_j3204045603773_1_alg».proof.Proof.Gen.KernelIdeal.Launch
import proofs.«175657_j3204045603773_1_alg».proof.Proof.Gen.KernelIdeal.Skeleton
import proofs.«175657_j3204045603773_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiled matrix product's region: what its runs share. A point of its grid is (row block, column block, half of
    the contraction), the half running fastest; the accumulator is zeroed at the first half and the result block is
    stored at the last. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions -/

/-- "this is the first half of the contraction" -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "this is the last half of the contraction" -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first half the result window is idle: nothing is stored into it and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last half it is live. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x1024 .f32 := Memref.whole cc1_scratch0
abbrev VS1_0 : View sig .tc .vmem S1024x1024 .f32 := scM1_0.view

end Cert.KernelIdeal.Fr

end
-- ==== Proof.FrR1RunA.lean ====
import proofs.«175657_j3204045603773_1_alg».proof.Proof.FrR1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first half: the accumulator, at anything, is zeroed and takes the first block product; the result
    memref, idle, is handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__adj_matmul_kernel i arg3 harg3 arg4 harg4 arg5 harg5 arg6 harg6 arg7 harg7) K } := by
  refine ⟨[], ?_, fun xi3 E K => ?run⟩
  case run =>
    simp only [cc1__adj_matmul_kernel_eq_skeleton]; unfold cc1__adj_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Fr

end
-- ==== Proof.FrR1RunB.lean ====
import proofs.«175657_j3204045603773_1_alg».proof.Proof.FrR1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last half: the accumulator, at what the first half left, takes the second block product, and the
    result memref is stored whole with the accumulator plus the bias row. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__adj_matmul_kernel i arg3 harg3 arg4 harg4 arg5 harg5 arg6 harg6 arg7 harg7) K } := by
  refine ⟨?_, ?_, fun E K => ?run⟩
  case run =>
    simp only [cc1__adj_matmul_kernel_eq_skeleton]; unfold cc1__adj_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Fr

end
-- ==== Proof.FrR1.lean ====
import proofs.«175657_j3204045603773_1_alg».proof.Proof.FrR1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiled matrix product's region: what the result window and the accumulator hold point by point, the proof data,
    the body obligation. -/

/-- A first half stores nothing into the result window: no pieces (a placeholder nothing consults). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- A first half's pieces for the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What a first half leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)
/-- A last half's pieces for the result window tile its block. -/
theorem cover1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y
/-- What a last half leaves in the result window's staging buffer. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
/-- A last half's pieces for the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What a last half leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The scoped buffers that are no staging buffer of this region, the accumulator last at `X`. -/
def restWith1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ X)

/-- The class invariant, the accumulator owned at some contents. -/
theorem PhiA1_eq (c : Dev nD) :
    (Pipeline.ΦA spec1 c : sProp 𝕄) = iprop(restWith1 c (iprop(∃ d, owns (c : Thread nD τ) scM1_0 fullShare d)) ∗ (∃ r, prngReg c r)) := by
  unfold Pipeline.ΦA restWith1; rw [scopedRest1_eq]; simp only [scM1_0, owns_whole]; try rfl

section
variable (V : (c : Dev nD) → (b : Ref sig .tc) → Buf (Elt F) ((c : Thread nD τ).loc b))

/-- What the result window's staging buffer and the accumulator hold after the body at position `n`: at a first half
    the accumulator restarts; at a last half both build on what the first half left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at a first half. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a last half: over what the point before left in the accumulator. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the same with the
    accumulator at what the point before left. -/
def PhiS1 (c : Dev nD) : (n : ℕ) → n ≤ cfg1.N → sProp 𝕄
  | 0, _ => Pipeline.ΦA spec1 c
  | n + 1, hn => iprop(restWith1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(restWith1 c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the operands' memrefs hold their blocks; the point's parity says which case it is in; the
    invariant hands the body the accumulator (at anything before the first point, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    unfold restWith1
    by_cases hz : t.val = 0
    · rw [PhiS1_castSucc V c t, PhiS1_zero V c _ _ hz, PhiA1_eq]
      unfold restWith1
      iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [A0 A1 A2 A3 A4 A5 A6 A7 A8 A9 A10 A11 HS0 Hg]
      · isplitl [A0 A1 A2 A3 A4 A5 A6 A7 A8 A9 A10 A11 HS0]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold restWith1
      iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [A0 A1 A2 A3 A4 A5 A6 A7 A8 A9 A10 A11 HS0 Hg]
      · isplitl [A0 A1 A2 A3 A4 A5 A6 A7 A8 A9 A10 A11 HS0]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS1_castSucc V c t, PhiS1_pos V c _ _ hz]
    unfold restWith1
    iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [A0 A1 A2 A3 A4 A5 A6 A7 A8 A9 A10 A11 HS0 Hg]
    · isplitl [A0 A1 A2 A3 A4 A5 A6 A7 A8 A9 A10 A11 HS0]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold restWith1
  iintro ⟨⟨A0, A1, A2, A3, A4, A5, A6, A7, A8, A9, A10, A11, HS0⟩, Hg⟩
  isplitl [A0 A1 A2 A3 A4 A5 A6 A7 A8 A9 A10 A11 HS0]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)
end

end Cert.KernelIdeal.Fr

end
-- ==== Proof.FrRun.lean ====
import proofs.«175657_j3204045603773_1_alg».proof.Proof.FrR0
import proofs.«175657_j3204045603773_1_alg».proof.Proof.FrR1
import proofs.«175657_j3204045603773_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of @main: the buffer contents between items, the two regions as segments of the run, and the run itself
    with both results and every argument read off the last contents. -/

open Idealize.ShloMosaic.Pipeline (Seg HostSeg RegionSeg)

set_option backward.isDefEq.respectTransparency.types false in
/-- The run of @main given the two regions' records: its items chained from the launch to the return, each region entered
    and left at the contents between items; the two results and every argument are read off the last contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v64) = V7 m outs c main_v64
      ∧ r.2.mem ((c.tc : Thread nD τ).loc main_v66) = V7 m outs c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => s.mem ((c.tc : Thread nD τ).loc main_v64) = V7 m outs c main_v64 ∧ s.mem ((c.tc : Thread nD τ).loc main_v66) = V7 m outs c main_v66 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v64) (Finset.mem_filter.mpr ⟨StableHlo.devRef_mem_tcRefs main_v64, by decide⟩),
        h (Proc.devRef .tc main_v66) (Finset.mem_filter.mpr ⟨StableHlo.devRef_mem_tcRefs main_v66, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c),
        (h (Proc.devRef .tc main_arg9) (Finset.mem_filter.mpr ⟨StableHlo.devRef_mem_tcRefs main_arg9, by decide⟩)).trans (V7_main_arg9 m outs c)⟩
    · iexact HSI

section
variable (m : (ℓ : Loc nD τ sig) → Buf (Elt F) ℓ) (ρ : Dev nD → PrngReg)

/-- The gate region's entry contents, at the TensorCore's references. -/
abbrev E3 : (c : Dev nD) → (b : Ref sig .tc) → Buf (Elt F) ((c : Thread nD τ).loc b) := fun c b => V3 m c b
/-- At the gate region's exit: its arrays at what its write-backs leave, every other buffer as entered. -/
def W4 (c : Dev nD) : Valuation τ sig (Elt F) :=
  Pipeline.withArrays spec0 c (V3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
/-- What the gate region leaves, as the unknowns of the run. -/
def outsA : Outs (F := F) := fun _ r c => W4 m c (Proc.devRef .tc r)
/-- The product region's entry contents. -/
abbrev E5 : (c : Dev nD) → (b : Ref sig .tc) → Buf (Elt F) ((c : Thread nD τ).loc b) := fun c b => V5 m (outsA m) c b
/-- At the product region's exit. -/
def W6 (c : Dev nD) : Valuation τ sig (Elt F) :=
  Pipeline.withArrays spec1 c (V5 m (outsA m) c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
/-- What both regions leave. -/
def outs : Outs (F := F) := fun n r c => if n = 4 then W4 m c (Proc.devRef .tc r) else W6 m c (Proc.devRef .tc r)

theorem outs4 (r : Ref sig .tc) (c : Dev nD) : outs m 4 r c = W4 m c (Proc.devRef .tc r) := rfl
theorem outs6 (r : Ref sig .tc) (c : Dev nD) : outs m 6 r c = W6 m c (Proc.devRef .tc r) := rfl
theorem V4_outs (c : Dev nD) : V4 m (outs m) c = V4 m (outsA m) c := rfl
theorem V5_outs (c : Dev nD) : V5 m (outs m) c = V5 m (outsA m) c := rfl
end

section
variable (m : (ℓ : Loc nD τ sig) → Buf (Elt F) ℓ) (ρ : Dev nD → PrngReg)

/-- Both regions' proof data, each at its region's entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option maxHeartbeats 4000000 in
/-- At the gate region's exit each of its arrays holds what the pipeline leaves, -/
theorem hF0 (c : Dev nD) (w : Fin cfg0.W) : (dat0 (E3 m) c).arrAt w cfg0.N = V4 m (outs m) c (Pipeline.arrRef spec0 w) := by
  match w with
  | ⟨0, _⟩ => exact ((dat0 (E3 m) c).arrAt_in 0 rfl _).trans ((A_eq0 (E3 m) c 0).trans (V4_of m (outs m) c main_v46 (by decide)).symm)
  | ⟨1, _⟩ => exact ((dat0 (E3 m) c).arrAt_in 1 rfl _).trans ((A_eq0 (E3 m) c 1).trans (V4_of m (outs m) c main_arg2 (by decide)).symm)
  | ⟨2, _⟩ => exact ((dat0 (E3 m) c).arrAt_in 2 rfl _).trans ((A_eq0 (E3 m) c 2).trans (V4_of m (outs m) c main_v47 (by decide)).symm)
  | ⟨3, _⟩ => exact ((dat0 (E3 m) c).arrAt_in 3 rfl _).trans ((A_eq0 (E3 m) c 3).trans (V4_of m (outs m) c main_arg4 (by decide)).symm)
  | ⟨4, _⟩ => exact ((dat0 (E3 m) c).arrAt_in 4 rfl _).trans ((A_eq0 (E3 m) c 4).trans (V4_of m (outs m) c main_v48 (by decide)).symm)
  | ⟨5, _⟩ => exact ((dat0 (E3 m) c).arrAt_in 5 rfl _).trans ((A_eq0 (E3 m) c 5).trans (V4_of m (outs m) c main_arg6 (by decide)).symm)
  | ⟨6, _⟩ => exact ((dat0 (E3 m) c).arrAt_in 6 rfl _).trans ((A_eq0 (E3 m) c 6).trans (V4_of m (outs m) c main_arg8 (by decide)).symm)
  | ⟨7, _⟩ =>
    refine (W4_arr m c 7).symm.trans ?_
    show outs m 4 main_v49_0 c = Function.update (Function.update (V3 m c) main_v49_0 (outs m 4 main_v49_0 c)) main_v49_1 (outs m 4 main_v49_1 c) main_v49_0
    rw [Function.update_of_ne (StableHlo.devRef_ne_of_ne (by decide) : (Proc.devRef .tc main_v49_0 : DevRef τ sig) ≠ Proc.devRef .tc main_v49_1), Function.update_self]
  | ⟨8, _⟩ =>
    refine (W4_arr m c 8).symm.trans ?_
    show outs m 4 main_v49_1 c = Function.update (Function.update (V3 m c) main_v49_0 (outs m 4 main_v49_0 c)) main_v49_1 (outs m 4 main_v49_1 c) main_v49_1
    rw [Function.update_self]
/-- and every other buffer what it held at entry. -/
theorem hrest0 (c : Dev nD) : ∀ b : Ref sig .tc, b ∉ Finset.univ.image (Pipeline.arrRef spec0) → V4 m (outs m) c b = V3 m c b :=
  fun b hb => V4_of m (outs m) c b (by
    intro h
    rcases List.mem_cons.mp h with rfl | h
    · exact hb (Finset.mem_image.mpr ⟨7, Finset.mem_univ _, rfl⟩)
    · rcases List.mem_cons.mp h with rfl | h
      · exact hb (Finset.mem_image.mpr ⟨8, Finset.mem_univ _, rfl⟩)
      · exact absurd h (List.not_mem_nil))

set_option maxHeartbeats 4000000 in
theorem hF1 (c : Dev nD) (w : Fin cfg1.W) : (dat1 (E5 m) c).arrAt w cfg1.N = V6 m (outs m) c (Pipeline.arrRef spec1 w) := by
  match w with
  | ⟨0, _⟩ => exact ((dat1 (E5 m) c).arrAt_in 0 rfl _).trans ((A_eq1 (E5 m) c 0).trans (V6_of m (outs m) c main_v45 (by decide)).symm)
  | ⟨1, _⟩ => exact ((dat1 (E5 m) c).arrAt_in 1 rfl _).trans ((A_eq1 (E5 m) c 1).trans (V6_of m (outs m) c main_v53 (by decide)).symm)
  | ⟨2, _⟩ => exact ((dat1 (E5 m) c).arrAt_in 2 rfl _).trans ((A_eq1 (E5 m) c 2).trans (V6_of m (outs m) c main_v61 (by decide)).symm)
  | ⟨3, _⟩ =>
    refine (W6_arr m c 3).symm.trans ?_
    show outs m 6 main_v62 c = Function.update (V5 m (outs m) c) main_v62 (outs m 6 main_v62 c) main_v62
    rw [Function.update_self]
theorem hrest1 (c : Dev nD) : ∀ b : Ref sig .tc, b ∉ Finset.univ.image (Pipeline.arrRef spec1) → V6 m (outs m) c b = V5 m (outs m) c b :=
  fun b hb => V6_of m (outs m) c b (by
    intro h
    rcases List.mem_cons.mp h with rfl | h
    · exact hb (Finset.mem_image.mpr ⟨3, Finset.mem_univ _, rfl⟩)
    · exact absurd h (List.not_mem_nil))

set_option backward.isDefEq.respectTransparency.types false in
/-- The gate region over the thread state: entered with every unscoped buffer at `V3`, left at `V4`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered with every unscoped buffer at `V5`, left at `V6`; the accumulator
    goes into the region's invariant at anything and comes back at anything. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    iintro ⟨Hp, -, Hr⟩
    iapply (hin1 (E5 m) c)
    unfold Pipeline.ΦA
    isplitl [Hr]; · iexact Hr
    iexact Hp
  hout c := by
    rw [Pipeline.ownSems0_none, show (pdats m 1 c).Φ (Fin.last _) = (dat1 (E5 m) c).Φ (Fin.last cfg1.N) from rfl]
    iintro H
    ihave H' := (hout1 (E5 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN at any float instance: every weakly fair execution of @main terminates, nothing faulting, with the two results
    at the last contents' and every argument as launched. -/
theorem run :
    θ_run defs (onTc (τ := τ) (main (F := F))) ⟨m, fun _ => 0, ρ⟩ (fun r => ∀ c : Dev nD,
      r.2.mem ((c.tc : Thread nD τ).loc main_v64) = V7 m (outs m) c main_v64
      ∧ r.2.mem ((c.tc : Thread nD τ).loc main_v66) = V7 m (outs m) c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
end

end Cert.KernelIdeal.Fr

end
-- ==== Proof.FrKR0Run.lean ====
import proofs.«175657_j3204045603773_1_alg».proof.Proof.Gen.Kernel.Launch
import proofs.«175657_j3204045603773_1_alg».proof.Proof.Gen.Kernel.Skeleton
import proofs.«175657_j3204045603773_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The gate kernel's body on whole staging memrefs: it loads its seven operand blocks, computes, and stores each of its
    two result blocks whole. The pieces each result's memref ends with are found by running the body. -/

set_option maxHeartbeats 4000000 in
/-- The body's run: with the operand memrefs at contents `x0 … x6` and the result memrefs at anything, it ends with the
    operands as they were and each result memref with its pieces written. -/
noncomputable def kernelRun0 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) :
    Σ' (L7 : List (View.Piece (Elt F) S2048x256 .f32)), { L8 : List (View.Piece (Elt F) S2048x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0__mask_gate_kernel i arg1 harg1 arg2 harg2 arg3 harg3 arg4 harg4 arg5 harg5 arg6 harg6 arg7 harg7 arg8 harg8 arg9 harg9) K } := by
  refine ⟨?_, ?_, fun E K => ?run⟩
  case run =>
    simp only [cc0__mask_gate_kernel_eq_skeleton]; unfold cc0__mask_gate_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact H8

end Cert.Kernel.Fr

end
-- ==== Proof.FrKR0.lean ====
import proofs.«175657_j3204045603773_1_alg».proof.Proof.FrKR0Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The gate kernel's region (one grid axis of 16 points; each point takes 2048 rows of the flattened input, the
    weights and biases whole, and writes 2048 rows of each of the two results). -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
end

abbrev VO0_7 : View sig .tc .vmem S2048x256 .f32 := (Memref.whole cc0_stg7_0 : Memref sig .tc .vmem S2048x256 .f32).view
abbrev VO0_8 : View sig .tc .vmem S2048x256 .f32 := (Memref.whole cc0_stg8_0 : Memref sig .tc .vmem S2048x256 .f32).view
abbrev ms0_0 (t : Fin cfg0.N) : Memref sig .tc .vmem S2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x256 .f32 := win0_8.stage (cfg0.slots t 8)
abbrev hs0_8 (t : Fin cfg0.N) : (ms0_8 t).IsWhole := hstage0_8 ((cfg0.slots t 8).cast nbuf0_8)

/-- The first result's pieces tile its block. -/
theorem cover0_7 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) (y : S2048x256.Idx) :
    ∃ pc ∈ (kernelRun0 c i arg1 harg1 arg2 harg2 arg3 harg3 arg4 harg4 arg5 harg5 arg6 harg6 arg7 harg7 arg8 harg8 arg9 harg9 x0 x1 x2 x3 x4 x5 x6).1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).1 S2048x256.size (by sl_kernel_rfl) y
/-- What the body leaves in the first result's staging buffer. -/
def out0_7 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) : Vec F S2048x256 .f32 :=
  VO0_7.read (Elt F) (VO0_7.writes (Elt F) VO0_7.junk (kernelRun0 c i arg1 harg1 arg2 harg2 arg3 harg3 arg4 harg4 arg5 harg5 arg6 harg6 arg7 harg7 arg8 harg8 arg9 harg9 x0 x1 x2 x3 x4 x5 x6).1)
/-- The second result's pieces tile its block. -/
theorem cover0_8 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) (y : S2048x256.Idx) :
    ∃ pc ∈ (kernelRun0 c i arg1 harg1 arg2 harg2 arg3 harg3 arg4 harg4 arg5 harg5 arg6 harg6 arg7 harg7 arg8 harg8 arg9 harg9 x0 x1 x2 x3 x4 x5 x6).2.1, y ∈ pc.1.set :=
  View.cover_of_tiledL (kernelRun0 c i arg1 harg1 arg2 harg2 arg3 harg3 arg4 harg4 arg5 harg5 arg6 harg6 arg7 harg7 arg8 harg8 arg9 harg9 x0 x1 x2 x3 x4 x5 x6).2.1 S2048x256.size (by sl_kernel_rfl) y
/-- What the body leaves in the second result's staging buffer. -/
def out0_8 (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) : Vec F S2048x256 .f32 :=
  VO0_8.read (Elt F) (VO0_8.writes (Elt F) VO0_8.junk (kernelRun0 c i arg1 harg1 arg2 harg2 arg3 harg3 arg4 harg4 arg5 harg5 arg6 harg6 arg7 harg7 arg8 harg8 arg9 harg9 x0 x1 x2 x3 x4 x5 x6).2.1)

section
variable (V : (c : Dev nD) → (b : Ref sig .tc) → Buf (Elt F) ((c : Thread nD τ).loc b))

/-- The region's proof data on core `c`: the arrays as the region finds them; after the body at point `t` each
    operand's buffer at its block and each result's at what the body leaves; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t)
    | ⟨8, _⟩ => out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 4000000 in
/-- The body at any point: the operands' memrefs hold their blocks, so the body's run applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  unfold out0_7 out0_8; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 c (grid0.coords t) _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_7 c _ _ _ _ _ _ _ _ _ _ _ _ _ _ _ _ _ _ _ _ _ _ _ _ _ _)
  unfold owns; iexists _; isplitr
  swap; · iexact H8
  ipureintro; exact View.read_writes_of_cover _ _ _ _ _ (cover0_8 c _ _ _ _ _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t
end

end Cert.Kernel.Fr

end
-- ==== Proof.FrKR1Base.lean ====
import proofs.«175657_j3204045603773_1_alg».proof.Proof.Gen.Kernel.Launch
import proofs.«175657_j3204045603773_1_alg».proof.Proof.Gen.Kernel.Skeleton
import proofs.«175657_j3204045603773_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiled matrix product's region: what its runs share. A point of its grid is (row block, column block, half of
    the contraction), the half running fastest; the accumulator is zeroed at the first half and the result block is
    stored at the last. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions -/

/-- "this is the first half of the contraction" -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)
/-- "this is the last half of the contraction" -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At a first half the result window is idle: nothing is stored into it and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last half it is live. -/
theorem liveAt1_3_B : ∀ t : Fin cfg1.N, ¬cond1_0 (grid1.coords t) → cond1_1 (grid1.coords t) → cfg1.idle 3 (grid1.coords t) = false := by decide +kernel

/-! ## The memrefs the body is called with -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S1024x1024 .f32 := Memref.whole cc1_scratch0
abbrev VS1_0 : View sig .tc .vmem S1024x1024 .f32 := scM1_0.view

end Cert.Kernel.Fr

end
-- ==== Proof.FrKR1RunA.lean ====
import proofs.«175657_j3204045603773_1_alg».proof.Proof.FrKR1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first half: the accumulator, at anything, is zeroed and takes the first block product; the result
    memref, idle, is handed back untouched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__adj_matmul_kernel i arg3 harg3 arg4 harg4 arg5 harg5 arg6 harg6 arg7 harg7) K } := by
  refine ⟨[], ?_, fun xi3 E K => ?run⟩
  case run =>
    simp only [cc1__adj_matmul_kernel_eq_skeleton]; unfold cc1__adj_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Fr

end
-- ==== Proof.FrKR1RunB.lean ====
import proofs.«175657_j3204045603773_1_alg».proof.Proof.FrKR1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last half: the accumulator, at what the first half left, takes the second block product, and the
    result memref is stored whole with the accumulator plus the bias row. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__adj_matmul_kernel i arg3 harg3 arg4 harg4 arg5 harg5 arg6 harg6 arg7 harg7) K } := by
  refine ⟨?_, ?_, fun E K => ?run⟩
  case run =>
    simp only [cc1__adj_matmul_kernel_eq_skeleton]; unfold cc1__adj_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Fr

end
-- ==== Proof.FrKR1.lean ====
import proofs.«175657_j3204045603773_1_alg».proof.Proof.FrKR1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The tiled matrix product's region: what the result window and the accumulator hold point by point, the proof data,
    the body obligation. -/

/-- A first half stores nothing into the result window: no pieces (a placeholder nothing consults). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)
/-- A first half's pieces for the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y
/-- What a first half leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)
/-- A last half's pieces for the result window tile its block. -/
theorem cover1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x1024.size (by sl_kernel_rfl) y
/-- What a last half leaves in the result window's staging buffer. -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)
/-- A last half's pieces for the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y
/-- What a last half leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- The scoped buffers that are no staging buffer of this region, the accumulator last at `X`. -/
def restWith1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ X)

/-- The class invariant, the accumulator owned at some contents. -/
theorem PhiA1_eq (c : Dev nD) :
    (Pipeline.ΦA spec1 c : sProp 𝕄) = iprop(restWith1 c (iprop(∃ d, owns (c : Thread nD τ) scM1_0 fullShare d)) ∗ (∃ r, prngReg c r)) := by
  unfold Pipeline.ΦA restWith1; rw [scopedRest1_eq]; simp only [scM1_0, owns_whole]; try rfl

section
variable (V : (c : Dev nD) → (b : Ref sig .tc) → Buf (Elt F) ((c : Thread nD τ).loc b))

/-- What the result window's staging buffer and the accumulator hold after the body at position `n`: at a first half
    the accumulator restarts; at a last half both build on what the first half left in the accumulator. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 2 = 0 then
      if h1 : (n + 1) % 2 = 1 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
          sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 2 = 1 then
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        False.elim (by omega)

/-- `outsAt1` at a first half. -/
theorem outsAt1_A (c : Dev nD) (t : Fin cfg1.N) (h0 : t.val % 2 = 0) (h1 : ¬t.val % 2 = 1) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
      sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a last half: over what the point before left in the accumulator. -/
theorem outsAt1_B (c : Dev nD) (t : Fin cfg1.N) (h0 : ¬t.val % 2 = 0) (h1 : t.val % 2 = 1) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the same with the
    accumulator at what the point before left. -/
def PhiS1 (c : Dev nD) : (n : ℕ) → n ≤ cfg1.N → sProp 𝕄
  | 0, _ => Pipeline.ΦA spec1 c
  | n + 1, hn => iprop(restWith1 c (owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restWith1 c (owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(restWith1 c (owns (c : Thread nD τ) scM1_0 fullShare ((outsAt1 V c (n - 1) (by omega)).2)) ∗ (∃ r, prngReg c r)) := by
  cases n with
  | zero => exact absurd rfl hz
  | succ n => rfl

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the operands' memrefs hold their blocks; the point's parity says which case it is in; the
    invariant hands the body the accumulator (at anything before the first point, at what the point before left
    afterwards) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 2 = 0
  · have h1 : ¬t.val % 2 = 1 := by omega
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0; (try dsimp only)
    unfold restWith1
    by_cases hz : t.val = 0
    · rw [PhiS1_castSucc V c t, PhiS1_zero V c _ _ hz, PhiA1_eq]
      unfold restWith1
      iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [A0 A1 A2 A3 A4 A5 A6 A7 A8 A9 A10 A11 HS0 Hg]
      · isplitl [A0 A1 A2 A3 A4 A5 A6 A7 A8 A9 A10 A11 HS0]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      unfold restWith1
      iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [A0 A1 A2 A3 A4 A5 A6 A7 A8 A9 A10 A11 HS0 Hg]
      · isplitl [A0 A1 A2 A3 A4 A5 A6 A7 A8 A9 A10 A11 HS0]
        · isplitl [A0]; · iexact A0
          isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have h1 : t.val % 2 = 1 := by omega
    rw [show (dat1 V c).leavesExact 3 t = owns (c : Thread nD τ) (ms1_3 t) fullShare ((dat1 V c).after 3 t) from by
      unfold Dat.leavesExact; rw [liveAt1_3_B t (fun h => h0 ((hcond1_0 t).mp h)) ((hcond1_1 t).mpr h1)], after1_3]
    rw [outsAt1_B V c t h0 h1]
    unfold out1_B_3 sout1_B_0; (try dsimp only)
    have hz : t.val ≠ 0 := by omega
    rw [PhiS1_castSucc V c t, PhiS1_pos V c _ _ hz]
    unfold restWith1
    iintro ⟨⟨⟨A0, A1, A2, A3, A4, A5, A6, A7, A8, A9, A10, A11, HS0⟩, Hg⟩, Ho, ⟨%d0, H0⟩, ⟨%d1, H1⟩, ⟨%d2, H2⟩, ⟨%d3, H3⟩⟩
    iapply ((kernelRun1_B c (grid1.coords t) _ _ _ _ _ _ _ _ _ _ (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [A0 A1 A2 A3 A4 A5 A6 A7 A8 A9 A10 A11 HS0 Hg]
    · isplitl [A0 A1 A2 A3 A4 A5 A6 A7 A8 A9 A10 A11 HS0]
      · isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        isplitl [A10]; · iexact A10
        isplitl [A11]; · iexact A11
        unfold owns; iexists _; isplitr
        swap; · iexact HS0
        ipureintro; exact View.read_writes_of_cover _ _ _ _ _ (scover1_B_0 c _ _ _ _ _ _ _ _ _ _ _ _ _ _ _ _ _)
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 c _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  unfold restWith1
  iintro ⟨⟨A0, A1, A2, A3, A4, A5, A6, A7, A8, A9, A10, A11, HS0⟩, Hg⟩
  isplitl [A0 A1 A2 A3 A4 A5 A6 A7 A8 A9 A10 A11 HS0]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    iexists _; iexact HS0
  iexact Hg

theorem hout1 (c : Dev nD) : (dat1 V c).Φ (Fin.last cfg1.N) ⊢ Pipeline.ΦA spec1 c :=
  Phi_out1 V c _ (by rw [Fin.val_last]; have : cfg1.N = 32 := N_1; omega)
end

end Cert.Kernel.Fr

end
-- ==== Proof.FrKRun.lean ====
import proofs.«175657_j3204045603773_1_alg».proof.Proof.FrKR0
import proofs.«175657_j3204045603773_1_alg».proof.Proof.FrKR1
import proofs.«175657_j3204045603773_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The run of @main: the buffer contents between items, the two regions as segments of the run, and the run itself
    with both results and every argument read off the last contents. -/

open Idealize.ShloMosaic.Pipeline (Seg HostSeg RegionSeg)

set_option backward.isDefEq.respectTransparency.types false in
/-- The run of @main given the two regions' records: its items chained from the launch to the return, each region entered
    and left at the contents between items; the two results and every argument are read off the last contents. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v64) = V7 m outs c main_v64
      ∧ r.2.mem ((c.tc : Thread nD τ).loc main_v66) = V7 m outs c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => s.mem ((c.tc : Thread nD τ).loc main_v64) = V7 m outs c main_v64 ∧ s.mem ((c.tc : Thread nD τ).loc main_v66) = V7 m outs c main_v66 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v64) (Finset.mem_filter.mpr ⟨StableHlo.devRef_mem_tcRefs main_v64, by decide⟩),
        h (Proc.devRef .tc main_v66) (Finset.mem_filter.mpr ⟨StableHlo.devRef_mem_tcRefs main_v66, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c),
        (h (Proc.devRef .tc main_arg9) (Finset.mem_filter.mpr ⟨StableHlo.devRef_mem_tcRefs main_arg9, by decide⟩)).trans (V7_main_arg9 m outs c)⟩
    · iexact HSI

section
variable (m : (ℓ : Loc nD τ sig) → Buf (Elt F) ℓ) (ρ : Dev nD → PrngReg)

/-- The gate region's entry contents, at the TensorCore's references. -/
abbrev E3 : (c : Dev nD) → (b : Ref sig .tc) → Buf (Elt F) ((c : Thread nD τ).loc b) := fun c b => V3 m c b
/-- At the gate region's exit: its arrays at what its write-backs leave, every other buffer as entered. -/
def W4 (c : Dev nD) : Valuation τ sig (Elt F) :=
  Pipeline.withArrays spec0 c (V3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
/-- What the gate region leaves, as the unknowns of the run. -/
def outsA : Outs (F := F) := fun _ r c => W4 m c (Proc.devRef .tc r)
/-- The product region's entry contents. -/
abbrev E5 : (c : Dev nD) → (b : Ref sig .tc) → Buf (Elt F) ((c : Thread nD τ).loc b) := fun c b => V5 m (outsA m) c b
/-- At the product region's exit. -/
def W6 (c : Dev nD) : Valuation τ sig (Elt F) :=
  Pipeline.withArrays spec1 c (V5 m (outsA m) c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
/-- What both regions leave. -/
def outs : Outs (F := F) := fun n r c => if n = 4 then W4 m c (Proc.devRef .tc r) else W6 m c (Proc.devRef .tc r)

theorem outs4 (r : Ref sig .tc) (c : Dev nD) : outs m 4 r c = W4 m c (Proc.devRef .tc r) := rfl
theorem outs6 (r : Ref sig .tc) (c : Dev nD) : outs m 6 r c = W6 m c (Proc.devRef .tc r) := rfl
theorem V4_outs (c : Dev nD) : V4 m (outs m) c = V4 m (outsA m) c := rfl
theorem V5_outs (c : Dev nD) : V5 m (outs m) c = V5 m (outsA m) c := rfl
end

section
variable (m : (ℓ : Loc nD τ sig) → Buf (Elt F) ℓ) (ρ : Dev nD → PrngReg)

/-- Both regions' proof data, each at its region's entry contents. -/
def pdats : (p : Fin 2) → (c : Dev nD) → Dat τ (Elt F) Unit ℕ (UR sig nD τ) ℕ (cfgs p) c
  | ⟨0, _⟩ => fun c => dat0 (E3 m) c
  | ⟨1, _⟩ => fun c => dat1 (E5 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

set_option maxHeartbeats 4000000 in
/-- At the gate region's exit each of its arrays holds what the pipeline leaves, -/
theorem hF0 (c : Dev nD) (w : Fin cfg0.W) : (dat0 (E3 m) c).arrAt w cfg0.N = V4 m (outs m) c (Pipeline.arrRef spec0 w) := by
  match w with
  | ⟨0, _⟩ => exact ((dat0 (E3 m) c).arrAt_in 0 rfl _).trans ((A_eq0 (E3 m) c 0).trans (V4_of m (outs m) c main_v46 (by decide)).symm)
  | ⟨1, _⟩ => exact ((dat0 (E3 m) c).arrAt_in 1 rfl _).trans ((A_eq0 (E3 m) c 1).trans (V4_of m (outs m) c main_arg2 (by decide)).symm)
  | ⟨2, _⟩ => exact ((dat0 (E3 m) c).arrAt_in 2 rfl _).trans ((A_eq0 (E3 m) c 2).trans (V4_of m (outs m) c main_v47 (by decide)).symm)
  | ⟨3, _⟩ => exact ((dat0 (E3 m) c).arrAt_in 3 rfl _).trans ((A_eq0 (E3 m) c 3).trans (V4_of m (outs m) c main_arg4 (by decide)).symm)
  | ⟨4, _⟩ => exact ((dat0 (E3 m) c).arrAt_in 4 rfl _).trans ((A_eq0 (E3 m) c 4).trans (V4_of m (outs m) c main_v48 (by decide)).symm)
  | ⟨5, _⟩ => exact ((dat0 (E3 m) c).arrAt_in 5 rfl _).trans ((A_eq0 (E3 m) c 5).trans (V4_of m (outs m) c main_arg6 (by decide)).symm)
  | ⟨6, _⟩ => exact ((dat0 (E3 m) c).arrAt_in 6 rfl _).trans ((A_eq0 (E3 m) c 6).trans (V4_of m (outs m) c main_arg8 (by decide)).symm)
  | ⟨7, _⟩ =>
    refine (W4_arr m c 7).symm.trans ?_
    show outs m 4 main_v49_0 c = Function.update (Function.update (V3 m c) main_v49_0 (outs m 4 main_v49_0 c)) main_v49_1 (outs m 4 main_v49_1 c) main_v49_0
    rw [Function.update_of_ne (StableHlo.devRef_ne_of_ne (by decide) : (Proc.devRef .tc main_v49_0 : DevRef τ sig) ≠ Proc.devRef .tc main_v49_1), Function.update_self]
  | ⟨8, _⟩ =>
    refine (W4_arr m c 8).symm.trans ?_
    show outs m 4 main_v49_1 c = Function.update (Function.update (V3 m c) main_v49_0 (outs m 4 main_v49_0 c)) main_v49_1 (outs m 4 main_v49_1 c) main_v49_1
    rw [Function.update_self]
/-- and every other buffer what it held at entry. -/
theorem hrest0 (c : Dev nD) : ∀ b : Ref sig .tc, b ∉ Finset.univ.image (Pipeline.arrRef spec0) → V4 m (outs m) c b = V3 m c b :=
  fun b hb => V4_of m (outs m) c b (by
    intro h
    rcases List.mem_cons.mp h with rfl | h
    · exact hb (Finset.mem_image.mpr ⟨7, Finset.mem_univ _, rfl⟩)
    · rcases List.mem_cons.mp h with rfl | h
      · exact hb (Finset.mem_image.mpr ⟨8, Finset.mem_univ _, rfl⟩)
      · exact absurd h (List.not_mem_nil))

set_option maxHeartbeats 4000000 in
theorem hF1 (c : Dev nD) (w : Fin cfg1.W) : (dat1 (E5 m) c).arrAt w cfg1.N = V6 m (outs m) c (Pipeline.arrRef spec1 w) := by
  match w with
  | ⟨0, _⟩ => exact ((dat1 (E5 m) c).arrAt_in 0 rfl _).trans ((A_eq1 (E5 m) c 0).trans (V6_of m (outs m) c main_v45 (by decide)).symm)
  | ⟨1, _⟩ => exact ((dat1 (E5 m) c).arrAt_in 1 rfl _).trans ((A_eq1 (E5 m) c 1).trans (V6_of m (outs m) c main_v53 (by decide)).symm)
  | ⟨2, _⟩ => exact ((dat1 (E5 m) c).arrAt_in 2 rfl _).trans ((A_eq1 (E5 m) c 2).trans (V6_of m (outs m) c main_v61 (by decide)).symm)
  | ⟨3, _⟩ =>
    refine (W6_arr m c 3).symm.trans ?_
    show outs m 6 main_v62 c = Function.update (V5 m (outs m) c) main_v62 (outs m 6 main_v62 c) main_v62
    rw [Function.update_self]
theorem hrest1 (c : Dev nD) : ∀ b : Ref sig .tc, b ∉ Finset.univ.image (Pipeline.arrRef spec1) → V6 m (outs m) c b = V5 m (outs m) c b :=
  fun b hb => V6_of m (outs m) c b (by
    intro h
    rcases List.mem_cons.mp h with rfl | h
    · exact hb (Finset.mem_image.mpr ⟨3, Finset.mem_univ _, rfl⟩)
    · exact absurd h (List.not_mem_nil))

set_option backward.isDefEq.respectTransparency.types false in
/-- The gate region over the thread state: entered with every unscoped buffer at `V3`, left at `V4`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product region over the thread state: entered with every unscoped buffer at `V5`, left at `V6`; the accumulator
    goes into the region's invariant at anything and comes back at anything. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (V5 m (outsA m) c) ∗ R c)
  post c := iprop(StableHlo.held (c : Thread nD τ) (Pipeline.ucRefs τ sig) (V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E5 m) c).Φ 0 from rfl]
    iintro ⟨Hp, -, Hr⟩
    iapply (hin1 (E5 m) c)
    unfold Pipeline.ΦA
    isplitl [Hr]; · iexact Hr
    iexact Hp
  hout c := by
    rw [Pipeline.ownSems0_none, show (pdats m 1 c).Φ (Fin.last _) = (dat1 (E5 m) c).Φ (Fin.last cfg1.N) from rfl]
    iintro H
    ihave H' := (hout1 (E5 m) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (fun b => V6 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE RUN at any float instance: every weakly fair execution of @main terminates, nothing faulting, with the two results
    at the last contents' and every argument as launched. -/
theorem run :
    θ_run defs (onTc (τ := τ) (main (F := F))) ⟨m, fun _ => 0, ρ⟩ (fun r => ∀ c : Dev nD,
      r.2.mem ((c.tc : Thread nD τ).loc main_v64) = V7 m (outs m) c main_v64
      ∧ r.2.mem ((c.tc : Thread nD τ).loc main_v66) = V7 m (outs m) c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)
end

end Cert.Kernel.Fr

end
-- ==== Proof.Frames.lean ====
/-
  The three frames of this certificate.

  The kernel program is a run of two pipelined regions among stretches of host operations. Its frame — every weakly
  fair execution terminates, nothing faults, the arguments end as launched — is read off the run of its items
  (`Fr.run`: the buffer contents between items, each region a segment entered and left at those contents), once at the
  word-level instance and once at the extended reals. The reference has no kernel: its frame is its run with the
  results dropped.
-/
import proofs.«175657_j3204045603773_1_alg».proof.Defs
import proofs.«175657_j3204045603773_1_alg».proof.Proof.FrRun
import proofs.«175657_j3204045603773_1_alg».proof.Proof.FrKRun
import proofs.«175657_j3204045603773_1_alg».proof.Proof.RefRunP
import proofs.«175657_j3204045603773_1_alg».proof.Proof.Gen.Pre_finite_inputs

noncomputable section

namespace Cert.Proof.Parts

open Idealize.ShloMosaic Idealize.ShloMosaic.TcCoe Idealize.SL.Sem

theorem frame_k : Cert.frame_Kernel := fun m ρ _ =>
  (θ_run (Cert.Kernel.defs (F := Bits)) _ _).mono (fun _ h c => (h c).2.2) (Cert.Kernel.Fr.run (F := Bits) m ρ)

theorem frame_ki : Cert.frame_KernelIdeal := fun m ρ _ =>
  (θ_run (Cert.KernelIdeal.defs (F := Ideal)) _ _).mono (fun _ h c => (h c).2.2) (Cert.KernelIdeal.Fr.run (F := Ideal) m ρ)

theorem frame_ri : Cert.frame_ReferenceIdeal := fun m ρ _ =>
  (θ_run (Cert.ReferenceIdeal.defs (F := Ideal)) _ _).mono (fun _ h c => (h c).2.2) (Cert.ReferenceIdeal.ValueP.run (F := Ideal) m ρ)

/-- The idealization rewrote nothing: the idealized kernel is the kernel's own text read at the extended reals. -/
theorem preserves : Cert.preserves_Kernel_KernelIdeal := trivial

end Cert.Proof.Parts

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Spec.lean ====
/-
  The mathematics of this certificate, free of any program: a gated two-layer perceptron feeding two graph
  convolutions that share one normalised edge list.

  Rows are (node, batch) pairs. For a row `r` of the input `x` the gate is
  `z r d = (∑ h, max ((∑ k, x r k * w1 k h) + b1 h) 0 * w2 h d) + b2 d`, and the two convolutions take
  `σ(-z) ⊙ x` and `σ(z) ⊙ x` through their own weight matrices (`gateOut`).
  The graph has the given edges and one self loop per node; with `deg v` the number of edges into `v`,
  `dinv v = deg v ^ (-1/2)` (zero where the degree is zero) and `norm e = dinv (src e) * dinv (dst e)`, a
  convolution's value at node `n` is the sum over the edges into `n` of the source's row times the edge's norm,
  plus the bias (`conv`). The dense form multiplies the normalised adjacency matrix with the rows, the
  contraction split in two halves (`accOut`).
-/
import Idealize.ShloMosaic.PureOps.Ideal

noncomputable section

open scoped BigOperators

namespace Cert.Spec

open Idealize.ShloMosaic

/-- The gate's pre-activation at row `r`, feature `d`. -/
def gateZ {n : Nat} (x : Fin n → Fin 256 → EReal) (w1 : Fin 256 → Fin 128 → EReal) (b1 : Fin 128 → EReal)
    (w2 : Fin 128 → Fin 256 → EReal) (b2 : Fin 256 → EReal) (r : Fin n) (d : Fin 256) : EReal :=
  (∑ h : Fin 128, max ((∑ k : Fin 256, x r k * w1 k h) + b1 h) 0 * w2 h d) + b2 d

/-- A gated row through a weight matrix: `neg` chooses the mask `σ(-z)`, otherwise `σ(z)`. -/
def gateOut {n : Nat} (neg : Bool) (x : Fin n → Fin 256 → EReal) (w1 : Fin 256 → Fin 128 → EReal) (b1 : Fin 128 → EReal)
    (w2 : Fin 128 → Fin 256 → EReal) (b2 : Fin 256 → EReal) (w : Fin 256 → Fin 256 → EReal) (r : Fin n) (f : Fin 256) : EReal :=
  ∑ d : Fin 256, (Ideal.logistic (if neg then 0 - gateZ x w1 b1 w2 b2 r d else gateZ x w1 b1 w2 b2 r d) * x r d) * w d f

/-- Column `j` of the lower half of a 2048-long contraction. -/
def lo (j : Fin 1024) : Fin 2048 := ⟨j.val, by omega⟩
/-- Column `j` of the upper half. -/
def hi (j : Fin 1024) : Fin 2048 := ⟨1024 + j.val, by omega⟩

/-- The dense propagation: adjacency row `i` against column `k` of the rows, accumulated from zero over the two
    halves of the contraction in order, then the bias. -/
def accOut {N : Nat} (a : Fin 2048 → Fin 2048 → EReal) (xw : Fin 2048 → Fin N → EReal) (bias : Fin N → EReal)
    (i : Fin 2048) (k : Fin N) : EReal :=
  ((0 + ∑ j : Fin 1024, a i (lo j) * xw (lo j) k) + ∑ j : Fin 1024, a i (hi j) * xw (hi j) k) + bias k

/-- The edge list's word `e` of row `a`: the given edges, then one self loop per node. -/
def edgeWord (ei : Fin 2 → Fin 32768 → BitVec 32) (a : Fin 2) (e : Fin 34816) : BitVec 32 :=
  if h : e.val < 32768 then ei a ⟨e.val, h⟩ else BitVec.ofNat 32 (e.val - 32768)

/-- The in-degree of node `v`. -/
def deg (d : Fin 34816 → Fin 2048) (v : Fin 2048) : EReal := ∑ e : Fin 34816, if d e = v then (1 : EReal) else 0
/-- `deg ^ (-1/2)`, zero where the degree is zero. -/
def dinv (d : Fin 34816 → Fin 2048) (v : Fin 2048) : EReal := if 0 < deg d v then Ideal.rsqrt (deg d v) else 0
/-- An edge's symmetric normalisation. -/
def norm (s d : Fin 34816 → Fin 2048) (e : Fin 34816) : EReal := dinv d (s e) * dinv d (d e)

/-- One graph convolution of the rows `XW` at node `n`, batch entry `b`, feature `f`. -/
def conv (XW : Fin 2048 → Fin 16 → Fin 256 → EReal) (s d : Fin 34816 → Fin 2048) (bias : Fin 256 → EReal)
    (n : Fin 2048) (b : Fin 16) (f : Fin 256) : EReal :=
  (∑ e : Fin 34816, if d e = n then XW (s e) b f * norm s d e else 0) + bias f

/-- Row `(n, b)` of the flattened input. -/
def row (n : Fin 2048) (b : Fin 16) : Fin 32768 := ⟨n.val * 16 + b.val, by omega⟩

/-- The flattened input: row `r = 16 n + b` is entry `(n, b)`. -/
def flat (x : Fin 2048 → Fin 16 → Fin 256 → EReal) (r : Fin 32768) (k : Fin 256) : EReal :=
  x ⟨r.val / 16, by omega⟩ ⟨r.val % 16, by omega⟩ k

/-- The whole layer at node `n`, batch entry `b`, feature `f`: the gated rows through `w`, one graph convolution. -/
def final (neg : Bool) (x : Fin 2048 → Fin 16 → Fin 256 → EReal) (w1 : Fin 256 → Fin 128 → EReal) (b1 : Fin 128 → EReal)
    (w2 : Fin 128 → Fin 256 → EReal) (b2 : Fin 256 → EReal) (w : Fin 256 → Fin 256 → EReal) (bias : Fin 256 → EReal)
    (s d : Fin 34816 → Fin 2048) (n : Fin 2048) (b : Fin 16) (f : Fin 256) : EReal :=
  conv (fun n' b' f' => gateOut neg (flat x) w1 b1 w2 b2 w (row n' b') f') s d bias n b f

end Cert.Spec

end
-- ==== Proof.Payload.lean ====
/-
  The two kernel bodies' arithmetic, read at an entry, over the extended reals.

  The gate body: a row of the input through two matrix products with bias (the first followed by a maximum with
  zero) gives the pre-activation `z`; the logistic function of `-z` (or of `z`) times the input row, through a
  third matrix product, is the gated row. Each matrix product starts from a zero accumulator, so at an entry it
  is the plain sum over the contracted coordinate; a narrowing of the format is the identity here, a cast to the
  same shape is the identity, and a one-row bias broadcast down the rows reads its one row.

  The adjacency body: the accumulator is zeroed, gains one block product, and finally the bias row.
-/
import Mathlib
import Idealize.ShloMosaic.Lib.ValueIdx
import Idealize.ShloMosaic.Lib.ValueLayout
import Idealize.ShloMosaic.Lib.Pipeline.Value
import Idealize.ShloMosaic.PureOps.Ideal.Laws
import proofs.«175657_j3204045603773_1_alg».proof.Proof.Gen.KernelIdeal.Skeleton
import proofs.«175657_j3204045603773_1_alg».proof.Proof.LibDot
import proofs.«175657_j3204045603773_1_alg».proof.Proof.Spec

noncomputable section

open scoped BigOperators

namespace Cert.KernelIdeal.Pay

open Idealize.ShloMosaic Idealize.ShloMosaic.ValueIdx Cert.KernelIdeal Cert.KernelIdeal.Gen

/-! ## The four dimension-number records are plain rows-by-columns products -/

theorem plain_x_w1 : Cert.LibDot.Plain (M := 2048) (K := 256) (N := 128) dot_S2048x256_S256x128_S2048x128_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plain_h_w2 : Cert.LibDot.Plain (M := 2048) (K := 128) (N := 256) dot_S2048x128_S128x256_S2048x256_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plain_g_w : Cert.LibDot.Plain (M := 2048) (K := 256) (N := 256) dot_S2048x256_S256x256_S2048x256_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

theorem plain_adj : Cert.LibDot.Plain (M := 1024) (K := 1024) (N := 1024) dot_S1024x1024_S1024x1024_S1024x1024_1_0_0_1_n_n where
  hrank := rfl
  hs := rfl
  hl0 := fun _ _ => rfl
  hl1 := fun j k => DotDims.lhsIdx_val_of_single _ rfl j k
  hr0 := fun j k => DotDims.rhsIdx_val_of_single _ rfl j k
  hr1 := fun _ _ => rfl

/-! ## Steps over variables -/

section Steps
variable {M K N : Nat} {d : DotDims ⟨2, ![M, K]⟩ ⟨2, ![K, N]⟩ ⟨2, ![M, N]⟩} {φ₁ φ₂ : FTy}

/-- A product from zero plus a one-row bias broadcast down the rows, at entry (r, c). -/
theorem mm_bias_apply (hd : Cert.LibDot.Plain d) (a : FVec Ideal ⟨2, ![M, K]⟩ φ₁) (b : FVec Ideal ⟨2, ![K, N]⟩ φ₂)
    (row : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (r : Fin M) (c : Fin N) :
    addf (matmul d none a b (constant ⟨2, ![M, N]⟩ .f32 0x00000000#32))
        (broadcastTo ⟨2, ![M, N]⟩ (shapeCast ⟨2, ![1, N]⟩ row hc) hb) (ix2 r c)
      = (∑ k : Fin K, a (ix2 r k) * b (ix2 k c)) + row (ix2 (0 : Fin 1) c) := by
  rw [addf_apply, Cert.LibDot.matmul_ix2 hd, shapeCast_self, broadcastTo_1b_ab_apply]

/-- The same followed by a maximum with zero (and a narrowing, the identity here). -/
theorem relu_mm_bias_apply (hd : Cert.LibDot.Plain d) (a : FVec Ideal ⟨2, ![M, K]⟩ φ₁) (b : FVec Ideal ⟨2, ![K, N]⟩ φ₂)
    (row : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (ht : FTy.bits .bf16 < FTy.bits .f32) (r : Fin M) (c : Fin N) :
    (truncf .bf16 (maximumf (addf (matmul d none a b (constant ⟨2, ![M, N]⟩ .f32 0x00000000#32))
        (broadcastTo ⟨2, ![M, N]⟩ (shapeCast ⟨2, ![1, N]⟩ row hc) hb))
        (broadcast ⟨2, ![M, N]⟩ (Scalar.ofBits (F := Ideal) .f32 0x00000000#32))) ht : FVec Ideal ⟨2, ![M, N]⟩ .bf16) (ix2 r c)
      = max ((∑ k : Fin K, a (ix2 r k) * b (ix2 k c)) + row (ix2 (0 : Fin 1) c)) 0 := by
  rw [truncf_apply, maximumf_apply, mm_bias_apply hd, broadcast_apply]
  exact congrArg (max _) Ideal.ofBits_zero_f32

end Steps

/-! ## The gate body -/

/-- The first payload is the loaded input itself. -/
theorem pay1_eq (v0 : Vec Ideal S2048x256 .f32) : k0_pay1 (F := Ideal) v0 = v0 :=
  shapeCast_self v0 _

/-- The second payload is the gate's pre-activation. -/
theorem pay2_apply (v0 : Vec Ideal S2048x256 .f32) (v3 : Vec Ideal S256x128 .f32) (v6 : Vec Ideal S1x128 .f32)
    (v13 : Vec Ideal S128x256 .f32) (v16 : Vec Ideal S1x256 .f32) (p : Fin 2048) (q : Fin 256) :
    k0_pay2 (F := Ideal) v0 v3 v6 v13 v16 (ix2 p q)
      = Cert.Spec.gateZ (fun r k => v0 (ix2 r k)) (fun k h => v3 (ix2 k h)) (fun h => v6 (ix2 0 h))
          (fun h d => v13 (ix2 h d)) (fun d => v16 (ix2 0 d)) p q := by
  unfold k0_pay2
  rw [pay1_eq]
  refine (mm_bias_apply plain_h_w2 _ _ v16 _ _ p q).trans ?_
  unfold Cert.Spec.gateZ
  refine congrArg (· + v16 (ix2 0 q)) (Finset.sum_congr rfl fun h _ => ?_)
  refine congrArg (· * v13 (ix2 h q)) ?_
  exact relu_mm_bias_apply plain_x_w1 _ _ v6 _ _ _ p h

/-- A gated entry: the logistic function of the (negated or plain) pre-activation times the input entry. -/
theorem gate_mm_apply {M K N : Nat} {d : DotDims ⟨2, ![M, K]⟩ ⟨2, ![K, N]⟩ ⟨2, ![M, N]⟩} (hd : Cert.LibDot.Plain d)
    (g x : FVec Ideal ⟨2, ![M, K]⟩ .f32) (w : FVec Ideal ⟨2, ![K, N]⟩ .f32) (ht : FTy.bits .bf16 < FTy.bits .f32)
    (r : Fin M) (c : Fin N) :
    matmul d none (truncf .bf16 (mulf (logistic g) x) ht : FVec Ideal ⟨2, ![M, K]⟩ .bf16)
        (truncf .bf16 w ht : FVec Ideal ⟨2, ![K, N]⟩ .bf16) (constant ⟨2, ![M, N]⟩ .f32 0x00000000#32) (ix2 r c)
      = ∑ k : Fin K, (Ideal.logistic (g (ix2 r k)) * x (ix2 r k)) * w (ix2 k c) :=
  Cert.LibDot.matmul_ix2 hd none _ _ r c

/-- The third payload: the rows gated by the logistic function of the negated pre-activation, through their
    weight matrix. -/
theorem pay3_apply (v0 : Vec Ideal S2048x256 .f32) (v3 : Vec Ideal S256x128 .f32) (v6 : Vec Ideal S1x128 .f32)
    (v13 : Vec Ideal S128x256 .f32) (v16 : Vec Ideal S1x256 .f32) (v26 : Vec Ideal S256x256 .f32)
    (p : Fin 2048) (q : Fin 256) :
    k0_pay3 (F := Ideal) v0 v3 v6 v13 v16 v26 (ix2 p q)
      = Cert.Spec.gateOut true (fun r k => v0 (ix2 r k)) (fun k h => v3 (ix2 k h)) (fun h => v6 (ix2 0 h))
          (fun h d => v13 (ix2 h d)) (fun d => v16 (ix2 0 d)) (fun d f => v26 (ix2 d f)) p q := by
  unfold k0_pay3
  rw [pay1_eq]
  refine (gate_mm_apply plain_g_w _ v0 v26 _ p q).trans ?_
  unfold Cert.Spec.gateOut
  refine Finset.sum_congr rfl fun d _ => ?_
  refine congrArg (fun t => (Ideal.logistic t * v0 (ix2 p d)) * v26 (ix2 d q)) ?_
  rw [if_pos rfl, subf_apply, broadcast_apply, pay2_apply]
  exact congrArg (· - _) Ideal.ofBits_zero_f32

/-- The fourth payload: the rows gated by the logistic function of the pre-activation, through their weight
    matrix. -/
theorem pay4_apply (v0 : Vec Ideal S2048x256 .f32) (v3 : Vec Ideal S256x128 .f32) (v6 : Vec Ideal S1x128 .f32)
    (v13 : Vec Ideal S128x256 .f32) (v16 : Vec Ideal S1x256 .f32) (v28 : Vec Ideal S256x256 .f32)
    (p : Fin 2048) (q : Fin 256) :
    k0_pay4 (F := Ideal) v0 v3 v6 v13 v16 v28 (ix2 p q)
      = Cert.Spec.gateOut false (fun r k => v0 (ix2 r k)) (fun k h => v3 (ix2 k h)) (fun h => v6 (ix2 0 h))
          (fun h d => v13 (ix2 h d)) (fun d => v16 (ix2 0 d)) (fun d f => v28 (ix2 d f)) p q := by
  unfold k0_pay4
  rw [pay1_eq]
  refine (gate_mm_apply plain_g_w _ v0 v28 _ p q).trans ?_
  unfold Cert.Spec.gateOut
  refine Finset.sum_congr rfl fun d _ => ?_
  refine congrArg (fun t => (Ideal.logistic t * v0 (ix2 p d)) * v28 (ix2 d q)) ?_
  rw [if_neg Bool.false_ne_true, pay2_apply]

/-! ## The adjacency body -/

/-- The first payload zeroes the accumulator. -/
theorem pay1_1_apply (p q : Fin 1024) : k1_pay1 (F := Ideal) (ix2 p q) = 0 := by
  unfold k1_pay1
  rw [shapeCast_self, broadcast_apply]
  exact Ideal.ofBits_zero_f32

/-- The second payload adds one block product to the accumulator. -/
theorem pay1_2_apply (v3 : Vec Ideal S1024x1024 .f32) (v4 v6 : Vec Ideal S1024x1024 .bf16) (p q : Fin 1024) :
    k1_pay2 (F := Ideal) v3 v4 v6 (ix2 p q) = v3 (ix2 p q) + ∑ l : Fin 1024, v4 (ix2 p l) * v6 (ix2 l q) := by
  unfold k1_pay2
  rw [shapeCast_self, shapeCast_self, shapeCast_self, addf_apply]
  exact congrArg (v3 (ix2 p q) + ·) (Cert.LibDot.matmul_ix2 plain_adj none v4 v6 p q)

/-- The third payload adds the bias row. -/
theorem pay1_3_apply (v16 : Vec Ideal S1024x1024 .f32) (v17 : Vec Ideal S1x1024 .f32) (p q : Fin 1024) :
    k1_pay3 (F := Ideal) v16 v17 (ix2 p q) = v16 (ix2 p q) + v17 (ix2 0 q) := by
  unfold k1_pay3
  rw [addf_apply, shapeCast_self]
  exact congrArg (v16 (ix2 p q) + ·) (broadcastTo_1b_ab_apply v17 _ p q)

end Cert.KernelIdeal.Pay

end
-- ==== Proof.FrV0.lean ====
/-
  The gate region's two result arrays, over the extended reals.

  The grid has 16 points; point `t` takes rows `2048 t … 2048 t + 2047` of the flattened input, the weight matrices
  and bias rows whole, and writes the same rows of each result. What the body leaves in a result buffer is its one
  covering store's payload of the loaded blocks; read at an entry that payload is the gated row through the weight
  matrix, and a gated row depends on its own input row only, so every written block is the block of ONE function of
  the arrays the region finds. The blocks of the 16 points tile the 32768 rows (row `r` lies in block `r / 2048`),
  so each result array ends holding that function.
-/
import proofs.«175657_j3204045603773_1_alg».proof.Proof.FrR0
import proofs.«175657_j3204045603773_1_alg».proof.Proof.Payload
import Idealize.ShloMosaic.Lib.Pipeline.Value
import Idealize.ShloMosaic.Lib.Tactic

set_option maxRecDepth 16384

noncomputable section

open scoped BigOperators

namespace Cert.KernelIdeal.FrV

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

/-! ## What the gate body leaves in its two result buffers -/

section Pieces
variable {F : FTy → Type} [FloatOps F]

theorem hz : (![0, 0] : Fin 2 → Nat) = fun _ => 0 := funext fun a => by fin_cases a <;> rfl

/-- The first result buffer ends holding the third payload of the loaded blocks: its one store covers the block,
    and every load reads a whole buffer. -/
theorem out0_7_eq (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) :
    out0_7 c i arg1 harg1 arg2 harg2 arg3 harg3 arg4 harg4 arg5 harg5 arg6 harg6 arg7 harg7 arg8 harg8 arg9 harg9 x0 x1 x2 x3 x4 x5 x6 = k0_pay3 x0 x1 x2 x3 x4 x5 := by
  unfold out0_7
  rw [View.read_writes_eq_canon _ _ _ (cover0_7 c i arg1 harg1 arg2 harg2 arg3 harg3 arg4 harg4 arg5 harg5 arg6 harg6 arg7 harg7 arg8 harg8 arg9 harg9 x0 x1 x2 x3 x4 x5 x6)]
  unfold kernelRun0
  dsimp only
  rw [View.canon_unit_zero hz]
  simp only [View.readAt_eq_ld, harg1.read_unread, harg2.read_unread, harg3.read_unread, harg4.read_unread, harg5.read_unread, harg6.read_unread, harg7.read_unread, View.ld_unit_zero (S := S2048x256) hz, View.ld_unit_zero (S := S256x128) hz, View.ld_unit_zero (S := S1x128) hz, View.ld_unit_zero (S := S128x256) hz, View.ld_unit_zero (S := S1x256) hz, View.ld_unit_zero (S := S256x256) hz]

/-- The second result buffer ends holding the fourth payload of the loaded blocks. -/
theorem out0_8_eq (c : Dev nD) (i : grid0.Coords) (arg1 : Memref sig .tc .vmem S2048x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S2048x256 .f32) (harg8 : arg8.IsWhole) (arg9 : Memref sig .tc .vmem S2048x256 .f32) (harg9 : arg9.IsWhole)
    (x0 : Vec F S2048x256 .f32) (x1 : Vec F S256x128 .f32) (x2 : Vec F S1x128 .f32) (x3 : Vec F S128x256 .f32) (x4 : Vec F S1x256 .f32) (x5 : Vec F S256x256 .f32) (x6 : Vec F S256x256 .f32) :
    out0_8 c i arg1 harg1 arg2 harg2 arg3 harg3 arg4 harg4 arg5 harg5 arg6 harg6 arg7 harg7 arg8 harg8 arg9 harg9 x0 x1 x2 x3 x4 x5 x6 = k0_pay4 x0 x1 x2 x3 x4 x6 := by
  unfold out0_8
  rw [View.read_writes_eq_canon _ _ _ (cover0_8 c i arg1 harg1 arg2 harg2 arg3 harg3 arg4 harg4 arg5 harg5 arg6 harg6 arg7 harg7 arg8 harg8 arg9 harg9 x0 x1 x2 x3 x4 x5 x6)]
  unfold kernelRun0
  dsimp only
  sl_unfold_words
  rw [View.canon_unit_zero hz]
  simp only [View.readAt_eq_ld, harg1.read_unread, harg2.read_unread, harg3.read_unread, harg4.read_unread, harg5.read_unread, harg6.read_unread, harg7.read_unread, View.ld_unit_zero (S := S2048x256) hz, View.ld_unit_zero (S := S256x128) hz, View.ld_unit_zero (S := S1x128) hz, View.ld_unit_zero (S := S128x256) hz, View.ld_unit_zero (S := S1x256) hz, View.ld_unit_zero (S := S256x256) hz]

end Pieces

/-! ## The blocks, read off the arrays the region finds -/

/-- The printed index maps over the grid's 16 points: the input's and the two results' blocks move down the rows
    with the point, the weights' and biases' blocks are the whole arrays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section Blocks
variable (V : (c : Dev nD) → (b : Ref sig .tc) → Buf (Elt Ideal) ((c : Thread nD τ).loc b))

/-- The input's block at point `t` is rows `2048 t … 2048 t + 2047` of the flattened input. -/
theorem iblk0_0_apply (c : Dev nD) (t : Fin cfg0.N) (p : Fin 2048) (k : Fin 256) (R : Fin 32768)
    (hR : R.val = 2048 * t.val + p.val) :
    (iblk0 V c 0 t : Vec Ideal S2048x256 .f32) (ix2 p k) = (V c main_v46 : S32768x256.Idx → EReal) (ix2 R k) := by
  obtain ⟨e0, e1, -⟩ := idx_facts0 t
  unfold iblk0
  rw [View.read_apply]
  show V c main_v46 _ = V c main_v46 _
  congr 1
  funext a
  apply Fin.ext
  match a with
  | ⟨0, _⟩ => show win0_0.index t (0 : Fin 2) * 2048 + 1 * p.val = R.val; rw [e0, hR]; omega
  | ⟨1, _⟩ => show win0_0.index t (1 : Fin 2) * 256 + 1 * k.val = k.val; rw [e1]; omega

/-- The first weight matrix's block is the matrix. -/
theorem iblk0_1_eq (c : Dev nD) (t : Fin cfg0.N) :
    (iblk0 V c 1 t : Vec Ideal S256x128 .f32) = (V c main_arg2 : S256x128.Idx → EReal) := by
  obtain ⟨-, -, e0, e1, -⟩ := idx_facts0 t
  funext y
  unfold iblk0
  rw [View.read_apply]
  show V c main_arg2 _ = V c main_arg2 _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The first bias row's block is the row. -/
theorem iblk0_2_eq (c : Dev nD) (t : Fin cfg0.N) :
    (iblk0 V c 2 t : Vec Ideal S1x128 .f32) = (V c main_v47 : S1x128.Idx → EReal) := by
  obtain ⟨-, -, -, -, e0, e1, -⟩ := idx_facts0 t
  funext y
  unfold iblk0
  rw [View.read_apply]
  show V c main_v47 _ = V c main_v47 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight matrix's block is the matrix. -/
theorem iblk0_3_eq (c : Dev nD) (t : Fin cfg0.N) :
    (iblk0 V c 3 t : Vec Ideal S128x256 .f32) = (V c main_arg4 : S128x256.Idx → EReal) := by
  obtain ⟨-, -, -, -, -, -, e0, e1, -⟩ := idx_facts0 t
  funext y
  unfold iblk0
  rw [View.read_apply]
  show V c main_arg4 _ = V c main_arg4 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The second bias row's block is the row. -/
theorem iblk0_4_eq (c : Dev nD) (t : Fin cfg0.N) :
    (iblk0 V c 4 t : Vec Ideal S1x256 .f32) = (V c main_v48 : S1x256.Idx → EReal) := by
  obtain ⟨-, -, -, -, -, -, -, -, e0, e1, -⟩ := idx_facts0 t
  funext y
  unfold iblk0
  rw [View.read_apply]
  show V c main_v48 _ = V c main_v48 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-- The first result's weight matrix's block is the matrix. -/
theorem iblk0_5_eq (c : Dev nD) (t : Fin cfg0.N) :
    (iblk0 V c 5 t : Vec Ideal S256x256 .f32) = (V c main_arg6 : S256x256.Idx → EReal) := by
  obtain ⟨-, -, -, -, -, -, -, -, -, -, e0, e1, -⟩ := idx_facts0 t
  funext y
  unfold iblk0
  rw [View.read_apply]
  show V c main_arg6 _ = V c main_arg6 _
  congr 1
  funext a
  apply Fin.ext
  match a with
  | ⟨0, _⟩ => show win0_5.index t (0 : Fin 2) * 256 + 1 * (y 0).val = (y 0).val; rw [e0]; omega
  | ⟨1, _⟩ => show win0_5.index t (1 : Fin 2) * 256 + 1 * (y 1).val = (y 1).val; rw [e1]; omega

/-- The second result's weight matrix's block is the matrix. -/
theorem iblk0_6_eq (c : Dev nD) (t : Fin cfg0.N) :
    (iblk0 V c 6 t : Vec Ideal S256x256 .f32) = (V c main_arg8 : S256x256.Idx → EReal) := by
  obtain ⟨-, -, -, -, -, -, -, -, -, -, -, -, e0, e1, -⟩ := idx_facts0 t
  funext y
  unfold iblk0
  rw [View.read_apply]
  show V c main_arg8 _ = V c main_arg8 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 256 + 1 * (y 1).val = (y 1).val; rw [e1]; omega

end Blocks

/-! ## Each result array is the gated rows of the whole input -/

/-- A gated row depends on its own row of the input only. -/
theorem gateOut_row {n n' : Nat} (neg : Bool) (x : Fin n → Fin 256 → EReal) (x' : Fin n' → Fin 256 → EReal)
    (w1 : Fin 256 → Fin 128 → EReal) (b1 : Fin 128 → EReal) (w2 : Fin 128 → Fin 256 → EReal) (b2 : Fin 256 → EReal)
    (w : Fin 256 → Fin 256 → EReal) (r : Fin n) (r' : Fin n') (h : ∀ k, x r k = x' r' k) (f : Fin 256) :
    Cert.Spec.gateOut neg x w1 b1 w2 b2 w r f = Cert.Spec.gateOut neg x' w1 b1 w2 b2 w r' f := by
  unfold Cert.Spec.gateOut Cert.Spec.gateZ
  simp only [h]

/-- The gated rows of the whole flattened input through a weight matrix, as an array. -/
def gated (neg : Bool) (X : S32768x256.Idx → EReal) (W1 : S256x128.Idx → EReal) (B1 : S1x128.Idx → EReal)
    (W2 : S128x256.Idx → EReal) (B2 : S1x256.Idx → EReal) (W : S256x256.Idx → EReal) : S32768x256.Idx → EReal :=
  fun i => Cert.Spec.gateOut neg (fun r k => X (ix2 r k)) (fun k h => W1 (ix2 k h)) (fun h => B1 (ix2 0 h))
    (fun h d => W2 (ix2 h d)) (fun d => B2 (ix2 0 d)) (fun d f => W (ix2 d f))
    ⟨(i 0).val, idx2_lt0 i⟩ ⟨(i 1).val, idx2_lt1 i⟩

/-- A block of the first result is the same block of the gated rows of the whole input. -/
theorem pay3_block (x0 : Vec Ideal S2048x256 .f32) (x1 : Vec Ideal S256x128 .f32) (x2 : Vec Ideal S1x128 .f32)
    (x3 : Vec Ideal S128x256 .f32) (x4 : Vec Ideal S1x256 .f32) (x5 : Vec Ideal S256x256 .f32)
    (X : S32768x256.Idx → EReal) (W1 : S256x128.Idx → EReal) (B1 : S1x128.Idx → EReal) (W2 : S128x256.Idx → EReal)
    (B2 : S1x256.Idx → EReal) (W : S256x256.Idx → EReal) (t : Nat)
    (hx : ∀ (p : Fin 2048) (k : Fin 256) (R : Fin 32768), R.val = 2048 * t + p.val → x0 (ix2 p k) = X (ix2 R k))
    (h1 : x1 = W1) (h2 : x2 = B1) (h3 : x3 = W2) (h4 : x4 = B2) (h5 : x5 = W)
    (y : S2048x256.Idx) (i : S32768x256.Idx) (hi0 : (i 0).val = 2048 * t + (y 0).val) (hi1 : (i 1).val = (y 1).val) :
    k0_pay3 (F := Ideal) x0 x1 x2 x3 x4 x5 y = gated true X W1 B1 W2 B2 W i := by
  subst h1 h2 h3 h4 h5
  obtain ⟨p, q, rfl⟩ : ∃ (p : Fin 2048) (q : Fin 256), y = ix2 p q := ⟨y 0, y 1, eq_ix2 y⟩
  rw [Cert.KernelIdeal.Pay.pay3_apply]
  unfold gated
  have hq : (⟨(i 1).val, idx2_lt1 i⟩ : Fin 256) = q := Fin.ext hi1
  rw [hq]
  exact gateOut_row true _ _ _ _ _ _ _ p ⟨(i 0).val, idx2_lt0 i⟩ (fun k => hx p k _ hi0) q

/-- A block of the second result is the same block of the gated rows of the whole input. -/
theorem pay4_block (x0 : Vec Ideal S2048x256 .f32) (x1 : Vec Ideal S256x128 .f32) (x2 : Vec Ideal S1x128 .f32)
    (x3 : Vec Ideal S128x256 .f32) (x4 : Vec Ideal S1x256 .f32) (x5 : Vec Ideal S256x256 .f32)
    (X : S32768x256.Idx → EReal) (W1 : S256x128.Idx → EReal) (B1 : S1x128.Idx → EReal) (W2 : S128x256.Idx → EReal)
    (B2 : S1x256.Idx → EReal) (W : S256x256.Idx → EReal) (t : Nat)
    (hx : ∀ (p : Fin 2048) (k : Fin 256) (R : Fin 32768), R.val = 2048 * t + p.val → x0 (ix2 p k) = X (ix2 R k))
    (h1 : x1 = W1) (h2 : x2 = B1) (h3 : x3 = W2) (h4 : x4 = B2) (h5 : x5 = W)
    (y : S2048x256.Idx) (i : S32768x256.Idx) (hi0 : (i 0).val = 2048 * t + (y 0).val) (hi1 : (i 1).val = (y 1).val) :
    k0_pay4 (F := Ideal) x0 x1 x2 x3 x4 x5 y = gated false X W1 B1 W2 B2 W i := by
  subst h1 h2 h3 h4 h5
  obtain ⟨p, q, rfl⟩ : ∃ (p : Fin 2048) (q : Fin 256), y = ix2 p q := ⟨y 0, y 1, eq_ix2 y⟩
  rw [Cert.KernelIdeal.Pay.pay4_apply]
  unfold gated
  have hq : (⟨(i 1).val, idx2_lt1 i⟩ : Fin 256) = q := Fin.ext hi1
  rw [hq]
  exact gateOut_row false _ _ _ _ _ _ _ p ⟨(i 0).val, idx2_lt0 i⟩ (fun k => hx p k _ hi0) q

section Arrays
variable (V : (c : Dev nD) → (b : Ref sig .tc) → Buf (Elt Ideal) ((c : Thread nD τ).loc b))

/-- What point `t` writes back to the first result is its block of the gated rows. -/
theorem flushed0_7_eq (c : Dev nD) (t : Fin cfg0.N) :
    (dat0 V c).flushed 7 t = ((cfg0.win 7).blk t).view.read (Elt Ideal)
      (gated true (V c main_v46) (V c main_arg2) (V c main_v47) (V c main_arg4) (V c main_v48) (V c main_arg6)) := by
  show (cfg0.win 7).cut (grid0.coords t) ((dat0 V c).after 7 t) = _
  rw [after0_7, out0_7_eq]
  obtain ⟨-, -, -, -, -, -, -, -, -, -, -, -, -, -, e70, e71, e80, e81⟩ := idx_facts0 t
  funext j
  rw [View.read_apply]
  refine pay3_block (iblk0 V c 0 t) (iblk0 V c 1 t) (iblk0 V c 2 t) (iblk0 V c 3 t) (iblk0 V c 4 t) (iblk0 V c 5 t)
    (V c main_v46) (V c main_arg2) (V c main_v47) (V c main_arg4) (V c main_v48) (V c main_arg6) t.val
    (fun p k R h => iblk0_0_apply V c t p k R h) (iblk0_1_eq V c t) (iblk0_2_eq V c t) (iblk0_3_eq V c t)
    (iblk0_4_eq V c t) (iblk0_5_eq V c t) ((cfg0.win 7).xinj (grid0.coords t) j) (((cfg0.win 7).blk t).view.emb j) ?_ ?_
  · show win0_7.index t (0 : Fin 2) * 2048 + 1 * (j 0).val = 2048 * t.val + (j 0).val
    rw [e70]; omega
  · show win0_7.index t (1 : Fin 2) * 256 + 1 * (j 1).val = (j 1).val
    rw [e71]; omega

/-- An index of the array is in point `t`'s block iff each coordinate is in the block's range on its axis. -/
theorem mem_blk0_7 (t : Fin cfg0.N) (i : S32768x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v49_0).slice (win0_7.rect t)).set ↔ _
  rw [View.set_slice_whole, Rect.mem_set_unit]
  exact Iff.rfl

/-- Row `r` lies in the block of point `r / 2048`. -/
theorem covered0_7 (i : S32768x256.Idx) :
    ∃ t : Fin cfg0.N, (cfg0.win 7).flush t = true ∧ i ∈ ((cfg0.win 7).blk t).view.set := by
  have hi0 : (i 0).val < 32768 := idx2_lt0 i
  have hi1 : (i 1).val < 256 := idx2_lt1 i
  have hN : cfg0.N = 16 := N_0
  have ht : (i 0).val / 2048 < cfg0.N := by rw [hN]; omega
  obtain ⟨-, -, -, -, -, -, -, -, -, -, -, -, -, -, e70, e71, e80, e81⟩ := idx_facts0 ⟨(i 0).val / 2048, ht⟩
  refine ⟨⟨(i 0).val / 2048, ht⟩, flush0_7 _, ?_⟩
  rw [mem_blk0_7]
  intro a
  match a with
  | ⟨0, _⟩ =>
    show win0_7.index ⟨(i 0).val / 2048, ht⟩ (0 : Fin 2) * 2048 ≤ (i 0).val ∧ (i 0).val < win0_7.index ⟨(i 0).val / 2048, ht⟩ (0 : Fin 2) * 2048 + 2048
    rw [e70]; show (i 0).val / 2048 * 2048 ≤ (i 0).val ∧ (i 0).val < (i 0).val / 2048 * 2048 + 2048; omega
  | ⟨1, _⟩ =>
    show win0_7.index ⟨(i 0).val / 2048, ht⟩ (1 : Fin 2) * 256 ≤ (i 1).val ∧ (i 1).val < win0_7.index ⟨(i 0).val / 2048, ht⟩ (1 : Fin 2) * 256 + 256
    rw [e71]; omega

/-- What point `t` writes back to the second result is its block of the gated rows. -/
theorem flushed0_8_eq (c : Dev nD) (t : Fin cfg0.N) :
    (dat0 V c).flushed 8 t = ((cfg0.win 8).blk t).view.read (Elt Ideal)
      (gated false (V c main_v46) (V c main_arg2) (V c main_v47) (V c main_arg4) (V c main_v48) (V c main_arg8)) := by
  show (cfg0.win 8).cut (grid0.coords t) ((dat0 V c).after 8 t) = _
  rw [after0_8, out0_8_eq]
  obtain ⟨-, -, -, -, -, -, -, -, -, -, -, -, -, -, e70, e71, e80, e81⟩ := idx_facts0 t
  funext j
  rw [View.read_apply]
  refine pay4_block (iblk0 V c 0 t) (iblk0 V c 1 t) (iblk0 V c 2 t) (iblk0 V c 3 t) (iblk0 V c 4 t) (iblk0 V c 6 t)
    (V c main_v46) (V c main_arg2) (V c main_v47) (V c main_arg4) (V c main_v48) (V c main_arg8) t.val
    (fun p k R h => iblk0_0_apply V c t p k R h) (iblk0_1_eq V c t) (iblk0_2_eq V c t) (iblk0_3_eq V c t)
    (iblk0_4_eq V c t) (iblk0_6_eq V c t) ((cfg0.win 8).xinj (grid0.coords t) j) (((cfg0.win 8).blk t).view.emb j) ?_ ?_
  · show win0_8.index t (0 : Fin 2) * 2048 + 1 * (j 0).val = 2048 * t.val + (j 0).val
    rw [e80]; omega
  · show win0_8.index t (1 : Fin 2) * 256 + 1 * (j 1).val = (j 1).val
    rw [e81]; omega

/-- An index of the array is in point `t`'s block iff each coordinate is in the block's range on its axis. -/
theorem mem_blk0_8 (t : Fin cfg0.N) (i : S32768x256.Idx) :
    i ∈ ((cfg0.win 8).blk t).view.set ↔ ∀ a : Fin 2, win0_8.index t a * S2048x256.size a ≤ (i a).val ∧ (i a).val < win0_8.index t a * S2048x256.size a + S2048x256.size a := by
  show i ∈ ((View.whole main_v49_1).slice (win0_8.rect t)).set ↔ _
  rw [View.set_slice_whole, Rect.mem_set_unit]
  exact Iff.rfl

/-- Row `r` lies in the block of point `r / 2048`. -/
theorem covered0_8 (i : S32768x256.Idx) :
    ∃ t : Fin cfg0.N, (cfg0.win 8).flush t = true ∧ i ∈ ((cfg0.win 8).blk t).view.set := by
  have hi0 : (i 0).val < 32768 := idx2_lt0 i
  have hi1 : (i 1).val < 256 := idx2_lt1 i
  have hN : cfg0.N = 16 := N_0
  have ht : (i 0).val / 2048 < cfg0.N := by rw [hN]; omega
  obtain ⟨-, -, -, -, -, -, -, -, -, -, -, -, -, -, e70, e71, e80, e81⟩ := idx_facts0 ⟨(i 0).val / 2048, ht⟩
  refine ⟨⟨(i 0).val / 2048, ht⟩, flush0_8 _, ?_⟩
  rw [mem_blk0_8]
  intro a
  match a with
  | ⟨0, _⟩ =>
    show win0_8.index ⟨(i 0).val / 2048, ht⟩ (0 : Fin 2) * 2048 ≤ (i 0).val ∧ (i 0).val < win0_8.index ⟨(i 0).val / 2048, ht⟩ (0 : Fin 2) * 2048 + 2048
    rw [e80]; show (i 0).val / 2048 * 2048 ≤ (i 0).val ∧ (i 0).val < (i 0).val / 2048 * 2048 + 2048; omega
  | ⟨1, _⟩ =>
    show win0_8.index ⟨(i 0).val / 2048, ht⟩ (1 : Fin 2) * 256 ≤ (i 1).val ∧ (i 1).val < win0_8.index ⟨(i 0).val / 2048, ht⟩ (1 : Fin 2) * 256 + 256
    rw [e81]; omega

/-- The first result array after the region: the rows gated by the logistic function of the negated pre-activation,
    through their weight matrix. -/
theorem region0_adj (c : Dev nD) (r : Fin 32768) (f : Fin 256) :
    ((dat0 (F := Ideal) V c).arrAt 7 cfg0.N : S32768x256.Idx → EReal) (ix2 r f) =
      Cert.Spec.gateOut true (fun r k => (V c main_v46 : S32768x256.Idx → EReal) (ix2 r k)) (fun k h => (V c main_arg2 : S256x128.Idx → EReal) (ix2 k h)) (fun h => (V c main_v47 : S1x128.Idx → EReal) (ix2 0 h)) (fun h d => (V c main_arg4 : S128x256.Idx → EReal) (ix2 h d)) (fun d => (V c main_v48 : S1x256.Idx → EReal) (ix2 0 d)) (fun d f => (V c main_arg6 : S256x256.Idx → EReal) (ix2 d f)) r f :=
  congrFun ((dat0 V c).arrAt_eq_of_cover 7
    (gated true (V c main_v46) (V c main_arg2) (V c main_v47) (V c main_arg4) (V c main_v48) (V c main_arg6))
    (fun t _ => flushed0_7_eq V c t) covered0_7) (ix2 r f)

/-- The second result array after the region: the rows gated by the logistic function of the pre-activation, through
    their weight matrix. -/
theorem region0_conf (c : Dev nD) (r : Fin 32768) (f : Fin 256) :
    ((dat0 (F := Ideal) V c).arrAt 8 cfg0.N : S32768x256.Idx → EReal) (ix2 r f) =
      Cert.Spec.gateOut false (fun r k => (V c main_v46 : S32768x256.Idx → EReal) (ix2 r k)) (fun k h => (V c main_arg2 : S256x128.Idx → EReal) (ix2 k h)) (fun h => (V c main_v47 : S1x128.Idx → EReal) (ix2 0 h)) (fun h d => (V c main_arg4 : S128x256.Idx → EReal) (ix2 h d)) (fun d => (V c main_v48 : S1x256.Idx → EReal) (ix2 0 d)) (fun d f => (V c main_arg8 : S256x256.Idx → EReal) (ix2 d f)) r f :=
  congrFun ((dat0 V c).arrAt_eq_of_cover 8
    (gated false (V c main_v46) (V c main_arg2) (V c main_v47) (V c main_arg4) (V c main_v48) (V c main_arg8))
    (fun t _ => flushed0_8_eq V c t) covered0_8) (ix2 r f)

end Arrays

end Cert.KernelIdeal.FrV

end
-- ==== Proof.FrV1.lean ====
/-
  The adjacency region's result array, over the extended reals.

  The grid's 32 points are `t = 16 i + 2 j + k`: row block `i` of 2, column block `j` of 8, half `k` of the 2048-long
  contraction, the half running fastest; blocks are 1024 by 1024. At a first half the body zeroes the accumulator and
  adds the block product of adjacency block `(i, 0)` with rows' block `(0, j)`; at the last half it adds the product
  of blocks `(i, 1)` and `(1, j)`, then stores the accumulator plus the bias row's block `j` as result block `(i, j)`,
  the only point at which that block is written back. Read at an entry this is zero, plus the lower half of the
  contraction, plus the upper half, plus the bias: the dense propagation's arrangement exactly. The 16 written blocks
  tile the 2048 by 8192 array (entry `(r, k)` lies in the block of point `16 (r / 1024) + 2 (k / 1024) + 1`).
-/
import proofs.«175657_j3204045603773_1_alg».proof.Proof.FrR1
import proofs.«175657_j3204045603773_1_alg».proof.Proof.Payload
import Idealize.ShloMosaic.Lib.Pipeline.Value
import Idealize.ShloMosaic.Lib.Tactic

set_option maxRecDepth 16384

noncomputable section

open scoped BigOperators

namespace Cert.KernelIdeal.FrV

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)

/-! ## What the adjacency body leaves in the accumulator and in the result buffer -/

section Pieces
variable {F : FTy → Type} [FloatOps F]

theorem hz1 : (![0, 0] : Fin 2 → Nat) = fun _ => 0 := funext fun a => by fin_cases a <;> rfl

/-- A first half leaves in the accumulator the zero block plus the block product: the zeroing store is read back
    whole, and the second store covers the buffer. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    sout1_A_0 c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  try sl_unfold_words
  rw [View.canon_cons_unit_zero hz1, View.readCov_unit_zero (S := S1024x1024) _ hz1]
  simp only [View.readAt_eq_ld, harg3.read_unread, harg4.read_unread, View.ld_unit_zero (S := S1024x1024) hz1]

/-- A last half leaves in the result buffer the accumulator plus the block product plus the bias row: the
    accumulator's store is read back whole. -/
theorem out1_B_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    out1_B_3 c i arg3 harg3 arg4 harg4 arg5 harg5 arg6 harg6 arg7 harg7 hc0 hc1 x0 x1 x2 xs0 = k1_pay3 (k1_pay2 xs0 x0 x1) x2 := by
  unfold out1_B_3
  rw [View.read_writes_eq_canon _ _ _ (cover1_B_3 c i arg3 harg3 arg4 harg4 arg5 harg5 arg6 harg6 arg7 harg7 hc0 hc1 x0 x1 x2 xs0)]
  unfold kernelRun1_B
  dsimp only
  try sl_unfold_words
  rw [View.canon_unit_zero hz1, View.readCov_unit_zero (S := S1024x1024) _ hz1]
  simp only [View.readAt_eq_ld, harg3.read_unread, harg4.read_unread, harg5.read_unread, harg7.read_unread, View.ld_unit_zero (S := S1024x1024) hz1, View.ld_unit_zero (S := S1x1024) hz1]

end Pieces

/-! ## The blocks, read off the arrays the region finds -/

/-- The printed index maps over the grid's 32 points `t = 16 i + 2 j + k`: the adjacency block is `(i, k)`, the rows'
    block `(k, j)`, the bias block `(0, j)`, the result block `(i, j)`. -/
theorem idx_facts1 : ∀ t : Fin cfg1.N,
    win1_0.index t (0 : Fin 2) = t.val / 16 ∧ win1_0.index t (1 : Fin 2) = t.val % 2
    ∧ win1_1.index t (0 : Fin 2) = t.val % 2 ∧ win1_1.index t (1 : Fin 2) = t.val / 2 % 8
    ∧ win1_2.index t (0 : Fin 2) = 0 ∧ win1_2.index t (1 : Fin 2) = t.val / 2 % 8
    ∧ win1_3.index t (0 : Fin 2) = t.val / 16 ∧ win1_3.index t (1 : Fin 2) = t.val / 2 % 8 :=
  (by decide +kernel : ∀ t : Fin grid1.N, _)

section Blocks
variable (V : (c : Dev nD) → (b : Ref sig .tc) → Buf (Elt Ideal) ((c : Thread nD τ).loc b))

/-- The adjacency block at point `t`. -/
theorem iblk1_0_apply (c : Dev nD) (t : Fin cfg1.N) (p l : Fin 1024) (I L : Fin 2048)
    (hI : I.val = 1024 * (t.val / 16) + p.val) (hL : L.val = 1024 * (t.val % 2) + l.val) :
    (iblk1 V c 0 t : Vec Ideal S1024x1024 .bf16) (ix2 p l) = (V c main_v45 : S2048x2048.Idx → EReal) (ix2 I L) := by
  obtain ⟨e0, e1, -⟩ := idx_facts1 t
  unfold iblk1
  rw [View.read_apply]
  show V c main_v45 _ = V c main_v45 _
  congr 1
  funext a
  apply Fin.ext
  match a with
  | ⟨0, _⟩ => show win1_0.index t (0 : Fin 2) * 1024 + 1 * p.val = I.val; rw [e0, hI]; omega
  | ⟨1, _⟩ => show win1_0.index t (1 : Fin 2) * 1024 + 1 * l.val = L.val; rw [e1, hL]; omega

/-- The rows' block at point `t`. -/
theorem iblk1_1_apply (c : Dev nD) (t : Fin cfg1.N) (l q : Fin 1024) (L : Fin 2048) (K : Fin 8192)
    (hL : L.val = 1024 * (t.val % 2) + l.val) (hK : K.val = 1024 * (t.val / 2 % 8) + q.val) :
    (iblk1 V c 1 t : Vec Ideal S1024x1024 .bf16) (ix2 l q) = (V c main_v53 : S2048x8192.Idx → EReal) (ix2 L K) := by
  obtain ⟨-, -, e0, e1, -⟩ := idx_facts1 t
  unfold iblk1
  rw [View.read_apply]
  show V c main_v53 _ = V c main_v53 _
  congr 1
  funext a
  apply Fin.ext
  match a with
  | ⟨0, _⟩ => show win1_1.index t (0 : Fin 2) * 1024 + 1 * l.val = L.val; rw [e0, hL]; omega
  | ⟨1, _⟩ => show win1_1.index t (1 : Fin 2) * 1024 + 1 * q.val = K.val; rw [e1, hK]; omega

/-- The bias block at point `t`. -/
theorem iblk1_2_apply (c : Dev nD) (t : Fin cfg1.N) (q : Fin 1024) (K : Fin 8192)
    (hK : K.val = 1024 * (t.val / 2 % 8) + q.val) :
    (iblk1 V c 2 t : Vec Ideal S1x1024 .f32) (ix2 0 q) = (V c main_v61 : S1x8192.Idx → EReal) (ix2 0 K) := by
  obtain ⟨-, -, -, -, e0, e1, -⟩ := idx_facts1 t
  unfold iblk1
  rw [View.read_apply]
  show V c main_v61 _ = V c main_v61 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * q.val = K.val; rw [e1, hK]; omega

end Blocks

/-! ## The result array is the dense propagation -/

/-- The dense propagation of the whole arrays, as an array. -/
def propagated (A : S2048x2048.Idx → EReal) (B : S2048x8192.Idx → EReal) (Bi : S1x8192.Idx → EReal) : S2048x8192.Idx → EReal :=
  fun i => Cert.Spec.accOut (fun i j => A (ix2 i j)) (fun j k => B (ix2 j k)) (fun k => Bi (ix2 0 k))
    ⟨(i 0).val, idx2_lt0 i⟩ ⟨(i 1).val, idx2_lt1 i⟩

/-- A result block — the zero block, plus the two halves' block products in order, plus the bias row — is the same
    block of the dense propagation: row block `bi`, column block `bj`. -/
theorem acc_block (a0 b0 a1 b1 : Vec Ideal S1024x1024 .bf16) (bias : Vec Ideal S1x1024 .f32)
    (A : S2048x2048.Idx → EReal) (B : S2048x8192.Idx → EReal) (Bi : S1x8192.Idx → EReal) (bi bj : Nat)
    (ha0 : ∀ (p l : Fin 1024) (I L : Fin 2048), I.val = 1024 * bi + p.val → L.val = l.val → a0 (ix2 p l) = A (ix2 I L))
    (ha1 : ∀ (p l : Fin 1024) (I L : Fin 2048), I.val = 1024 * bi + p.val → L.val = 1024 + l.val → a1 (ix2 p l) = A (ix2 I L))
    (hb0 : ∀ (l q : Fin 1024) (L : Fin 2048) (K : Fin 8192), L.val = l.val → K.val = 1024 * bj + q.val → b0 (ix2 l q) = B (ix2 L K))
    (hb1 : ∀ (l q : Fin 1024) (L : Fin 2048) (K : Fin 8192), L.val = 1024 + l.val → K.val = 1024 * bj + q.val → b1 (ix2 l q) = B (ix2 L K))
    (hbias : ∀ (q : Fin 1024) (K : Fin 8192), K.val = 1024 * bj + q.val → bias (ix2 0 q) = Bi (ix2 0 K))
    (y : S1024x1024.Idx) (i : S2048x8192.Idx) (hi0 : (i 0).val = 1024 * bi + (y 0).val) (hi1 : (i 1).val = 1024 * bj + (y 1).val) :
    k1_pay3 (F := Ideal) (k1_pay2 (k1_pay2 k1_pay1 a0 b0) a1 b1) bias y = propagated A B Bi i := by
  obtain ⟨p, q, rfl⟩ : ∃ (p : Fin 1024) (q : Fin 1024), y = ix2 p q := ⟨y 0, y 1, eq_ix2 y⟩
  rw [Cert.KernelIdeal.Pay.pay1_3_apply, Cert.KernelIdeal.Pay.pay1_2_apply, Cert.KernelIdeal.Pay.pay1_2_apply,
    Cert.KernelIdeal.Pay.pay1_1_apply]
  unfold propagated Cert.Spec.accOut
  have e0 : ∑ l : Fin 1024, a0 (ix2 p l) * b0 (ix2 l q)
      = ∑ j : Fin 1024, A (ix2 (⟨(i 0).val, idx2_lt0 i⟩ : Fin 2048) (Cert.Spec.lo j)) * B (ix2 (Cert.Spec.lo j) (⟨(i 1).val, idx2_lt1 i⟩ : Fin 8192)) :=
    Finset.sum_congr rfl fun l _ => by
      rw [ha0 p l ⟨(i 0).val, idx2_lt0 i⟩ (Cert.Spec.lo l) hi0 rfl, hb0 l q (Cert.Spec.lo l) ⟨(i 1).val, idx2_lt1 i⟩ rfl hi1]
  have e1 : ∑ l : Fin 1024, a1 (ix2 p l) * b1 (ix2 l q)
      = ∑ j : Fin 1024, A (ix2 (⟨(i 0).val, idx2_lt0 i⟩ : Fin 2048) (Cert.Spec.hi j)) * B (ix2 (Cert.Spec.hi j) (⟨(i 1).val, idx2_lt1 i⟩ : Fin 8192)) :=
    Finset.sum_congr rfl fun l _ => by
      rw [ha1 p l ⟨(i 0).val, idx2_lt0 i⟩ (Cert.Spec.hi l) hi0 rfl, hb1 l q (Cert.Spec.hi l) ⟨(i 1).val, idx2_lt1 i⟩ rfl hi1]
  rw [e0, e1, hbias q ⟨(i 1).val, idx2_lt1 i⟩ hi1]

section Arrays
variable (V : (c : Dev nD) → (b : Ref sig .tc) → Buf (Elt Ideal) ((c : Thread nD τ).loc b))

/-- What a last half writes back is its block of the dense propagation: the accumulator it builds on is what the
    first half before it left. -/
theorem flushed1_3_eq (c : Dev nD) (t : Fin cfg1.N) (hf : (cfg1.win 3).flush t = true) :
    (dat1 V c).flushed 3 t = ((cfg1.win 3).blk t).view.read (Elt Ideal)
      (propagated (V c main_v45) (V c main_v53) (V c main_v61)) := by
  have h1 : t.val % 2 = 1 := (flush1_3 t).mp hf
  have h0 : ¬t.val % 2 = 0 := by omega
  have hN : cfg1.N = 32 := N_1
  have htN : t.val < 32 := hN ▸ t.isLt
  have hlt : t.val - 1 < cfg1.N := Nat.lt_of_le_of_lt (Nat.sub_le _ _) t.isLt
  have h0' : (⟨t.val - 1, hlt⟩ : Fin cfg1.N).val % 2 = 0 := by show (t.val - 1) % 2 = 0; omega
  have h1' : ¬(⟨t.val - 1, hlt⟩ : Fin cfg1.N).val % 2 = 1 := by show ¬(t.val - 1) % 2 = 1; omega
  have hA : (outsAt1 V c (t.val - 1) hlt).2 = _ := congrArg Prod.snd (outsAt1_A V c ⟨t.val - 1, hlt⟩ h0' h1')
  show (cfg1.win 3).cut (grid1.coords t) ((dat1 V c).after 3 t) = _
  rw [after1_3, outsAt1_B V c t h0 h1]
  dsimp only
  rw [out1_B_3_eq, hA]
  dsimp only
  rw [sout1_A_0_eq]
  obtain ⟨-, -, -, -, -, -, e30, e31⟩ := idx_facts1 t
  funext j
  rw [View.read_apply]
  refine acc_block (iblk1 V c 0 ⟨t.val - 1, hlt⟩) (iblk1 V c 1 ⟨t.val - 1, hlt⟩) (iblk1 V c 0 t) (iblk1 V c 1 t) (iblk1 V c 2 t)
    (V c main_v45) (V c main_v53) (V c main_v61) (t.val / 16) (t.val / 2 % 8)
    (fun p l I L hI hL => iblk1_0_apply V c ⟨t.val - 1, hlt⟩ p l I L (by show I.val = 1024 * ((t.val - 1) / 16) + p.val; omega) (by show L.val = 1024 * ((t.val - 1) % 2) + l.val; omega))
    (fun p l I L hI hL => iblk1_0_apply V c t p l I L hI (by omega))
    (fun l q L K hL hK => iblk1_1_apply V c ⟨t.val - 1, hlt⟩ l q L K (by show L.val = 1024 * ((t.val - 1) % 2) + l.val; omega) (by show K.val = 1024 * ((t.val - 1) / 2 % 8) + q.val; omega))
    (fun l q L K hL hK => iblk1_1_apply V c t l q L K (by omega) hK)
    (fun q K hK => iblk1_2_apply V c t q K hK)
    ((cfg1.win 3).xinj (grid1.coords t) j) (((cfg1.win 3).blk t).view.emb j) ?_ ?_
  · show win1_3.index t (0 : Fin 2) * 1024 + 1 * (j 0).val = 1024 * (t.val / 16) + (j 0).val
    rw [e30]; omega
  · show win1_3.index t (1 : Fin 2) * 1024 + 1 * (j 1).val = 1024 * (t.val / 2 % 8) + (j 1).val
    rw [e31]; omega

/-- An index of the array is in point `t`'s block iff each coordinate is in the block's range on its axis. -/
theorem mem_blk1_3 (t : Fin cfg1.N) (i : S2048x8192.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v62).slice (win1_3.rect t)).set ↔ _
  rw [View.set_slice_whole, Rect.mem_set_unit]
  exact Iff.rfl

/-- Entry `(r, k)` lies in the block written back at the last half of row block `r / 1024`, column block `k / 1024`. -/
theorem covered1_3 (i : S2048x8192.Idx) :
    ∃ t : Fin cfg1.N, (cfg1.win 3).flush t = true ∧ i ∈ ((cfg1.win 3).blk t).view.set := by
  have hi0 : (i 0).val < 2048 := idx2_lt0 i
  have hi1 : (i 1).val < 8192 := idx2_lt1 i
  have hN : cfg1.N = 32 := N_1
  have ht : 16 * ((i 0).val / 1024) + 2 * ((i 1).val / 1024) + 1 < cfg1.N := by rw [hN]; omega
  obtain ⟨-, -, -, -, -, -, e30, e31⟩ := idx_facts1 ⟨16 * ((i 0).val / 1024) + 2 * ((i 1).val / 1024) + 1, ht⟩
  refine ⟨⟨16 * ((i 0).val / 1024) + 2 * ((i 1).val / 1024) + 1, ht⟩, (flush1_3 _).mpr (by show (16 * ((i 0).val / 1024) + 2 * ((i 1).val / 1024) + 1) % 2 = 1; omega), ?_⟩
  rw [mem_blk1_3]
  intro a
  match a with
  | ⟨0, _⟩ =>
    show win1_3.index ⟨16 * ((i 0).val / 1024) + 2 * ((i 1).val / 1024) + 1, ht⟩ (0 : Fin 2) * 1024 ≤ (i 0).val ∧ (i 0).val < win1_3.index ⟨16 * ((i 0).val / 1024) + 2 * ((i 1).val / 1024) + 1, ht⟩ (0 : Fin 2) * 1024 + 1024
    rw [e30]; show (16 * ((i 0).val / 1024) + 2 * ((i 1).val / 1024) + 1) / 16 * 1024 ≤ (i 0).val ∧ (i 0).val < (16 * ((i 0).val / 1024) + 2 * ((i 1).val / 1024) + 1) / 16 * 1024 + 1024; omega
  | ⟨1, _⟩ =>
    show win1_3.index ⟨16 * ((i 0).val / 1024) + 2 * ((i 1).val / 1024) + 1, ht⟩ (1 : Fin 2) * 1024 ≤ (i 1).val ∧ (i 1).val < win1_3.index ⟨16 * ((i 0).val / 1024) + 2 * ((i 1).val / 1024) + 1, ht⟩ (1 : Fin 2) * 1024 + 1024
    rw [e31]; show (16 * ((i 0).val / 1024) + 2 * ((i 1).val / 1024) + 1) / 2 % 8 * 1024 ≤ (i 1).val ∧ (i 1).val < (16 * ((i 0).val / 1024) + 2 * ((i 1).val / 1024) + 1) / 2 % 8 * 1024 + 1024; omega

/-- The result array after the region: the dense propagation of the arrays the region finds. -/
theorem region1_out (c : Dev nD) (i : Fin 2048) (k : Fin 8192) :
    ((dat1 (F := Ideal) V c).arrAt 3 cfg1.N : S2048x8192.Idx → EReal) (ix2 i k) =
      Cert.Spec.accOut (fun i j => (V c main_v45 : S2048x2048.Idx → EReal) (ix2 i j)) (fun j k => (V c main_v53 : S2048x8192.Idx → EReal) (ix2 j k)) (fun k => (V c main_v61 : S1x8192.Idx → EReal) (ix2 0 k)) i k :=
  congrFun ((dat1 V c).arrAt_eq_of_cover 3 (propagated (V c main_v45) (V c main_v53) (V c main_v61))
    (flushed1_3_eq V c) covered1_3) (ix2 i k)

end Arrays

end Cert.KernelIdeal.FrV

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.HostEdges.lean ====
/-
  The edge list and the degrees, as the program's first stretch of host operations leaves them.

  The program appends one self loop per node to the given edges: word e of the source list is row 0 of the edge
  index for e below 32768 and the node number e - 32768 after that, and likewise the target list from row 1. The
  in-degree of node v is a sum of ones, one for every edge whose target word, read as a signed integer, is v; when
  every target word is a node number this is the number of edges into v.
-/
import proofs.«175657_j3204045603773_1_alg».proof.Proof.Gen.KernelIdeal.Regions
import proofs.«175657_j3204045603773_1_alg».proof.Proof.Spec
import proofs.«175657_j3204045603773_1_alg».proof.Proof.LibLineOfOps
import proofs.«175657_j3204045603773_1_alg».proof.Proof.LibScatterAddRows
import Idealize.ShloMosaic.Lib.Pipeline.Value
import Idealize.ShloMosaic.PureOps.Ideal.Laws

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

/-- A slice of one row of the edge index, flattened, followed by the node numbers: the edge list's word. -/
theorem edgeWord_of_chain (a : Fin 2) (off : Fin 2 → Nat) (h0 : off 0 = a.val) (h1 : off 1 = 0)
    (arg : S2x32768.Idx → BitVec 32) (hsl : S2x32768.Slices off S1x32768) (hsc : S1x32768.ShapeCasts S32768)
    (hcat : Shape.Concatenates [S32768, S2048] S34816 0) (e : Fin 34816) :
    concatenate S34816 0 [⟨S32768, shapeCast S32768 (extractStridedSlice S1x32768 off arg hsl) hsc⟩,
        ⟨S2048, iotaInDim S2048 32 0⟩] hcat (ix1 e)
      = Cert.Spec.edgeWord (fun a e => arg (ix2 a e)) a e := by
  unfold Cert.Spec.edgeWord
  by_cases h : e.val < 32768
  · rw [dif_pos h]
    refine (concatenate_pair_apply_left (t := S34816) (s₁ := S32768) (s₂ := S2048) (0 : Fin 1) _ _ hcat (ix1 e) rfl (ix1 (⟨e.val, h⟩ : Fin 32768))
      (fun b => ?_)).trans ?_
    · match b with
      | ⟨0, _⟩ => rfl
    refine (shapeCast_apply _ hsc (ix1 (⟨e.val, h⟩ : Fin 32768)) (ix2 (0 : Fin 1) (⟨e.val, h⟩ : Fin 32768)) ?_).trans ?_
    · rw [Shape.rowMajor_val_two, Shape.rowMajor_val_one]
      show 0 * 32768 + e.val = e.val
      omega
    refine (extractStridedSlice_apply off arg hsl _ (ix2 a (⟨e.val, h⟩ : Fin 32768)) (fun b => ?_)).trans rfl
    match b with
    | ⟨0, _⟩ => show a.val = off 0 + 0; omega
    | ⟨1, _⟩ => show e.val = off 1 + e.val; omega
  · rw [dif_neg h]
    have he := e.isLt
    refine (concatenate_pair_apply_right (t := S34816) (s₁ := S32768) (s₂ := S2048) (0 : Fin 1) _ _ hcat (ix1 e) rfl rfl
      (ix1 (⟨e.val - 32768, by omega⟩ : Fin 2048)) (fun b hb => ?_) ?_).trans rfl
    · match b with
      | ⟨0, _⟩ => exact absurd rfl hb
    · show e.val - 32768 + 32768 = e.val
      omega

variable (m : (ℓ : Loc nD τ sig) → Buf (Elt Ideal) ℓ) (c : Dev nD)

/-- Every operation of the first stretch writes the buffer of its own value. -/
theorem writes0 : WritesEach (hostOps0 (F := Ideal)) hostOps0_W := by
  repeat (first | exact List.Forall₂.nil | refine List.Forall₂.cons rfl ?_)

/-- The edge index as the first stretch finds it. -/
theorem V1_arg1 : V1 m c main_arg1 = m ((c.tc : Thread nD τ).loc main_arg1) :=
  (V1_of m c main_arg1 (by decide)).trans rfl

/-- Word `e` of the source list. -/
theorem V1_src (e : Fin 34816) :
    (V1 m c main_v3 : S34816.Idx → BitVec 32) (ix1 e)
      = Cert.Spec.edgeWord (fun a e => (m ((c.tc : Thread nD τ).loc main_arg1) : S2x32768.Idx → BitVec 32) (ix2 a e)) 0 e := by
  have e3 := after_binary writes0 (V0 m c) 3 main_v2 main_v0 main_v3 _ _ _ _ rfl (by decide) (by decide) (by decide)
  have e2 := after_reshape writes0 (V0 m c) 2 main_v1 main_v2 rfl shapeCasts_S1x32768_S32768 _ _ rfl (by decide) (by decide)
  have e1 := after_unary writes0 (V0 m c) 1 main_arg1 main_v1 _ _ _ rfl (by decide) (by decide)
  have e0 := after_nullary writes0 (V0 m c) 0 main_v0 _ _ rfl (by decide)
  show after hostOps0 (V0 m c) (Proc.devRef .tc main_v3) (ix1 e) = _
  rw [e3, e2, e1, e0]
  exact (edgeWord_of_chain 0 ![0, 0] rfl rfl _ _ _ _ e).trans (by rw [← V1_arg1 m c])

/-- Word `e` of the target list. -/
theorem V1_dst (e : Fin 34816) :
    (V1 m c main_v6 : S34816.Idx → BitVec 32) (ix1 e)
      = Cert.Spec.edgeWord (fun a e => (m ((c.tc : Thread nD τ).loc main_arg1) : S2x32768.Idx → BitVec 32) (ix2 a e)) 1 e := by
  have e6 := after_binary writes0 (V0 m c) 6 main_v5 main_v0 main_v6 _ _ _ _ rfl (by decide) (by decide) (by decide)
  have e5 := after_reshape writes0 (V0 m c) 5 main_v4 main_v5 rfl shapeCasts_S1x32768_S32768 _ _ rfl (by decide) (by decide)
  have e4 := after_unary writes0 (V0 m c) 4 main_arg1 main_v4 _ _ _ rfl (by decide) (by decide)
  have e0 := after_nullary writes0 (V0 m c) 0 main_v0 _ _ rfl (by decide)
  show after hostOps0 (V0 m c) (Proc.devRef .tc main_v6) (ix1 e) = _
  rw [e6, e5, e4, e0]
  exact (edgeWord_of_chain 1 ![1, 0] rfl rfl _ _ _ _ e).trans (by rw [← V1_arg1 m c])

/-- The word of the number one. -/
theorem ofBits_one_f32 : Ideal.ofBits .f32 0x3F800000#32 = 1 := by
  simp [Ideal.ofBits, Ideal.ieee, -EReal.coe_mul]; norm_num

/-- A scalar constant broadcast to a vector, at an entry. -/
theorem bcast_scalar_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A vector made a column, at an entry. -/
theorem bcast_col_apply {α : Type} (h : S34816.BroadcastsInDim S34816x1 (![0] : Fin 1 → Fin S34816x1.rank))
    (x : S34816.Idx → α) (e : Fin 34816) : broadcastInDim S34816x1 ![0] h x (ix2 e (0 : Fin 1)) = x (ix1 e) :=
  broadcastInDim_apply _ h x _ (ix1 e) (fun a => by
    match a with
    | ⟨0, _⟩ => rfl)

/-- A segment sum of ones into zeros, over target words that are node numbers, counts the edges into a node. -/
theorem deg_of_scatter (sd : ScatterDims S2048 S34816x1 S34816)
    (h1 : sd.updateWindowDims = []) (h2 : sd.insertedWindowDims = [0]) (h3 : sd.scatterDimsToOperandDims = [0])
    (h4 : sd.indexVectorDim = 1) (z : S2048.Idx → EReal) (hz : ∀ j, z j = 0) (idx : IVec S34816x1 32)
    (ones : S34816.Idx → EReal) (hones : ∀ j, ones j = 1) (d : Fin 34816 → Fin 2048)
    (hd : ∀ e, (idx (ix2 e (0 : Fin 1))).toInt = ((d e).val : Int)) (v : Fin 2048) :
    Ideal.hostScatterAdd sd z idx ones (ix1 v) = Cert.Spec.deg d v := by
  rw [LibScatterAddRows.scatterAdd_elems_apply sd h1 h2 h3 h4, hz, zero_add]
  unfold Cert.Spec.deg
  refine Finset.sum_congr rfl fun e _ => ?_
  rw [hd e, hones]
  by_cases h : d e = v
  · rw [if_pos h, if_pos (by rw [h])]
  · rw [if_neg h, if_neg (fun h' => h (Fin.ext (by exact_mod_cast h')))]

/-- The in-degree of node `v`, when every target word is a node number. -/
theorem V1_deg (d : Fin 34816 → Fin 2048)
    (hd : ∀ e, (Cert.Spec.edgeWord (fun a e => (m ((c.tc : Thread nD τ).loc main_arg1) : S2x32768.Idx → BitVec 32) (ix2 a e)) 1 e).toInt = ((d e).val : Int))
    (v : Fin 2048) : (V1 m c main_v10 : S2048.Idx → EReal) (ix1 v) = Cert.Spec.deg d v := by
  have e12 := after_ternary writes0 (V0 m c) 12 main_v8 main_v9 main_v7 main_v10 _ _ _ _ _ rfl (by decide) (by decide) (by decide) (by decide)
  have e11 := after_unary writes0 (V0 m c) 11 main_v6 main_v9 _ _ _ rfl (by decide) (by decide)
  have e10 := after_unary writes0 (V0 m c) 10 main_cst_0 main_v8 _ _ _ rfl (by decide) (by decide)
  have e9 := after_nullary writes0 (V0 m c) 9 main_cst_0 _ _ rfl (by decide)
  have e8 := after_unary writes0 (V0 m c) 8 main_cst main_v7 _ _ _ rfl (by decide) (by decide)
  have e7 := after_nullary writes0 (V0 m c) 7 main_cst _ _ rfl (by decide)
  show after hostOps0 (V0 m c) (Proc.devRef .tc main_v10) (ix1 v) = _
  rw [e12, e11, e10, e9, e8, e7]
  refine deg_of_scatter scatter_S2048_S34816x1_S34816_n_0_0_1 rfl rfl rfl rfl _ (fun j => ?_) _ _ (fun j => ?_) d (fun e => ?_) v
  · exact (bcast_scalar_apply _ _ j).trans Ideal.ofBits_zero_f32
  · exact (bcast_scalar_apply _ _ j).trans ofBits_one_f32
  · rw [bcast_col_apply]
    exact (congrArg BitVec.toInt (V1_dst m c e)).trans (hd e)

/-- "The degree is positive", node by node. -/
theorem V1_pos (v : Fin 2048) :
    (V1 m c main_v12 : S2048.Idx → BitVec 1) (ix1 v)
      = Ideal.cmp .ogt ((V1 m c main_v10 : S2048.Idx → EReal) (ix1 v)) 0 := by
  have e15 := after_binary writes0 (V0 m c) 15 main_v10 main_v11 main_v12 _ _ _ _ rfl (by decide) (by decide) (by decide)
  have e14 := after_unary writes0 (V0 m c) 14 main_cst_1 main_v11 _ _ _ rfl (by decide) (by decide)
  have e13 := after_nullary writes0 (V0 m c) 13 main_cst_1 _ _ rfl (by decide)
  show after hostOps0 (V0 m c) (Proc.devRef .tc main_v12) (ix1 v)
    = Ideal.cmp .ogt (after hostOps0 (V0 m c) (Proc.devRef .tc main_v10) (ix1 v)) 0
  rw [e15, e14, e13]
  generalize after hostOps0 (V0 m c) (Proc.devRef .tc main_v10) = x
  show Ideal.cmp .ogt ((x : S2048.Idx → EReal) (ix1 v))
    (broadcastInDim S2048 ![] bcast_S_S2048 (constant (F := Ideal) S_ .f32 0x00000000#32) (ix1 v)) = _
  rw [bcast_scalar_apply, constant_apply, Ideal.ofBits_zero_f32]

/-- The inverse square root of the degree, node by node. -/
theorem V1_rsqrt (v : Fin 2048) :
    (V1 m c main_v13 : S2048.Idx → EReal) (ix1 v) = Ideal.rsqrt ((V1 m c main_v10 : S2048.Idx → EReal) (ix1 v)) := by
  have e16 := after_unary writes0 (V0 m c) 16 main_v10 main_v13 _ _ _ rfl (by decide) (by decide)
  show after hostOps0 (V0 m c) (Proc.devRef .tc main_v13) (ix1 v)
    = Ideal.rsqrt (after hostOps0 (V0 m c) (Proc.devRef .tc main_v10) (ix1 v))
  rw [e16]
  generalize after hostOps0 (V0 m c) (Proc.devRef .tc main_v10) = x
  rfl

/-- The zero the normaliser falls back to. -/
theorem V1_zero : (V1 m c main_cst_2 : S_.Idx → EReal) ix0 = (0 : EReal) := by
  have e17 := after_nullary writes0 (V0 m c) 17 main_cst_2 _ _ rfl (by decide)
  show after hostOps0 (V0 m c) (Proc.devRef .tc main_cst_2) ix0 = _
  rw [e17]
  exact Ideal.ofBits_zero_f32

end Cert.KernelIdeal.Host

end
-- ==== Proof.LibFiberSum.lean ====
/-
  Sums over fibres with nonnegative weights, on the extended reals.

  A message-passing layer over a multigraph can be written two ways. Every edge `k` of a finite set `s` carries a
  weight `w k`, a source `src k` and a target `dst k`; `y` holds one value per node.

  * sparse: row `i` of the result is the sum, over the edges `k` with target `i`, of `w k * y (src k)`
    (gather the sources' values, scale them, add them up by target);
  * dense: the weights are first added up into an adjacency matrix, `A i j` = the sum of `w k` over the edges from
    `j` to `i` (parallel edges add), and row `i` of the result is `∑ j, A i j * y j`.

  On the real numbers the two agree by distributivity. On the extended reals multiplication does NOT distribute over
  addition in general (`(⊤ + ⊥) * (-1) = ⊤` while `⊤ * (-1) + ⊥ * (-1) = ⊥`), but it does over NONNEGATIVE
  summands whatever the other factor is. Symmetric-normalisation weights `d(src)^(-1/2) * d(dst)^(-1/2)` are
  nonnegative, so the two forms agree with no finiteness assumption on `y` at all.
-/
import Mathlib.Data.EReal.Operations
import Mathlib.Algebra.BigOperators.Group.Finset.Basic
import Mathlib.Algebra.Order.BigOperators.Group.Finset

namespace LibFiberSum

open Finset

/-- A sum of nonnegative extended reals times any extended real is the sum of the products: the one case of
    distributivity the extended reals keep without a finiteness assumption on the common factor. -/
theorem sum_mul_of_nonneg {κ : Type*} (s : Finset κ) (w : κ → EReal) (c : EReal) (hw : ∀ k ∈ s, 0 ≤ w k) :
    (∑ k ∈ s, w k) * c = ∑ k ∈ s, w k * c := by
  classical
  revert hw
  refine Finset.induction_on s ?_ ?_
  · intro _; simp
  · intro a t ha ih hw
    rw [Finset.sum_insert ha, Finset.sum_insert ha,
      EReal.right_distrib_of_nonneg (hw a (Finset.mem_insert_self a t))
        (Finset.sum_nonneg fun k hk => hw k (Finset.mem_insert_of_mem hk)),
      ih fun k hk => hw k (Finset.mem_insert_of_mem hk)]

/-- The same with the common factor on the left. -/
theorem mul_sum_of_nonneg {κ : Type*} (s : Finset κ) (w : κ → EReal) (c : EReal) (hw : ∀ k ∈ s, 0 ≤ w k) :
    c * (∑ k ∈ s, w k) = ∑ k ∈ s, c * w k := by
  rw [EReal.mul_comm c (∑ k ∈ s, w k), sum_mul_of_nonneg s w c hw]
  exact Finset.sum_congr rfl fun k _ => EReal.mul_comm (w k) c

/-- Adding the weights up by source first and then pairing each total with its node's value is the same as pairing
    every edge's weight with its source's value and adding everything up. -/
theorem sum_fiber_mul {κ ι : Type*} [Fintype ι] [DecidableEq ι] (s : Finset κ) (src : κ → ι) (w : κ → EReal)
    (y : ι → EReal) (hw : ∀ k ∈ s, 0 ≤ w k) :
    ∑ j, (∑ k ∈ s.filter (fun k => src k = j), w k) * y j = ∑ k ∈ s, w k * y (src k) := by
  have h1 : ∀ j, (∑ k ∈ s.filter (fun k => src k = j), w k) * y j
      = ∑ k ∈ s.filter (fun k => src k = j), w k * y (src k) := by
    intro j
    rw [sum_mul_of_nonneg _ _ _ (fun k hk => hw k (Finset.mem_of_mem_filter k hk))]
    exact Finset.sum_congr rfl fun k hk => by rw [(Finset.mem_filter.mp hk).2]
  rw [Finset.sum_congr rfl fun j _ => h1 j]
  exact Finset.sum_fiberwise s src fun k => w k * y (src k)

/-- Dense equals sparse, one target row at a time: the adjacency entry `A i j` is the total weight of the edges from
    `j` to `i`, and `∑ j, A i j * y j` is the sum over the edges into `i` of weight times the source's value. -/
theorem dense_row_eq_sparse_row {κ ι : Type*} [Fintype ι] [DecidableEq ι] (s : Finset κ) (dst src : κ → ι)
    (w : κ → EReal) (y : ι → EReal) (hw : ∀ k ∈ s, 0 ≤ w k) (i : ι) :
    ∑ j, (∑ k ∈ s.filter (fun k => dst k = i ∧ src k = j), w k) * y j
      = ∑ k ∈ s.filter (fun k => dst k = i), w k * y (src k) := by
  have h := sum_fiber_mul (s.filter fun k => dst k = i) src w y
    (fun k hk => hw k (Finset.mem_of_mem_filter k hk))
  simpa only [Finset.filter_filter] using h

end LibFiberSum
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.LibDegreeNorm.lean ====
/-
  The degree normaliser is a non-negative real.

  A node's degree is a segment sum of ones over the edges that land on it: zero plus a finite sum of terms each 0 or 1,
  hence a non-negative real. The normaliser is 0 where the degree is not positive and the inverse square root of the
  degree where it is; the inverse square root of a positive real is the inverse of its real square root. Either way the
  normaliser is a real number and is not negative.
-/
import Mathlib
import proofs.«175657_j3204045603773_1_alg».proof.Proof.LibScatterAddRows
import proofs.«175657_j3204045603773_1_alg».proof.Proof.LibRealMask

open scoped BigOperators

namespace Cert.LibDegreeNorm

open Idealize.ShloMosaic Idealize.ShloMosaic.ValueIdx

/-- A finite sum of terms each 0 or 1 is a non-negative real. -/
theorem sum_zero_one {ι : Type*} (s : Finset ι) (f : ι → EReal) (hf : ∀ i, f i = 0 ∨ f i = 1) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    rw [Finset.sum_insert ha, e]
    rcases hf a with h | h
    · exact ⟨r, hr, by rw [h, zero_add]⟩
    · refine ⟨1 + r, by positivity, ?_⟩
      rw [h, EReal.coe_add, EReal.coe_one]

/-- The normaliser of a degree that is a non-negative real: 0, or the inverse of a real square root. -/
theorem select_rsqrt (r : ℝ) (hr : 0 ≤ r) :
    0 ≤ Scalar.select (Ideal.cmp .ogt (r : EReal) 0) (Ideal.rsqrt (r : EReal)) (0 : EReal)
    ∧ Scalar.select (Ideal.cmp .ogt (r : EReal) 0) (Ideal.rsqrt (r : EReal)) (0 : EReal) ≠ ⊤ := by
  have hc : Ideal.cmp .ogt (r : EReal) 0 = BitVec.ofBool (decide ((0 : ℝ) < r)) := by
    rw [← EReal.coe_zero]; exact LibRealMask.cmp_ogt_coe r 0
  rw [hc, LibRealMask.sel_bool]
  by_cases h : (0 : ℝ) < r
  · rw [if_pos (decide_eq_true h), LibRealMask.rsqrt_coe r h]
    exact ⟨EReal.coe_nonneg.mpr (inv_nonneg.mpr (Real.sqrt_nonneg r)), EReal.coe_ne_top _⟩
  · rw [if_neg (by simpa using h)]
    exact ⟨le_refl _, EReal.zero_ne_top⟩

/-- The normaliser at node `p`, from the degree as a segment sum of ones into zeros. -/
theorem dinv_entry {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : (⟨1, ![N]⟩ : Shape).Idx → EReal) (hz : ∀ j, z j = 0)
    (dst : IVec ⟨2, ![E, 1]⟩ w) (ones : (⟨1, ![E]⟩ : Shape).Idx → EReal) (hones : ∀ j, ones j = 1) (p : Fin N) :
    0 ≤ Scalar.select (Ideal.cmp .ogt (Ideal.hostScatterAdd d z dst ones (ix1 p)) 0)
          (Ideal.rsqrt (Ideal.hostScatterAdd d z dst ones (ix1 p))) (0 : EReal)
    ∧ Scalar.select (Ideal.cmp .ogt (Ideal.hostScatterAdd d z dst ones (ix1 p)) 0)
          (Ideal.rsqrt (Ideal.hostScatterAdd d z dst ones (ix1 p))) (0 : EReal) ≠ ⊤ := by
  rw [LibScatterAddRows.scatterAdd_elems_apply d h1 h2 h3 h4, hz, zero_add]
  obtain ⟨r, hr, e⟩ := sum_zero_one Finset.univ
    (fun e : Fin E => if (dst (ix2 e (0 : Fin 1))).toInt = (p.val : Int) then ones (ix1 e) else 0)
    (fun e => by by_cases h : (dst (ix2 e (0 : Fin 1))).toInt = (p.val : Int)
                 · exact Or.inr (by rw [if_pos h, hones])
                 · exact Or.inl (by rw [if_neg h]))
  rw [e]
  exact select_rsqrt r hr

end Cert.LibDegreeNorm
-- ==== Proof.HostLaw.lean ====
/-
  The law that joins the dense propagation to the sum over edges.

  The degree of a node is a finite sum of zeros and ones, so a non-negative real; its normaliser is zero or the inverse
  of a real square root, so again a non-negative real, and so is every edge's weight, a product of two normalisers.
  Row n of the dense adjacency holds at column j the total weight of the edges from j to n. Non-negative weights are
  the one case in which a product distributes over a sum of extended reals whatever the other factor is, hence the row
  against a column of values is the sum, over the edges into n, of the source's value times the edge's weight, with no
  finiteness asked of the values. The contraction taken in two halves is the whole contraction.
-/
import proofs.«175657_j3204045603773_1_alg».proof.Proof.Spec
import proofs.«175657_j3204045603773_1_alg».proof.Proof.LibFiberSum
import proofs.«175657_j3204045603773_1_alg».proof.Proof.LibDegreeNorm
import proofs.«175657_j3204045603773_1_alg».proof.Proof.LibRealMask

noncomputable section

open scoped BigOperators

namespace Cert.KernelIdeal.Host

open Idealize.ShloMosaic Cert.Spec

/-- The degree of a node is a non-negative real. -/
theorem deg_real (d : Fin 34816 → Fin 2048) (v : Fin 2048) : ∃ r : ℝ, 0 ≤ r ∧ deg d v = (r : EReal) :=
  LibDegreeNorm.sum_zero_one Finset.univ _ fun e => by
    by_cases h : d e = v
    · exact Or.inr (if_pos h)
    · exact Or.inl (if_neg h)

/-- The normaliser as the program computes it: a select on "the degree is positive". -/
theorem dinv_eq_select (d : Fin 34816 → Fin 2048) (v : Fin 2048) :
    dinv d v = Scalar.select (Ideal.cmp .ogt (deg d v) 0) (Ideal.rsqrt (deg d v)) 0 := by
  unfold dinv
  show _ = Scalar.select (BitVec.ofBool (decide (0 < deg d v))) _ _
  rw [LibRealMask.sel_bool]
  by_cases h : 0 < deg d v
  · rw [if_pos h, if_pos (decide_eq_true h)]
  · rw [if_neg h, if_neg (by simpa using h)]

/-- The normaliser is not negative. -/
theorem dinv_nonneg (d : Fin 34816 → Fin 2048) (v : Fin 2048) : 0 ≤ dinv d v := by
  obtain ⟨r, hr, e⟩ := deg_real d v
  rw [dinv_eq_select, e]
  exact (LibDegreeNorm.select_rsqrt r hr).1

/-- An edge's weight is not negative. -/
theorem norm_nonneg (s d : Fin 34816 → Fin 2048) (e : Fin 34816) : 0 ≤ norm s d e :=
  EReal.mul_nonneg (dinv_nonneg d (s e)) (dinv_nonneg d (d e))

/-- A row of the dense adjacency against a column of values is the sum over the edges into the node. -/
theorem dense_eq_sparse (s d : Fin 34816 → Fin 2048) (A : Fin 2048 → Fin 2048 → EReal)
    (hA : ∀ i j, A i j = ∑ e : Fin 34816, if d e = i ∧ s e = j then norm s d e else 0)
    (Y : Fin 2048 → EReal) (n : Fin 2048) :
    ∑ j : Fin 2048, A n j * Y j = ∑ e : Fin 34816, if d e = n then Y (s e) * norm s d e else 0 := by
  have h := LibFiberSum.dense_row_eq_sparse_row (Finset.univ : Finset (Fin 34816)) d s (norm s d) Y
    (fun e _ => norm_nonneg s d e) n
  calc ∑ j : Fin 2048, A n j * Y j
      = ∑ j : Fin 2048, (∑ k ∈ Finset.univ.filter (fun k => d k = n ∧ s k = j), norm s d k) * Y j := by
        refine Finset.sum_congr rfl fun j _ => ?_
        rw [hA n j, Finset.sum_filter]
    _ = ∑ k ∈ Finset.univ.filter (fun k => d k = n), norm s d k * Y (s k) := h
    _ = ∑ e : Fin 34816, if d e = n then Y (s e) * norm s d e else 0 := by
        rw [Finset.sum_filter]
        refine Finset.sum_congr rfl fun e _ => ?_
        by_cases he : d e = n
        · rw [if_pos he, if_pos he, mul_comm]
        · rw [if_neg he, if_neg he]

/-- The two halves of the contraction, accumulated from zero, are the whole contraction. -/
theorem sum_halves (g : Fin 2048 → EReal) :
    (0 + ∑ j : Fin 1024, g (lo j)) + ∑ j : Fin 1024, g (hi j) = ∑ j : Fin 2048, g j := by
  rw [zero_add]
  exact (Fin.sum_univ_add (M := EReal) (a := 1024) (b := 1024) g).symm

/-- The dense propagation is the graph convolution. -/
theorem accOut_eq_conv {N : Nat} (s d : Fin 34816 → Fin 2048) (A : Fin 2048 → Fin 2048 → EReal)
    (hA : ∀ i j, A i j = ∑ e : Fin 34816, if d e = i ∧ s e = j then norm s d e else 0)
    (XW : Fin 2048 → Fin N → EReal) (bias : Fin N → EReal) (n : Fin 2048) (k : Fin N) :
    accOut A XW bias n k = (∑ e : Fin 34816, if d e = n then XW (s e) k * norm s d e else 0) + bias k := by
  unfold accOut
  rw [sum_halves (fun j => A n j * XW j k), dense_eq_sparse s d A hA (fun j => XW j k) n]

end Cert.KernelIdeal.Host

end
-- ==== Proof.HostDinv.lean ====
/-
  The normaliser of every node, as the outlined "where" leaves it: the inverse square root of the degree where the
  degree is positive, zero elsewhere.
-/
import proofs.«175657_j3204045603773_1_alg».proof.Proof.HostEdges
import proofs.«175657_j3204045603773_1_alg».proof.Proof.HostLaw

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

variable (m : (ℓ : Loc nD τ sig) → Buf (Elt Ideal) ℓ) (c : Dev nD)

/-- Every operation of the "where" writes the buffer of its own value. -/
theorem writes1 : WritesEach (hostOps0_1 (F := Ideal)) hostOps0_1_W := by
  repeat (first | exact List.Forall₂.nil | refine List.Forall₂.cons rfl ?_)

/-- The normaliser of node `v`, when every target word is a node number. -/
theorem V2_dinv (d : Fin 34816 → Fin 2048)
    (hd : ∀ e, (Cert.Spec.edgeWord (fun a e => (m ((c.tc : Thread nD τ).loc main_arg1) : S2x32768.Idx → BitVec 32) (ix2 a e)) 1 e).toInt = ((d e).val : Int))
    (v : Fin 2048) : (V2 m c main_v14 : S2048.Idx → EReal) (ix1 v) = Cert.Spec.dinv d v := by
  have e2 := after_ternary writes1 (V1 m c) 2 main_v12 main_v13 main_call0_v1 main_v14 _ _ _ _ _ rfl
    (by decide) (by decide) (by decide) (by decide)
  have e1 := after_unary writes1 (V1 m c) 1 main_call0_v0 main_call0_v1 _ _ _ rfl (by decide) (by decide)
  have e0 := after_unary writes1 (V1 m c) 0 main_cst_2 main_call0_v0 _ _ _ rfl (by decide) (by decide)
  have a12 : after hostOps0_1 (V1 m c) (Proc.devRef .tc main_v12) = V1 m c main_v12 := V2_of m c main_v12 (by decide)
  have a13 : after hostOps0_1 (V1 m c) (Proc.devRef .tc main_v13) = V1 m c main_v13 := V2_of m c main_v13 (by decide)
  have ac : after hostOps0_1 (V1 m c) (Proc.devRef .tc main_cst_2) = V1 m c main_cst_2 := V2_of m c main_cst_2 (by decide)
  have hp := V1_pos m c v
  have hr := V1_rsqrt m c v
  have hz := V1_zero m c
  rw [V1_deg m c d hd v] at hp hr
  show after hostOps0_1 (V1 m c) (Proc.devRef .tc main_v14) (ix1 v) = _
  rw [e2, e1, e0, a12, a13, ac]
  revert hp hr hz
  generalize V1 m c main_v12 = p
  generalize V1 m c main_v13 = r
  generalize V1 m c main_cst_2 = z
  intro hp hr hz
  show Scalar.select ((p : S2048.Idx → BitVec 1) (ix1 v)) ((r : S2048.Idx → EReal) (ix1 v))
    (broadcastInDim S2048 ![] bcast_S_S2048 (z : S_.Idx → EReal) (ix1 v)) = _
  rw [bcast_scalar_apply, hp, hr, hz, dinv_eq_select]

end Cert.KernelIdeal.Host

end
-- ==== Proof.LibScatterAddPairs.lean ====
/-
  A scatter-add of numbers into a matrix at (row, column) pairs, read at an entry. The operand is a matrix [N, M], the
  scatter indices a table [E, 2] whose row e is the pair (row, column) update e goes to, the updates a vector [E], and
  the dimension numbers are those of `matrix.at[rows, cols].add(updates)`: both operand axes are inserted window axes
  and both are named by the start index, whose two components sit along the index table's second axis. Update e lands
  on entry (p, q) exactly when idx[e, 0] and idx[e, 1], read as signed integers and NOT clamped, are p and q; it is
  dropped otherwise. So on the extended reals entry (p, q) of the result is the operand's entry plus the sum over the
  updates e with idx[e, 0] = p and idx[e, 1] = q of update e. Stated for any record with those dimension numbers.
-/
import Idealize.ShloMosaic.Lib.ValueIdx
import Idealize.ShloMosaic.PureOps.Ideal
import proofs.«175657_j3204045603773_1_alg».proof.Proof.LibScatterAddRows

noncomputable section

open scoped BigOperators

namespace Cert.LibScatterAddPairs

open Idealize.ShloMosaic Idealize.ShloMosaic.ValueIdx

/-- The start of update `e` on the row axis: `idx[e, 0]` read signed. -/
theorem pairs_start0 {N M E w : Nat} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1) (idx : IVec ⟨2, ![E, 2]⟩ w) (e : Fin E) :
    d.start (ix1 e) idx 0 = (idx (ix2 e (0 : Fin 2))).toInt := by
  obtain ⟨uw, iw, sd, iv, wf⟩ := d
  dsimp only at h1 h2 h3 h4
  subst h1 h2 h3 h4
  unfold ScatterDims.start
  rw [dif_pos (show (0 : Fin 2) ∈ ([0, 1] : List (Fin 2)) from List.mem_cons_self)]
  refine congrArg (fun z : (⟨2, ![E, 2]⟩ : Shape).Idx => (idx z).toInt) ?_
  funext b; refine Fin.ext ?_
  match b with
  | ⟨0, _⟩ => rfl
  | ⟨1, _⟩ => rfl

/-- The start of update `e` on the column axis: `idx[e, 1]` read signed. -/
theorem pairs_start1 {N M E w : Nat} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1) (idx : IVec ⟨2, ![E, 2]⟩ w) (e : Fin E) :
    d.start (ix1 e) idx 1 = (idx (ix2 e (1 : Fin 2))).toInt := by
  obtain ⟨uw, iw, sd, iv, wf⟩ := d
  dsimp only at h1 h2 h3 h4
  subst h1 h2 h3 h4
  unfold ScatterDims.start
  rw [dif_pos (show (1 : Fin 2) ∈ ([0, 1] : List (Fin 2)) from List.mem_cons_of_mem _ List.mem_cons_self)]
  refine congrArg (fun z : (⟨2, ![E, 2]⟩ : Shape).Idx => (idx z).toInt) ?_
  funext b; refine Fin.ext ?_
  match b with
  | ⟨0, _⟩ => rfl
  | ⟨1, _⟩ => rfl

/-- Both operand axes are inserted: the window has no extent along either. -/
theorem pairs_window {N M E : Nat} (d : ScatterDims ⟨2, ![N, M]⟩ ⟨2, ![E, 2]⟩ ⟨1, ![E]⟩)
    (h2 : d.insertedWindowDims = [0, 1]) (j : (⟨1, ![E]⟩ : Shape).Idx) (a : Fin 2) :
    d.window j a = 0 := by
  obtain ⟨uw, iw, sd, iv, wf⟩ := d
  dsimp only at h2
  subst h2
  unfold ScatterDims.window
  rw [dif_neg]
  match a with
  | ⟨0, _⟩ => simp [ScatterDims.sKept, Shape.kept]
  | ⟨1, _⟩ => simp [ScatterDims.sKept, Shape.kept]

/-- Update `e` lands on entry `(p, q)` exactly when its index pair is `(p, q)`. -/
theorem pairs_resultIdx {N M E w : Nat} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1) (idx : IVec ⟨2, ![E, 2]⟩ w) (e : Fin E) (p : Fin N) (q : Fin M) :
    d.resultIdx? (ix1 e) idx = some (ix2 p q)
      ↔ (idx (ix2 e (0 : Fin 2))).toInt = (p.val : Int) ∧ (idx (ix2 e (1 : Fin 2))).toInt = (q.val : Int) := by
  have hs0 := pairs_start0 d h1 h2 h3 h4 idx e
  have hs1 := pairs_start1 d h1 h2 h3 h4 idx e
  have hw0 := pairs_window d h2 (ix1 e) 0
  have hw1 := pairs_window d h2 (ix1 e) 1
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have v1 : (d.start (ix1 e) idx 1 + d.window (ix1 e) 1).toNat = q.val := congrArg Fin.val (congrFun hv 1)
      have h0 := (hall 0).1
      have h1' := (hall 1).1
      rw [hs0, hw0] at v0 h0
      rw [hs1, hw1] at v1 h1'
      exact ⟨by omega, by omega⟩
    · exact absurd h (by simp)
  · rintro ⟨ht0, ht1⟩
    unfold ScatterDims.resultIdx?
    have hall : ∀ a, 0 ≤ d.start (ix1 e) idx a + d.window (ix1 e) a ∧
        d.start (ix1 e) idx a + d.window (ix1 e) a < (⟨2, ![N, M]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht0]; omega
      | ⟨1, _⟩ =>
        have := q.isLt
        show 0 ≤ d.start (ix1 e) idx 1 + d.window (ix1 e) 1 ∧ d.start (ix1 e) idx 1 + d.window (ix1 e) 1 < (M : Int)
        rw [hs1, hw1, ht1]; omega
    rw [dif_pos hall]
    congr 1; funext a; refine Fin.ext ?_
    match a with
    | ⟨0, _⟩ =>
      show (d.start (ix1 e) idx 0 + d.window (ix1 e) 0).toNat = p.val
      rw [hs0, hw0, ht0]; omega
    | ⟨1, _⟩ =>
      show (d.start (ix1 e) idx 1 + d.window (ix1 e) 1).toNat = q.val
      rw [hs1, hw1, ht1]; omega

/-- A pair scatter-add at entry `(p, q)`: the operand's entry plus the updates whose index pair is `(p, q)`. -/
theorem scatterAdd_pairs_apply {N M E w : Nat} (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1) (x : (⟨2, ![N, M]⟩ : Shape).Idx → EReal) (idx : IVec ⟨2, ![E, 2]⟩ w)
    (upd : (⟨1, ![E]⟩ : Shape).Idx → EReal) (p : Fin N) (q : Fin M) :
    Ideal.hostScatterAdd d x idx upd (ix2 p q)
      = x (ix2 p q) + ∑ e : Fin E,
          if (idx (ix2 e (0 : Fin 2))).toInt = (p.val : Int) ∧ (idx (ix2 e (1 : Fin 2))).toInt = (q.val : Int)
          then upd (ix1 e) else 0 := by
  unfold Ideal.hostScatterAdd
  congr 1
  rw [Finset.sum_filter, LibScatterAddRows.sum_idx1]
  refine Finset.sum_congr rfl fun e _ => ?_
  by_cases ht : (idx (ix2 e (0 : Fin 2))).toInt = (p.val : Int) ∧ (idx (ix2 e (1 : Fin 2))).toInt = (q.val : Int)
  · rw [if_pos ht, if_pos ((pairs_resultIdx d h1 h2 h3 h4 idx e p q).mpr ht)]
  · rw [if_neg ht, if_neg (fun h => ht ((pairs_resultIdx d h1 h2 h3 h4 idx e p q).mp h))]

end Cert.LibScatterAddPairs

end
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.LibWrapRow.lean ====
/-
  An index that lands on a row is that row after wrapping and clamping.

  A segment sum sends update row e to the operand row its index names when the index, read as a signed integer and not
  clamped, is a row number p. A row gather first moves a negative index up by the number of rows and then clamps it into
  range. An index equal to a row number p is not negative and is in range, so both leave it alone: the gathered row is p.
-/
import Mathlib
import proofs.«175657_j3204045603773_1_alg».proof.Proof.LibGatherRows
import proofs.«175657_j3204045603773_1_alg».proof.Proof.LibRealMask
import Idealize.ShloMosaic.Lib.ValueIdx

namespace Cert.LibWrapRow

open Idealize.ShloMosaic Idealize.ShloMosaic.ValueIdx

theorem row_of_hit {E N : ℕ} (hN : 0 < N) (wcol : IVec ⟨2, ![E, 1]⟩ 32) (d t : BitVec 32) (e : Fin E)
    (hw : wcol (ix2 e (0 : Fin 1)) = Scalar.select (IntOp.cmpi .slt d 0#32) t d)
    (p : Fin N) (h : d.toInt = (p.val : Int)) : LibGatherRows.row hN wcol e = p := by
  have hs : IntOp.cmpi .slt d 0#32 = BitVec.ofBool false := by
    simp only [IntOp.cmpi]
    congr 1
    rw [Bool.eq_false_iff]
    intro hlt
    rw [BitVec.slt_iff_toInt_lt, h] at hlt
    simp at hlt
    omega
  apply Fin.ext
  show min (wcol (ix2 e (0 : Fin 1))).toInt.toNat (N - 1) = p.val
  rw [hw, hs, LibRealMask.sel_bool, if_neg (by simp), h]
  have := p.isLt
  simp only [Int.toNat_natCast]
  omega

end Cert.LibWrapRow
-- ==== Proof.LibFlatten.lean ====
/-
  Two row-major reshapes read at an index given by coordinates.
  • MERGING the two leading axes, [a, b, c] → [n, c] with n = a · b: entry (j, k) of the result is entry
    (j / b, j % b, k) of the operand.
  • SPLITTING the last axis, [n, d] → [n, b, c] with d = b · c: entry (i, p, q) of the result is entry
    (i, p · c + q) of the operand.
  Both are the library's `shapeCast_apply` with the row-major positions written out.
-/
import Idealize.ShloMosaic.Lib.Pipeline.Value
import Idealize.ShloMosaic.Lib.ValueIdx

namespace Idealize.ShloMosaic.ValueIdx

open Idealize.ShloMosaic

variable {α : Type}

/-- `[a, b, c]` viewed as `[n, c]`, `n = a · b`: at `(j, k)` the operand at `(j / b, j % b, k)`. -/
theorem shapeCast_abc_nc_apply {a b c n : ℕ} (hn : n = a * b) (hb : 0 < b) (x : (⟨3, ![a, b, c]⟩ : Shape).Idx → α)
    (h : (⟨3, ![a, b, c]⟩ : Shape).ShapeCasts ⟨2, ![n, c]⟩) (j : Fin n) (k : Fin c) :
    shapeCast ⟨2, ![n, c]⟩ x h (ix2 j k)
      = x (ix3 (⟨j.val / b, Nat.div_lt_of_lt_mul (lt_of_lt_of_eq j.isLt (hn.trans (Nat.mul_comm a b)))⟩ : Fin a)
          (⟨j.val % b, Nat.mod_lt _ hb⟩ : Fin b) k) :=
  shapeCast_apply x h _ _ (by
    rw [Shape.rowMajor_val_three, Shape.rowMajor_val_two]
    show (j.val / b * b + j.val % b) * c + k.val = j.val * c + k.val
    rw [Nat.div_add_mod'])

/-- `[n, d]` viewed as `[n, b, c]`, `d = b · c`: at `(i, p, q)` the operand at `(i, p · c + q)`. -/
theorem shapeCast_nd_nbc_apply {n b c d : ℕ} (hd : d = b * c) (x : (⟨2, ![n, d]⟩ : Shape).Idx → α)
    (h : (⟨2, ![n, d]⟩ : Shape).ShapeCasts ⟨3, ![n, b, c]⟩) (i : Fin n) (p : Fin b) (q : Fin c) :
    shapeCast ⟨3, ![n, b, c]⟩ x h (ix3 i p q)
      = x (ix2 i (⟨p.val * c + q.val, by
            rw [hd]
            calc p.val * c + q.val < p.val * c + c := Nat.add_lt_add_left q.isLt _
              _ = (p.val + 1) * c := by rw [Nat.add_mul, Nat.one_mul]
              _ ≤ b * c := Nat.mul_le_mul_right c p.isLt⟩ : Fin d)) :=
  shapeCast_apply x h _ _ (by
    rw [Shape.rowMajor_val_three, Shape.rowMajor_val_two]
    show i.val * d + (p.val * c + q.val) = (i.val * b + p.val) * c + q.val
    rw [hd, Nat.add_mul, Nat.mul_assoc, Nat.add_assoc])

end Idealize.ShloMosaic.ValueIdx
-- ==== Proof.HostAdj.lean ====
/-
  The edge weights and the dense adjacency, as the third stretch of host operations leaves them, and the flattened
  input rows the first kernel reads.

  Every index the program gathers or scatters with is first wrapped: a negative word is moved up by the number of
  nodes. A word that is a node number is not negative, so wrapping leaves it alone. The gathered normaliser of an
  edge's source and of its target are then the normalisers of those nodes, the edge's weight is their product, and the
  scatter-add of the weights at the pairs (target, source) into a matrix of zeros holds at (i, j) the total weight of
  the edges from j to i.
-/
import proofs.«175657_j3204045603773_1_alg».proof.Proof.HostDinv
import proofs.«175657_j3204045603773_1_alg».proof.Proof.LibScatterAddPairs
import proofs.«175657_j3204045603773_1_alg».proof.Proof.LibGatherRows
import proofs.«175657_j3204045603773_1_alg».proof.Proof.LibWrapRow
import proofs.«175657_j3204045603773_1_alg».proof.Proof.LibFlatten

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

/-- The wrapped index as a column, at row `e`: the word itself unless it is negative. -/
theorem wrapped_apply (x : IVec S34816 32) (hb0 : S_.BroadcastsInDim S34816 (![] : Fin 0 → Fin S34816.rank))
    (hb1 : S34816.BroadcastsInDim S34816x1 (![0] : Fin 1 → Fin S34816x1.rank)) (e : Fin 34816) :
    broadcastInDim S34816x1 ![0] hb1
        (select (cmpi .slt x (broadcastInDim S34816 ![] hb0 (constantI S_ 32 0#32)))
          (addi x (broadcastInDim S34816 ![] hb0 (constantI S_ 32 2048#32))) x) (ix2 e (0 : Fin 1))
      = Scalar.select (IntOp.cmpi .slt (x (ix1 e)) 0#32) (IntOp.addi (x (ix1 e)) 2048#32) (x (ix1 e)) := by
  rw [bcast_col_apply]
  show Scalar.select (IntOp.cmpi .slt (x (ix1 e)) (broadcastInDim S34816 ![] hb0 (constantI S_ 32 0#32) (ix1 e)))
      (IntOp.addi (x (ix1 e)) (broadcastInDim S34816 ![] hb0 (constantI S_ 32 2048#32) (ix1 e))) (x (ix1 e)) = _
  rw [bcast_scalar_apply, bcast_scalar_apply]
  rfl

/-- A word that is a natural number survives the wrap. -/
theorem wrap_toInt (w t : BitVec 32) (p : ℕ) (h : w.toInt = (p : Int)) :
    (Scalar.select (IntOp.cmpi .slt w 0#32) t w).toInt = (p : Int) := by
  have hs : IntOp.cmpi .slt w 0#32 = BitVec.ofBool false := by
    simp only [IntOp.cmpi]
    congr 1
    rw [Bool.eq_false_iff]
    intro hlt
    rw [BitVec.slt_iff_toInt_lt, h] at hlt
    simp at hlt
    omega
  rw [hs, LibRealMask.sel_bool, if_neg (by simp), h]

/-- The two columns of the pair table. -/
theorem pair_cols (hc : Shape.Concatenates [S34816x1, S34816x1] S34816x2 1) (a b : IVec S34816x1 32) (e : Fin 34816) :
    concatenate S34816x2 1 [⟨S34816x1, a⟩, ⟨S34816x1, b⟩] hc (ix2 e (0 : Fin 2)) = a (ix2 e (0 : Fin 1))
    ∧ concatenate S34816x2 1 [⟨S34816x1, a⟩, ⟨S34816x1, b⟩] hc (ix2 e (1 : Fin 2)) = b (ix2 e (0 : Fin 1)) := by
  constructor
  · refine concatenate_pair_apply_left (t := S34816x2) (s₁ := S34816x1) (s₂ := S34816x1) (1 : Fin 2) a b hc
      (ix2 e (0 : Fin 2)) rfl (ix2 e (0 : Fin 1)) (fun b' => ?_)
    match b' with
    | ⟨0, _⟩ => rfl
    | ⟨1, _⟩ => rfl
  · refine concatenate_pair_apply_right (t := S34816x2) (s₁ := S34816x1) (s₂ := S34816x1) (1 : Fin 2) a b hc
      (ix2 e (1 : Fin 2)) rfl rfl (ix2 e (0 : Fin 1)) (fun b' hb => ?_) rfl
    match b' with
    | ⟨0, _⟩ => rfl
    | ⟨1, _⟩ => exact absurd rfl hb

/-- A scatter-add of weights at (target, source) pairs into zeros: entry (i, j) is the total weight of the edges
    from j to i, when the pair table's words are node numbers. -/
theorem adj_of_scatter (sd : ScatterDims S2048x2048 S34816x2 S34816)
    (h1 : sd.updateWindowDims = []) (h2 : sd.insertedWindowDims = [0, 1]) (h3 : sd.scatterDimsToOperandDims = [0, 1])
    (h4 : sd.indexVectorDim = 1) (z : S2048x2048.Idx → EReal) (hz : ∀ j, z j = 0)
    (hc : Shape.Concatenates [S34816x1, S34816x1] S34816x2 1) (a b : IVec S34816x1 32) (nrm : S34816.Idx → EReal)
    (s d : Fin 34816 → Fin 2048)
    (ha : ∀ e, (a (ix2 e (0 : Fin 1))).toInt = ((d e).val : Int))
    (hb : ∀ e, (b (ix2 e (0 : Fin 1))).toInt = ((s e).val : Int))
    (w : Fin 34816 → EReal) (hn : ∀ e, nrm (ix1 e) = w e) (i j : Fin 2048) :
    Ideal.hostScatterAdd sd z (concatenate S34816x2 1 [⟨S34816x1, a⟩, ⟨S34816x1, b⟩] hc) nrm (ix2 i j)
      = ∑ e : Fin 34816, if d e = i ∧ s e = j then w e else 0 := by
  rw [LibScatterAddPairs.scatterAdd_pairs_apply sd h1 h2 h3 h4, hz, zero_add]
  refine Finset.sum_congr rfl fun e _ => ?_
  rw [(pair_cols hc a b e).1, (pair_cols hc a b e).2, ha e, hb e, hn e]
  by_cases h : d e = i ∧ s e = j
  · rw [if_pos h, if_pos ⟨by rw [h.1], by rw [h.2]⟩]
  · rw [if_neg h, if_neg (fun h' => h ⟨Fin.ext (by exact_mod_cast h'.1), Fin.ext (by exact_mod_cast h'.2)⟩)]

variable (m : (ℓ : Loc nD τ sig) → Buf (Elt Ideal) ℓ) (c : Dev nD)

/-- Every operation of the third stretch writes the buffer of its own value. -/
theorem writes2 : WritesEach (hostOps0_2 (F := Ideal)) hostOps0_2_W := by
  repeat (first | exact List.Forall₂.nil | refine List.Forall₂.cons rfl ?_)

/-- The wrapped copy of the source words, as a column: `main_v20`. -/
theorem V3_main_v20 (e : Fin 34816) :
    (V3 m c main_v20 : S34816x1.Idx → BitVec 32) (ix2 e (0 : Fin 1))
      = Scalar.select (IntOp.cmpi .slt ((V1 m c main_v3 : S34816.Idx → BitVec 32) (ix1 e)) 0#32)
          (IntOp.addi ((V1 m c main_v3 : S34816.Idx → BitVec 32) (ix1 e)) 2048#32)
          ((V1 m c main_v3 : S34816.Idx → BitVec 32) (ix1 e)) := by
  have a7 := after_unary writes2 (V2 m c) 7 main_v19 main_v20 _ _ _ rfl (by decide) (by decide)
  have a6 := after_ternary writes2 (V2 m c) 6 main_v16 main_v18 main_v3 main_v19 _ _ _ _ _ rfl (by decide) (by decide) (by decide) (by decide)
  have a5 := after_binary writes2 (V2 m c) 5 main_v3 main_v17 main_v18 _ _ _ _ rfl (by decide) (by decide) (by decide)
  have a4 := after_unary writes2 (V2 m c) 4 main_c_3 main_v17 _ _ _ rfl (by decide) (by decide)
  have a3 := after_nullary writes2 (V2 m c) 3 main_c_3 _ _ rfl (by decide)
  have a2 := after_binary writes2 (V2 m c) 2 main_v3 main_v15 main_v16 _ _ _ _ rfl (by decide) (by decide) (by decide)
  have a1 := after_unary writes2 (V2 m c) 1 main_c main_v15 _ _ _ rfl (by decide) (by decide)
  have a0 := after_nullary writes2 (V2 m c) 0 main_c _ _ rfl (by decide)
  have ax : after hostOps0_2 (V2 m c) (Proc.devRef .tc main_v3) = V1 m c main_v3 :=
    (V3_of m c main_v3 (by decide)).trans (V2_of m c main_v3 (by decide))
  show after hostOps0_2 (V2 m c) (Proc.devRef .tc main_v20) (ix2 e (0 : Fin 1)) = _
  rw [a7, a6, a5, a4, a3, a2, a1, a0, ax]
  generalize V1 m c main_v3 = x
  exact wrapped_apply x _ _ e

/-- The wrapped copy of the target words, as a column: `main_v27`. -/
theorem V3_main_v27 (e : Fin 34816) :
    (V3 m c main_v27 : S34816x1.Idx → BitVec 32) (ix2 e (0 : Fin 1))
      = Scalar.select (IntOp.cmpi .slt ((V1 m c main_v6 : S34816.Idx → BitVec 32) (ix1 e)) 0#32)
          (IntOp.addi ((V1 m c main_v6 : S34816.Idx → BitVec 32) (ix1 e)) 2048#32)
          ((V1 m c main_v6 : S34816.Idx → BitVec 32) (ix1 e)) := by
  have a7 := after_unary writes2 (V2 m c) 16 main_v26 main_v27 _ _ _ rfl (by decide) (by decide)
  have a6 := after_ternary writes2 (V2 m c) 15 main_v23 main_v25 main_v6 main_v26 _ _ _ _ _ rfl (by decide) (by decide) (by decide) (by decide)
  have a5 := after_binary writes2 (V2 m c) 14 main_v6 main_v24 main_v25 _ _ _ _ rfl (by decide) (by decide) (by decide)
  have a4 := after_unary writes2 (V2 m c) 13 main_c_5 main_v24 _ _ _ rfl (by decide) (by decide)
  have a3 := after_nullary writes2 (V2 m c) 12 main_c_5 _ _ rfl (by decide)
  have a2 := after_binary writes2 (V2 m c) 11 main_v6 main_v22 main_v23 _ _ _ _ rfl (by decide) (by decide) (by decide)
  have a1 := after_unary writes2 (V2 m c) 10 main_c_4 main_v22 _ _ _ rfl (by decide) (by decide)
  have a0 := after_nullary writes2 (V2 m c) 9 main_c_4 _ _ rfl (by decide)
  have ax : after hostOps0_2 (V2 m c) (Proc.devRef .tc main_v6) = V1 m c main_v6 :=
    (V3_of m c main_v6 (by decide)).trans (V2_of m c main_v6 (by decide))
  show after hostOps0_2 (V2 m c) (Proc.devRef .tc main_v27) (ix2 e (0 : Fin 1)) = _
  rw [a7, a6, a5, a4, a3, a2, a1, a0, ax]
  generalize V1 m c main_v6 = x
  exact wrapped_apply x _ _ e

/-- The wrapped copy of the target words, as a column: `main_v41`. -/
theorem V3_main_v41 (e : Fin 34816) :
    (V3 m c main_v41 : S34816x1.Idx → BitVec 32) (ix2 e (0 : Fin 1))
      = Scalar.select (IntOp.cmpi .slt ((V1 m c main_v6 : S34816.Idx → BitVec 32) (ix1 e)) 0#32)
          (IntOp.addi ((V1 m c main_v6 : S34816.Idx → BitVec 32) (ix1 e)) 2048#32)
          ((V1 m c main_v6 : S34816.Idx → BitVec 32) (ix1 e)) := by
  have a7 := after_unary writes2 (V2 m c) 35 main_v35 main_v41 _ _ _ rfl (by decide) (by decide)
  have a6 := after_ternary writes2 (V2 m c) 27 main_v32 main_v34 main_v6 main_v35 _ _ _ _ _ rfl (by decide) (by decide) (by decide) (by decide)
  have a5 := after_binary writes2 (V2 m c) 26 main_v6 main_v33 main_v34 _ _ _ _ rfl (by decide) (by decide) (by decide)
  have a4 := after_unary writes2 (V2 m c) 25 main_c_8 main_v33 _ _ _ rfl (by decide) (by decide)
  have a3 := after_nullary writes2 (V2 m c) 24 main_c_8 _ _ rfl (by decide)
  have a2 := after_binary writes2 (V2 m c) 23 main_v6 main_v31 main_v32 _ _ _ _ rfl (by decide) (by decide) (by decide)
  have a1 := after_unary writes2 (V2 m c) 22 main_c_7 main_v31 _ _ _ rfl (by decide) (by decide)
  have a0 := after_nullary writes2 (V2 m c) 21 main_c_7 _ _ rfl (by decide)
  have ax : after hostOps0_2 (V2 m c) (Proc.devRef .tc main_v6) = V1 m c main_v6 :=
    (V3_of m c main_v6 (by decide)).trans (V2_of m c main_v6 (by decide))
  show after hostOps0_2 (V2 m c) (Proc.devRef .tc main_v41) (ix2 e (0 : Fin 1)) = _
  rw [a7, a6, a5, a4, a3, a2, a1, a0, ax]
  generalize V1 m c main_v6 = x
  exact wrapped_apply x _ _ e

/-- The wrapped copy of the source words, as a column: `main_v42`. -/
theorem V3_main_v42 (e : Fin 34816) :
    (V3 m c main_v42 : S34816x1.Idx → BitVec 32) (ix2 e (0 : Fin 1))
      = Scalar.select (IntOp.cmpi .slt ((V1 m c main_v3 : S34816.Idx → BitVec 32) (ix1 e)) 0#32)
          (IntOp.addi ((V1 m c main_v3 : S34816.Idx → BitVec 32) (ix1 e)) 2048#32)
          ((V1 m c main_v3 : S34816.Idx → BitVec 32) (ix1 e)) := by
  have a7 := after_unary writes2 (V2 m c) 36 main_v40 main_v42 _ _ _ rfl (by decide) (by decide)
  have a6 := after_ternary writes2 (V2 m c) 34 main_v37 main_v39 main_v3 main_v40 _ _ _ _ _ rfl (by decide) (by decide) (by decide) (by decide)
  have a5 := after_binary writes2 (V2 m c) 33 main_v3 main_v38 main_v39 _ _ _ _ rfl (by decide) (by decide) (by decide)
  have a4 := after_unary writes2 (V2 m c) 32 main_c_10 main_v38 _ _ _ rfl (by decide) (by decide)
  have a3 := after_nullary writes2 (V2 m c) 31 main_c_10 _ _ rfl (by decide)
  have a2 := after_binary writes2 (V2 m c) 30 main_v3 main_v36 main_v37 _ _ _ _ rfl (by decide) (by decide) (by decide)
  have a1 := after_unary writes2 (V2 m c) 29 main_c_9 main_v36 _ _ _ rfl (by decide) (by decide)
  have a0 := after_nullary writes2 (V2 m c) 28 main_c_9 _ _ rfl (by decide)
  have ax : after hostOps0_2 (V2 m c) (Proc.devRef .tc main_v3) = V1 m c main_v3 :=
    (V3_of m c main_v3 (by decide)).trans (V2_of m c main_v3 (by decide))
  show after hostOps0_2 (V2 m c) (Proc.devRef .tc main_v42) (ix2 e (0 : Fin 1)) = _
  rw [a7, a6, a5, a4, a3, a2, a1, a0, ax]
  generalize V1 m c main_v3 = x
  exact wrapped_apply x _ _ e

/-- A buffer the three first stretches do not write, as the third one leaves it. -/
theorem V3_arg (r : Ref sig .tc) (h3 : r ∉ hostOps0_2_W) (h2 : r ∉ hostOps0_1_W) (h1 : r ∉ hostOps0_W) :
    after hostOps0_2 (V2 m c) (Proc.devRef .tc r) = m ((c.tc : Thread nD τ).loc r) :=
  (V3_of m c r h3).trans ((V2_of m c r h2).trans ((V1_of m c r h1).trans rfl))

/-- An edge's weight out of two gathers of the normaliser at wrapped indices that are node numbers. -/
theorem norm_of_gathers (gd : GatherDims S2048 S34816x1 S34816) (g1 : gd.offsetDims = [])
    (g2 : gd.collapsedSliceDims = [0]) (g3 : gd.operandBatchingDims = []) (g4 : gd.startIndicesBatchingDims = [])
    (g5 : gd.startIndexMap = [0]) (g6 : gd.indexVectorDim = 1) (g7 : gd.sliceSizes = ![1])
    (dv : S2048.Idx → EReal) (c20 c27 : IVec S34816x1 32) (ws wd t20 t27 : BitVec 32)
    (s d : Fin 34816 → Fin 2048) (e : Fin 34816)
    (h20 : c20 (ix2 e (0 : Fin 1)) = Scalar.select (IntOp.cmpi .slt ws 0#32) t20 ws)
    (h27 : c27 (ix2 e (0 : Fin 1)) = Scalar.select (IntOp.cmpi .slt wd 0#32) t27 wd)
    (hdv : ∀ v, dv (ix1 v) = Cert.Spec.dinv d v) (hsw : ws.toInt = ((s e).val : Int))
    (hdw : wd.toInt = ((d e).val : Int)) :
    Host.gather gd dv c20 (ix1 e) * Host.gather gd dv c27 (ix1 e) = Cert.Spec.norm s d e := by
  rw [LibGatherRows.gather_elems_apply (by decide) gd g1 g2 g3 g4 g5 g6 g7,
    LibGatherRows.gather_elems_apply (by decide) gd g1 g2 g3 g4 g5 g6 g7,
    LibWrapRow.row_of_hit (by decide) c20 ws t20 e h20 (s e) hsw,
    LibWrapRow.row_of_hit (by decide) c27 wd t27 e h27 (d e) hdw, hdv, hdv]
  rfl

section Weights

variable (s d : Fin 34816 → Fin 2048)
  (hs : ∀ e, (Cert.Spec.edgeWord (fun a e => (m ((c.tc : Thread nD τ).loc main_arg1) : S2x32768.Idx → BitVec 32) (ix2 a e)) 0 e).toInt = ((s e).val : Int))
  (hd : ∀ e, (Cert.Spec.edgeWord (fun a e => (m ((c.tc : Thread nD τ).loc main_arg1) : S2x32768.Idx → BitVec 32) (ix2 a e)) 1 e).toInt = ((d e).val : Int))

include hs hd in
/-- The weight of edge `e`. -/
theorem V3_norm (e : Fin 34816) : (V3 m c main_v29 : S34816.Idx → EReal) (ix1 e) = Cert.Spec.norm s d e := by
  have a18 := after_binary writes2 (V2 m c) 18 main_v21 main_v28 main_v29 _ _ _ _ rfl (by decide) (by decide) (by decide)
  have a17 := after_binary writes2 (V2 m c) 17 main_v14 main_v27 main_v28 _ _ _ _ rfl (by decide) (by decide) (by decide)
  have a8 := after_binary writes2 (V2 m c) 8 main_v14 main_v20 main_v21 _ _ _ _ rfl (by decide) (by decide) (by decide)
  have a14 : after hostOps0_2 (V2 m c) (Proc.devRef .tc main_v14) = V2 m c main_v14 := V3_of m c main_v14 (by decide)
  have h20 : after hostOps0_2 (V2 m c) (Proc.devRef .tc main_v20) (ix2 e (0 : Fin 1)) = _ := V3_main_v20 m c e
  have h27 : after hostOps0_2 (V2 m c) (Proc.devRef .tc main_v27) (ix2 e (0 : Fin 1)) = _ := V3_main_v27 m c e
  have hdv := V2_dinv m c d hd
  have hsw := (congrArg BitVec.toInt (V1_src m c e)).trans (hs e)
  have hdw := (congrArg BitVec.toInt (V1_dst m c e)).trans (hd e)
  show after hostOps0_2 (V2 m c) (Proc.devRef .tc main_v29) (ix1 e) = _
  rw [a18, a17, a8, a14]
  revert h20 h27 hdv hsw hdw
  generalize after hostOps0_2 (V2 m c) (Proc.devRef .tc main_v20) = c20
  generalize after hostOps0_2 (V2 m c) (Proc.devRef .tc main_v27) = c27
  generalize V2 m c main_v14 = dv
  generalize (V1 m c main_v3 : S34816.Idx → BitVec 32) (ix1 e) = ws
  generalize (V1 m c main_v6 : S34816.Idx → BitVec 32) (ix1 e) = wd
  intro h20 h27 hdv hsw hdw
  exact norm_of_gathers gather_S2048_S34816x1_S34816_n_0_n_n_0_1_1 rfl rfl rfl rfl rfl rfl rfl dv c20 c27 ws wd _ _ s d e
    h20 h27 hdv hsw hdw

include hs hd in
/-- The dense adjacency the second kernel reads: entry (i, j) is the total weight of the edges from j to i. -/
theorem V3_adj (i j : Fin 2048) :
    (V3 m c main_v45 : S2048x2048.Idx → EReal) (ix2 i j)
      = ∑ e : Fin 34816, if d e = i ∧ s e = j then Cert.Spec.norm s d e else 0 := by
  have a39 := after_unary writes2 (V2 m c) 39 main_v44 main_v45 _ _ _ rfl (by decide) (by decide)
  have a38 := after_ternary writes2 (V2 m c) 38 main_v30 main_v43 main_v29 main_v44 _ _ _ _ _ rfl (by decide) (by decide) (by decide) (by decide)
  have a37 := after_binary writes2 (V2 m c) 37 main_v41 main_v42 main_v43 _ _ _ _ rfl (by decide) (by decide) (by decide)
  have a20 := after_unary writes2 (V2 m c) 20 main_cst_6 main_v30 _ _ _ rfl (by decide) (by decide)
  have a19 := after_nullary writes2 (V2 m c) 19 main_cst_6 _ _ rfl (by decide)
  have h41 : ∀ e, (after hostOps0_2 (V2 m c) (Proc.devRef .tc main_v41) (ix2 e (0 : Fin 1))).toInt = ((d e).val : Int) :=
    fun e => (congrArg BitVec.toInt (V3_main_v41 m c e)).trans
      (wrap_toInt _ _ _ ((congrArg BitVec.toInt (V1_dst m c e)).trans (hd e)))
  have h42 : ∀ e, (after hostOps0_2 (V2 m c) (Proc.devRef .tc main_v42) (ix2 e (0 : Fin 1))).toInt = ((s e).val : Int) :=
    fun e => (congrArg BitVec.toInt (V3_main_v42 m c e)).trans
      (wrap_toInt _ _ _ ((congrArg BitVec.toInt (V1_src m c e)).trans (hs e)))
  have hn : ∀ e, after hostOps0_2 (V2 m c) (Proc.devRef .tc main_v29) (ix1 e) = Cert.Spec.norm s d e :=
    fun e => V3_norm m c s d hs hd e
  show after hostOps0_2 (V2 m c) (Proc.devRef .tc main_v45) (ix2 i j) = _
  rw [a39, a38, a37, a20, a19]
  revert h41 h42 hn
  generalize after hostOps0_2 (V2 m c) (Proc.devRef .tc main_v41) = c41
  generalize after hostOps0_2 (V2 m c) (Proc.devRef .tc main_v42) = c42
  generalize after hostOps0_2 (V2 m c) (Proc.devRef .tc main_v29) = nrm
  intro h41 h42 hn
  refine (truncf_apply (s := S2048x2048) (φ := .f32) (ψ := .bf16) _ bitsLt_bf16_f32 (ix2 i j)).trans ?_
  exact adj_of_scatter scatter_S2048x2048_S34816x2_S34816_n_01_01_1 rfl rfl rfl rfl _
    (fun j' => (bcast_scalar_apply _ _ j').trans Ideal.ofBits_zero_f32) _ c41 c42 nrm s d h41 h42 _ hn i j

end Weights

/-- The flattened input rows the first kernel reads. -/
theorem V3_x (r : Fin 32768) (k : Fin 256) :
    (V3 m c main_v46 : S32768x256.Idx → EReal) (ix2 r k)
      = Cert.Spec.flat (fun n b k => (m ((c.tc : Thread nD τ).loc main_arg0) : S2048x16x256.Idx → EReal) (ix3 n b k)) r k := by
  have a40 := after_reshape writes2 (V2 m c) 40 main_arg0 main_v46 rfl shapeCasts_S2048x16x256_S32768x256 _ _ rfl (by decide) (by decide)
  show after hostOps0_2 (V2 m c) (Proc.devRef .tc main_v46) (ix2 r k) = _
  rw [a40, V3_arg m c main_arg0 (by decide) (by decide) (by decide)]
  generalize m ((c.tc : Thread nD τ).loc main_arg0) = x
  exact shapeCast_abc_nc_apply (a := 2048) (b := 16) (c := 256) (n := 32768) rfl (by decide) x _ r k

/-- The gate's first bias as a row. -/
theorem V3_b1 (h : Fin 128) :
    (V3 m c main_v47 : S1x128.Idx → EReal) (ix2 (0 : Fin 1) h)
      = (m ((c.tc : Thread nD τ).loc main_arg3) : S128.Idx → EReal) (ix1 h) := by
  have a41 := after_reshape writes2 (V2 m c) 41 main_arg3 main_v47 rfl shapeCasts_S128_S1x128 _ _ rfl (by decide) (by decide)
  show after hostOps0_2 (V2 m c) (Proc.devRef .tc main_v47) (ix2 (0 : Fin 1) h) = _
  rw [a41, V3_arg m c main_arg3 (by decide) (by decide) (by decide)]
  generalize m ((c.tc : Thread nD τ).loc main_arg3) = x
  exact shapeCast_apply (s := S128) (t := S1x128) x _ (ix2 (0 : Fin 1) h) (ix1 h) (by
    rw [Shape.rowMajor_val_one, Shape.rowMajor_val_two]
    show h.val = 0 * 128 + h.val
    omega)

/-- The gate's second bias as a row. -/
theorem V3_b2 (h : Fin 256) :
    (V3 m c main_v48 : S1x256.Idx → EReal) (ix2 (0 : Fin 1) h)
      = (m ((c.tc : Thread nD τ).loc main_arg5) : S256.Idx → EReal) (ix1 h) := by
  have a42 := after_reshape writes2 (V2 m c) 42 main_arg5 main_v48 rfl shapeCasts_S256_S1x256 _ _ rfl (by decide) (by decide)
  show after hostOps0_2 (V2 m c) (Proc.devRef .tc main_v48) (ix2 (0 : Fin 1) h) = _
  rw [a42, V3_arg m c main_arg5 (by decide) (by decide) (by decide)]
  generalize m ((c.tc : Thread nD τ).loc main_arg5) = x
  exact shapeCast_apply (s := S256) (t := S1x256) x _ (ix2 (0 : Fin 1) h) (ix1 h) (by
    rw [Shape.rowMajor_val_one, Shape.rowMajor_val_two]
    show h.val = 0 * 256 + h.val
    omega)

/-- A weight matrix no stretch writes, as the first kernel finds it. -/
theorem V3_weights (r : Ref sig .tc) (h3 : r ∉ hostOps0_2_W) (h2 : r ∉ hostOps0_1_W) (h1 : r ∉ hostOps0_W) :
    V3 m c r = m ((c.tc : Thread nD τ).loc r) := V3_arg m c r h3 h2 h1

end Cert.KernelIdeal.Host

end
-- ==== Proof.HostGlue.lean ====
/-
  The layout between the two kernels and after the second one.

  The first kernel's two outputs, [32768, 256] each with row 16 j + b holding node j's batch entry b, are viewed as
  [2048, 4096] (node j's sixteen rows side by side) and set side by side: column 256 b + f of the left half is feature
  f of row 16 j + b of the first output, the same column of the right half that of the second output. The bias row
  tiles each layer's bias sixteen times, the first layer's in the left half and the second's in the right half. The
  second kernel's output is cut back into the two halves, each viewed as [2048, 16, 256].
-/
import proofs.«175657_j3204045603773_1_alg».proof.Proof.Gen.KernelIdeal.Regions
import proofs.«175657_j3204045603773_1_alg».proof.Proof.Spec
import proofs.«175657_j3204045603773_1_alg».proof.Proof.LibLineOfOps
import proofs.«175657_j3204045603773_1_alg».proof.Proof.LibFlatten
import Idealize.ShloMosaic.Lib.Pipeline.Value

noncomputable section

open scoped BigOperators

namespace Cert.KernelIdeal.Host

open Idealize.ShloMosaic Idealize.ShloMosaic.TcCoe Idealize.ShloMosaic.ValueIdx Idealize.ShloMosaic.StableHlo
open Cert.KernelIdeal Cert.KernelIdeal.Gen

/-- Column `256 b + f` of the left half of the combined rows. -/
def colA (b : Fin 16) (f : Fin 256) : Fin 8192 := ⟨b.val * 256 + f.val, by omega⟩
/-- Column `256 b + f` of the right half. -/
def colB (b : Fin 16) (f : Fin 256) : Fin 8192 := ⟨4096 + (b.val * 256 + f.val), by omega⟩
/-- Column `256 b + f` of one half. -/
def colH (b : Fin 16) (f : Fin 256) : Fin 4096 := ⟨b.val * 256 + f.val, by omega⟩

/-- One half's rows: node `j`'s column `256 b + f` is feature `f` of row `16 j + b`. -/
theorem half_rows (hs : S32768x256.ShapeCasts S2048x4096) (o : S32768x256.Idx → EReal) (j : Fin 2048) (b : Fin 16)
    (f : Fin 256) : shapeCast S2048x4096 o hs (ix2 j (colH b f)) = o (ix2 (Cert.Spec.row j b) f) :=
  shapeCast_apply o hs _ _ (by
    rw [Shape.rowMajor_val_two, Shape.rowMajor_val_two]
    show (j.val * 16 + b.val) * 256 + f.val = j.val * 4096 + (b.val * 256 + f.val)
    omega)

/-- The combined rows, left half. -/
theorem xw_left (hc : Shape.Concatenates [S2048x4096, S2048x4096] S2048x8192 1) (hs : S32768x256.ShapeCasts S2048x4096)
    (o0 o1 : S32768x256.Idx → EReal) (j : Fin 2048) (b : Fin 16) (f : Fin 256) :
    concatenate S2048x8192 1 [⟨S2048x4096, shapeCast S2048x4096 o0 hs⟩, ⟨S2048x4096, shapeCast S2048x4096 o1 hs⟩] hc
        (ix2 j (colA b f)) = o0 (ix2 (Cert.Spec.row j b) f) := by
  refine (concatenate_pair_apply_left (t := S2048x8192) (s₁ := S2048x4096) (s₂ := S2048x4096) (1 : Fin 2) _ _ hc
    (ix2 j (colA b f)) rfl (ix2 j (colH b f)) (fun b' => ?_)).trans (half_rows hs o0 j b f)
  match b' with
  | ⟨0, _⟩ => rfl
  | ⟨1, _⟩ => rfl

/-- The combined rows, right half. -/
theorem xw_right (hc : Shape.Concatenates [S2048x4096, S2048x4096] S2048x8192 1) (hs : S32768x256.ShapeCasts S2048x4096)
    (o0 o1 : S32768x256.Idx → EReal) (j : Fin 2048) (b : Fin 16) (f : Fin 256) :
    concatenate S2048x8192 1 [⟨S2048x4096, shapeCast S2048x4096 o0 hs⟩, ⟨S2048x4096, shapeCast S2048x4096 o1 hs⟩] hc
        (ix2 j (colB b f)) = o1 (ix2 (Cert.Spec.row j b) f) := by
  refine (concatenate_pair_apply_right (t := S2048x8192) (s₁ := S2048x4096) (s₂ := S2048x4096) (1 : Fin 2) _ _ hc
    (ix2 j (colB b f)) rfl rfl (ix2 j (colH b f)) (fun b' hb => ?_) ?_).trans (half_rows hs o1 j b f)
  · match b' with
    | ⟨0, _⟩ => rfl
    | ⟨1, _⟩ => exact absurd rfl hb
  · show b.val * 256 + f.val + 4096 = 4096 + (b.val * 256 + f.val)
    omega

/-- One layer's bias tiled sixteen times, at `256 b + f`: the bias at `f`. -/
theorem tile_apply (p : S256.Idx → EReal) (h1 : S256.ShapeCasts S1x256)
    (hb : S1x256.BroadcastsInDim S16x256 (![0, 1] : Fin 2 → Fin S16x256.rank)) (h2 : S16x256.ShapeCasts S4096)
    (b : Fin 16) (f : Fin 256) :
    shapeCast S4096 (broadcastInDim S16x256 ![0, 1] hb (shapeCast S1x256 p h1)) h2 (ix1 (colH b f)) = p (ix1 f) := by
  refine (shapeCast_apply _ h2 (ix1 (colH b f)) (ix2 b f) ?_).trans ?_
  · rw [Shape.rowMajor_val_two, Shape.rowMajor_val_one]
    rfl
  refine (broadcastInDim_apply _ hb _ (ix2 b f) (ix2 (0 : Fin 1) f) (fun a => ?_)).trans ?_
  · match a with
    | ⟨0, _⟩ => rfl
    | ⟨1, _⟩ => rfl
  refine shapeCast_apply p h1 (ix2 (0 : Fin 1) f) (ix1 f) ?_
  rw [Shape.rowMajor_val_two, Shape.rowMajor_val_one]
  show f.val = 0 * 256 + f.val
  omega

/-- The bias row: the first layer's bias tiled in the left half, the second's in the right half. -/
theorem bias_row (p q : S256.Idx → EReal) (h1 : S256.ShapeCasts S1x256)
    (hb : S1x256.BroadcastsInDim S16x256 (![0, 1] : Fin 2 → Fin S16x256.rank)) (h2 : S16x256.ShapeCasts S4096)
    (hc : Shape.Concatenates [S4096, S4096] S8192 0) (h3 : S8192.ShapeCasts S1x8192) (b : Fin 16) (f : Fin 256) :
    shapeCast S1x8192 (concatenate S8192 0
        [⟨S4096, shapeCast S4096 (broadcastInDim S16x256 ![0, 1] hb (shapeCast S1x256 p h1)) h2⟩,
         ⟨S4096, shapeCast S4096 (broadcastInDim S16x256 ![0, 1] hb (shapeCast S1x256 q h1)) h2⟩] hc) h3
        (ix2 (0 : Fin 1) (colA b f)) = p (ix1 f)
    ∧ shapeCast S1x8192 (concatenate S8192 0
        [⟨S4096, shapeCast S4096 (broadcastInDim S16x256 ![0, 1] hb (shapeCast S1x256 p h1)) h2⟩,
         ⟨S4096, shapeCast S4096 (broadcastInDim S16x256 ![0, 1] hb (shapeCast S1x256 q h1)) h2⟩] hc) h3
        (ix2 (0 : Fin 1) (colB b f)) = q (ix1 f) := by
  constructor
  · refine (shapeCast_apply _ h3 (ix2 (0 : Fin 1) (colA b f)) (ix1 (colA b f)) ?_).trans ?_
    · rw [Shape.rowMajor_val_two, Shape.rowMajor_val_one]
      show (colA b f).val = 0 * 8192 + (colA b f).val
      omega
    refine (concatenate_pair_apply_left (t := S8192) (s₁ := S4096) (s₂ := S4096) (0 : Fin 1) _ _ hc (ix1 (colA b f)) rfl
      (ix1 (colH b f)) (fun b' => ?_)).trans (tile_apply p h1 hb h2 b f)
    match b' with
    | ⟨0, _⟩ => rfl
  · refine (shapeCast_apply _ h3 (ix2 (0 : Fin 1) (colB b f)) (ix1 (colB b f)) ?_).trans ?_
    · rw [Shape.rowMajor_val_two, Shape.rowMajor_val_one]
      show (colB b f).val = 0 * 8192 + (colB b f).val
      omega
    refine (concatenate_pair_apply_right (t := S8192) (s₁ := S4096) (s₂ := S4096) (0 : Fin 1) _ _ hc (ix1 (colB b f)) rfl rfl
      (ix1 (colH b f)) (fun b' hb' => ?_) ?_).trans (tile_apply q h1 hb h2 b f)
    · match b' with
      | ⟨0, _⟩ => exact absurd rfl hb'
    · show b.val * 256 + f.val + 4096 = 4096 + (b.val * 256 + f.val)
      omega

/-- One half of the second kernel's output viewed as [2048, 16, 256]. -/
theorem out_half (off : Fin 2 → Nat) (k : Fin 8192) (b : Fin 16) (f : Fin 256) (h0 : off 0 = 0)
    (hk : k.val = off 1 + (b.val * 256 + f.val)) (hsl : S2048x8192.Slices off S2048x4096)
    (hs : S2048x4096.ShapeCasts S2048x16x256) (o : S2048x8192.Idx → EReal) (n : Fin 2048) :
    shapeCast S2048x16x256 (extractStridedSlice S2048x4096 off o hsl) hs (ix3 n b f) = o (ix2 n k) := by
  refine (shapeCast_nd_nbc_apply (n := 2048) (b := 16) (c := 256) (d := 4096) rfl _ hs n b f).trans ?_
  refine extractStridedSlice_apply off o hsl _ (ix2 n k) (fun a => ?_)
  match a with
  | ⟨0, _⟩ => show n.val = off 0 + n.val; omega
  | ⟨1, _⟩ => show k.val = off 1 + (b.val * 256 + f.val); exact hk

variable (m : (ℓ : Loc nD τ sig) → Buf (Elt Ideal) ℓ) (outs : Gen.Outs (F := Ideal)) (c : Dev nD)

/-- Every operation between the kernels writes the buffer of its own value. -/
theorem writes3 : WritesEach (hostOps1 (F := Ideal)) hostOps1_W := by
  repeat (first | exact List.Forall₂.nil | refine List.Forall₂.cons rfl ?_)

/-- Every operation after the second kernel writes the buffer of its own value. -/
theorem writes4 : WritesEach (hostOps2 (F := Ideal)) hostOps2_W := by
  repeat (first | exact List.Forall₂.nil | refine List.Forall₂.cons rfl ?_)

/-- The first kernel's first output, as the stretch between the kernels finds it. -/
theorem V5_out0 : after hostOps1 (V4 m outs c) (Proc.devRef .tc main_v49_0) = outs 4 main_v49_0 c :=
  (V5_of m outs c main_v49_0 (by decide)).trans
    ((Function.update_of_ne (StableHlo.devRef_ne_of_ne (by decide)) _ _).trans (Function.update_self _ _ _))

/-- The first kernel's second output. -/
theorem V5_out1 : after hostOps1 (V4 m outs c) (Proc.devRef .tc main_v49_1) = outs 4 main_v49_1 c :=
  (V5_of m outs c main_v49_1 (by decide)).trans (Function.update_self _ _ _)

/-- The adjacency the second kernel reads is the one the host built. -/
theorem V5_adj : V5 m outs c main_v45 = V3 m c main_v45 :=
  (V5_of m outs c main_v45 (by decide)).trans (V4_of m outs c main_v45 (by decide))

/-- An argument no operation writes, as the stretch between the kernels finds it. -/
theorem V5_arg (r : Ref sig .tc) (h5 : r ∉ hostOps1_W) (h4 : r ∉ ([main_v49_0, main_v49_1] : List (Ref sig .tc)))
    (h3 : r ∉ hostOps0_2_W) (h2 : r ∉ hostOps0_1_W) (h1 : r ∉ hostOps0_W) :
    after hostOps1 (V4 m outs c) (Proc.devRef .tc r) = m ((c.tc : Thread nD τ).loc r) :=
  (V5_of m outs c r h5).trans ((V4_of m outs c r h4).trans ((V3_of m c r h3).trans ((V2_of m c r h2).trans
    ((V1_of m c r h1).trans rfl))))

/-- The rows the second kernel reads. -/
theorem V5_xw (j : Fin 2048) (b : Fin 16) (f : Fin 256) :
    (V5 m outs c main_v53 : S2048x8192.Idx → EReal) (ix2 j (colA b f))
        = (outs 4 main_v49_0 c : S32768x256.Idx → EReal) (ix2 (Cert.Spec.row j b) f)
    ∧ (V5 m outs c main_v53 : S2048x8192.Idx → EReal) (ix2 j (colB b f))
        = (outs 4 main_v49_1 c : S32768x256.Idx → EReal) (ix2 (Cert.Spec.row j b) f) := by
  have e3 := after_unary writes3 (V4 m outs c) 3 main_v52 main_v53 _ _ _ rfl (by decide) (by decide)
  have e2 := after_binary writes3 (V4 m outs c) 2 main_v50 main_v51 main_v52 _ _ _ _ rfl (by decide) (by decide) (by decide)
  have e1 := after_reshape writes3 (V4 m outs c) 1 main_v49_1 main_v51 rfl shapeCasts_S32768x256_S2048x4096 _ _ rfl (by decide) (by decide)
  have e0 := after_reshape writes3 (V4 m outs c) 0 main_v49_0 main_v50 rfl shapeCasts_S32768x256_S2048x4096 _ _ rfl (by decide) (by decide)
  show after hostOps1 (V4 m outs c) (Proc.devRef .tc main_v53) (ix2 j (colA b f)) = _
    ∧ after hostOps1 (V4 m outs c) (Proc.devRef .tc main_v53) (ix2 j (colB b f)) = _
  rw [e3, e2, e1, e0, V5_out0 m outs c, V5_out1 m outs c]
  generalize outs 4 main_v49_0 c = o0
  generalize outs 4 main_v49_1 c = o1
  exact ⟨xw_left concatenates_S2048x4096_S2048x4096_S2048x8192_d1 shapeCasts_S32768x256_S2048x4096 o0 o1 j b f,
    xw_right concatenates_S2048x4096_S2048x4096_S2048x8192_d1 shapeCasts_S32768x256_S2048x4096 o0 o1 j b f⟩

/-- The bias row the second kernel reads. -/
theorem V5_bias (b : Fin 16) (f : Fin 256) :
    (V5 m outs c main_v61 : S1x8192.Idx → EReal) (ix2 (0 : Fin 1) (colA b f))
        = (m ((c.tc : Thread nD τ).loc main_arg7) : S256.Idx → EReal) (ix1 f)
    ∧ (V5 m outs c main_v61 : S1x8192.Idx → EReal) (ix2 (0 : Fin 1) (colB b f))
        = (m ((c.tc : Thread nD τ).loc main_arg9) : S256.Idx → EReal) (ix1 f) := by
  have e11 := after_reshape writes3 (V4 m outs c) 11 main_v60 main_v61 rfl shapeCasts_S8192_S1x8192 _ _ rfl (by decide) (by decide)
  have e10 := after_binary writes3 (V4 m outs c) 10 main_v56 main_v59 main_v60 _ _ _ _ rfl (by decide) (by decide) (by decide)
  have e9 := after_reshape writes3 (V4 m outs c) 9 main_v58 main_v59 rfl shapeCasts_S16x256_S4096 _ _ rfl (by decide) (by decide)
  have e8 := after_unary writes3 (V4 m outs c) 8 main_v57 main_v58 _ _ _ rfl (by decide) (by decide)
  have e7 := after_reshape writes3 (V4 m outs c) 7 main_arg9 main_v57 rfl shapeCasts_S256_S1x256 _ _ rfl (by decide) (by decide)
  have e6 := after_reshape writes3 (V4 m outs c) 6 main_v55 main_v56 rfl shapeCasts_S16x256_S4096 _ _ rfl (by decide) (by decide)
  have e5 := after_unary writes3 (V4 m outs c) 5 main_v54 main_v55 _ _ _ rfl (by decide) (by decide)
  have e4 := after_reshape writes3 (V4 m outs c) 4 main_arg7 main_v54 rfl shapeCasts_S256_S1x256 _ _ rfl (by decide) (by decide)
  show after hostOps1 (V4 m outs c) (Proc.devRef .tc main_v61) (ix2 (0 : Fin 1) (colA b f)) = _
    ∧ after hostOps1 (V4 m outs c) (Proc.devRef .tc main_v61) (ix2 (0 : Fin 1) (colB b f)) = _
  rw [e11, e10, e9, e8, e7, e6, e5, e4,
    V5_arg m outs c main_arg7 (by decide) (by decide) (by decide) (by decide) (by decide),
    V5_arg m outs c main_arg9 (by decide) (by decide) (by decide) (by decide) (by decide)]
  generalize m ((c.tc : Thread nD τ).loc main_arg7) = p
  generalize m ((c.tc : Thread nD τ).loc main_arg9) = q
  exact bias_row p q shapeCasts_S256_S1x256 bcast_S1x256_S16x256_0_1 shapeCasts_S16x256_S4096
    concatenates_S4096_S4096_S8192_d0 shapeCasts_S8192_S1x8192 b f

/-- The second kernel's output, as the last stretch finds it. -/
theorem V7_out : after hostOps2 (V6 m outs c) (Proc.devRef .tc main_v62) = outs 6 main_v62 c :=
  (V7_of m outs c main_v62 (by decide)).trans (Function.update_self _ _ _)

/-- The first result: the left half of the second kernel's output. -/
theorem V7_adj (n : Fin 2048) (b : Fin 16) (f : Fin 256) :
    (V7 m outs c main_v64 : S2048x16x256.Idx → EReal) (ix3 n b f)
      = (outs 6 main_v62 c : S2048x8192.Idx → EReal) (ix2 n (colA b f)) := by
  have e1 := after_reshape writes4 (V6 m outs c) 1 main_v63 main_v64 rfl shapeCasts_S2048x4096_S2048x16x256 _ _ rfl (by decide) (by decide)
  have e0 := after_unary writes4 (V6 m outs c) 0 main_v62 main_v63 _ _ _ rfl (by decide) (by decide)
  show after hostOps2 (V6 m outs c) (Proc.devRef .tc main_v64) (ix3 n b f) = _
  rw [e1, e0, V7_out m outs c]
  generalize outs 6 main_v62 c = o
  exact out_half ![0, 0] (colA b f) b f rfl (by show b.val * 256 + f.val = 0 + (b.val * 256 + f.val); omega)
    slices_S2048x8192_S2048x4096_0_0 shapeCasts_S2048x4096_S2048x16x256 o n

/-- The second result: the right half. -/
theorem V7_conf (n : Fin 2048) (b : Fin 16) (f : Fin 256) :
    (V7 m outs c main_v66 : S2048x16x256.Idx → EReal) (ix3 n b f)
      = (outs 6 main_v62 c : S2048x8192.Idx → EReal) (ix2 n (colB b f)) := by
  have e3 := after_reshape writes4 (V6 m outs c) 3 main_v65 main_v66 rfl shapeCasts_S2048x4096_S2048x16x256 _ _ rfl (by decide) (by decide)
  have e2 := after_unary writes4 (V6 m outs c) 2 main_v62 main_v65 _ _ _ rfl (by decide) (by decide)
  show after hostOps2 (V6 m outs c) (Proc.devRef .tc main_v66) (ix3 n b f) = _
  rw [e3, e2, V7_out m outs c]
  generalize outs 6 main_v62 c = o
  exact out_half ![0, 4096] (colB b f) b f rfl rfl
    slices_S2048x8192_S2048x4096_0_4096 shapeCasts_S2048x4096_S2048x16x256 o n

end Cert.KernelIdeal.Host

end
-- ==== Proof.HostSide.lean ====
/-
  The program's two results against the layer's specification.

  Result (n, b, f) of the first output is entry (n, 256 b + f) of the second kernel's output, the dense propagation of
  the adjacency against the combined rows plus the tiled bias; column 256 b + f of the combined rows holds feature f
  of the first kernel's row 16 j + b, the gated row of node j's batch entry b through the layer's weights. The dense
  propagation is the sum over the edges into n of the source's row times the edge's weight, which is the graph
  convolution. The second output reads the right halves in the same way.
-/
import proofs.«175657_j3204045603773_1_alg».proof.Proof.HostAdj
import proofs.«175657_j3204045603773_1_alg».proof.Proof.HostGlue

noncomputable section

open scoped BigOperators

namespace Cert.KernelIdeal.Host

open Idealize.ShloMosaic Idealize.ShloMosaic.TcCoe Idealize.ShloMosaic.ValueIdx Cert.KernelIdeal Cert.KernelIdeal.Gen

section Gate

variable (m : (ℓ : Loc nD τ sig) → Buf (Elt Ideal) ℓ) (c : Dev nD)

/-- The first kernel's gated rows (mask σ(-z)), over the program's arguments. -/
theorem gate_adj (r : Fin 32768) (f : Fin 256) :
    Cert.Spec.gateOut true (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg6 : S256x256.Idx → EReal) (ix2 d f)) r f
      = Cert.Spec.gateOut true
          (Cert.Spec.flat (fun n b k => (m ((c.tc : Thread nD τ).loc main_arg0) : S2048x16x256.Idx → EReal) (ix3 n b k)))
          (fun k h => (m ((c.tc : Thread nD τ).loc main_arg2) : S256x128.Idx → EReal) (ix2 k h))
          (fun h => (m ((c.tc : Thread nD τ).loc main_arg3) : S128.Idx → EReal) (ix1 h))
          (fun h d => (m ((c.tc : Thread nD τ).loc main_arg4) : S128x256.Idx → EReal) (ix2 h d))
          (fun d => (m ((c.tc : Thread nD τ).loc main_arg5) : S256.Idx → EReal) (ix1 d))
          (fun d f => (m ((c.tc : Thread nD τ).loc main_arg6) : S256x256.Idx → EReal) (ix2 d f)) r f := by
  have e1 : (fun (r : Fin 32768) (k : Fin 256) => (V3 m c main_v46 : S32768x256.Idx → EReal) (ix2 r k))
      = Cert.Spec.flat (fun n b k => (m ((c.tc : Thread nD τ).loc main_arg0) : S2048x16x256.Idx → EReal) (ix3 n b k)) :=
    funext fun r => funext fun k => V3_x m c r k
  have e3 : (fun (h : Fin 128) => (V3 m c main_v47 : S1x128.Idx → EReal) (ix2 0 h))
      = fun h => (m ((c.tc : Thread nD τ).loc main_arg3) : S128.Idx → EReal) (ix1 h) := funext fun h => V3_b1 m c h
  have e5 : (fun (d : Fin 256) => (V3 m c main_v48 : S1x256.Idx → EReal) (ix2 0 d))
      = fun d => (m ((c.tc : Thread nD τ).loc main_arg5) : S256.Idx → EReal) (ix1 d) := funext fun d => V3_b2 m c d
  rw [e1, e3, e5, V3_weights m c main_arg2 (by decide) (by decide) (by decide),
    V3_weights m c main_arg4 (by decide) (by decide) (by decide),
    V3_weights m c main_arg6 (by decide) (by decide) (by decide)]

/-- The first kernel's gated rows (mask σ(z)), over the program's arguments. -/
theorem gate_conf (r : Fin 32768) (f : Fin 256) :
    Cert.Spec.gateOut false (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg8 : S256x256.Idx → EReal) (ix2 d f)) r f
      = Cert.Spec.gateOut false
          (Cert.Spec.flat (fun n b k => (m ((c.tc : Thread nD τ).loc main_arg0) : S2048x16x256.Idx → EReal) (ix3 n b k)))
          (fun k h => (m ((c.tc : Thread nD τ).loc main_arg2) : S256x128.Idx → EReal) (ix2 k h))
          (fun h => (m ((c.tc : Thread nD τ).loc main_arg3) : S128.Idx → EReal) (ix1 h))
          (fun h d => (m ((c.tc : Thread nD τ).loc main_arg4) : S128x256.Idx → EReal) (ix2 h d))
          (fun d => (m ((c.tc : Thread nD τ).loc main_arg5) : S256.Idx → EReal) (ix1 d))
          (fun d f => (m ((c.tc : Thread nD τ).loc main_arg8) : S256x256.Idx → EReal) (ix2 d f)) r f := by
  have e1 : (fun (r : Fin 32768) (k : Fin 256) => (V3 m c main_v46 : S32768x256.Idx → EReal) (ix2 r k))
      = Cert.Spec.flat (fun n b k => (m ((c.tc : Thread nD τ).loc main_arg0) : S2048x16x256.Idx → EReal) (ix3 n b k)) :=
    funext fun r => funext fun k => V3_x m c r k
  have e3 : (fun (h : Fin 128) => (V3 m c main_v47 : S1x128.Idx → EReal) (ix2 0 h))
      = fun h => (m ((c.tc : Thread nD τ).loc main_arg3) : S128.Idx → EReal) (ix1 h) := funext fun h => V3_b1 m c h
  have e5 : (fun (d : Fin 256) => (V3 m c main_v48 : S1x256.Idx → EReal) (ix2 0 d))
      = fun d => (m ((c.tc : Thread nD τ).loc main_arg5) : S256.Idx → EReal) (ix1 d) := funext fun d => V3_b2 m c d
  rw [e1, e3, e5, V3_weights m c main_arg2 (by decide) (by decide) (by decide),
    V3_weights m c main_arg4 (by decide) (by decide) (by decide),
    V3_weights m c main_arg8 (by decide) (by decide) (by decide)]

end Gate

/-- The first result is the first layer's graph convolution of the rows gated by σ(-z). -/
theorem result_adj (m : (ℓ : Loc nD τ sig) → Buf (Elt Ideal) ℓ) (outs : Gen.Outs (F := Ideal)) (c : Dev nD)
    (s d : Fin 34816 → Fin 2048)
    (hs : ∀ e, (Cert.Spec.edgeWord (fun a e => (m ((c.tc : Thread nD τ).loc main_arg1) : S2x32768.Idx → BitVec 32) (ix2 a e)) 0 e).toInt = ((s e).val : Int))
    (hd : ∀ e, (Cert.Spec.edgeWord (fun a e => (m ((c.tc : Thread nD τ).loc main_arg1) : S2x32768.Idx → BitVec 32) (ix2 a e)) 1 e).toInt = ((d e).val : Int))
    (h0 : ∀ (r : Fin 32768) (f : Fin 256), (outs 4 main_v49_0 c : S32768x256.Idx → EReal) (ix2 r f) =
        Cert.Spec.gateOut true (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg6 : S256x256.Idx → EReal) (ix2 d f)) r f)
    (h1 : ∀ (r : Fin 32768) (f : Fin 256), (outs 4 main_v49_1 c : S32768x256.Idx → EReal) (ix2 r f) =
        Cert.Spec.gateOut false (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg8 : S256x256.Idx → EReal) (ix2 d f)) r f)
    (h2 : ∀ (i : Fin 2048) (k : Fin 8192), (outs 6 main_v62 c : S2048x8192.Idx → EReal) (ix2 i k) =
        Cert.Spec.accOut (fun i j => (V5 m outs c main_v45 : S2048x2048.Idx → EReal) (ix2 i j)) (fun j k => (V5 m outs c main_v53 : S2048x8192.Idx → EReal) (ix2 j k)) (fun k => (V5 m outs c main_v61 : S1x8192.Idx → EReal) (ix2 0 k)) i k)
    (n : Fin 2048) (b : Fin 16) (f : Fin 256) :
    (V7 m outs c main_v64 : S2048x16x256.Idx → EReal) (ix3 n b f) =
      Cert.Spec.final true (fun n b k => (m ((c.tc : Thread nD τ).loc main_arg0) : S2048x16x256.Idx → EReal) (ix3 n b k))
        (fun k h => (m ((c.tc : Thread nD τ).loc main_arg2) : S256x128.Idx → EReal) (ix2 k h))
        (fun h => (m ((c.tc : Thread nD τ).loc main_arg3) : S128.Idx → EReal) (ix1 h))
        (fun h d => (m ((c.tc : Thread nD τ).loc main_arg4) : S128x256.Idx → EReal) (ix2 h d))
        (fun d => (m ((c.tc : Thread nD τ).loc main_arg5) : S256.Idx → EReal) (ix1 d))
        (fun d f => (m ((c.tc : Thread nD τ).loc main_arg6) : S256x256.Idx → EReal) (ix2 d f))
        (fun f => (m ((c.tc : Thread nD τ).loc main_arg7) : S256.Idx → EReal) (ix1 f)) s d n b f := by
  refine (V7_adj m outs c n b f).trans ((h2 n (colA b f)).trans ?_)
  refine (accOut_eq_conv s d _ (fun i j => ?_) _ _ n (colA b f)).trans ?_
  · rw [V5_adj m outs c]
    exact V3_adj m c s d hs hd i j
  · unfold Cert.Spec.final Cert.Spec.conv
    beta_reduce
    have key : ∀ e : Fin 34816, (V5 m outs c main_v53 : S2048x8192.Idx → EReal) (ix2 (s e) (colA b f)) = _ :=
      fun e => ((V5_xw m outs c (s e) b f).1).trans
        ((h0 (Cert.Spec.row (s e) b) f).trans (gate_adj m c (Cert.Spec.row (s e) b) f))
    simp only [key, (V5_bias m outs c b f).1]

/-- The second result is the second layer's graph convolution of the rows gated by σ(z). -/
theorem result_conf (m : (ℓ : Loc nD τ sig) → Buf (Elt Ideal) ℓ) (outs : Gen.Outs (F := Ideal)) (c : Dev nD)
    (s d : Fin 34816 → Fin 2048)
    (hs : ∀ e, (Cert.Spec.edgeWord (fun a e => (m ((c.tc : Thread nD τ).loc main_arg1) : S2x32768.Idx → BitVec 32) (ix2 a e)) 0 e).toInt = ((s e).val : Int))
    (hd : ∀ e, (Cert.Spec.edgeWord (fun a e => (m ((c.tc : Thread nD τ).loc main_arg1) : S2x32768.Idx → BitVec 32) (ix2 a e)) 1 e).toInt = ((d e).val : Int))
    (h0 : ∀ (r : Fin 32768) (f : Fin 256), (outs 4 main_v49_0 c : S32768x256.Idx → EReal) (ix2 r f) =
        Cert.Spec.gateOut true (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg6 : S256x256.Idx → EReal) (ix2 d f)) r f)
    (h1 : ∀ (r : Fin 32768) (f : Fin 256), (outs 4 main_v49_1 c : S32768x256.Idx → EReal) (ix2 r f) =
        Cert.Spec.gateOut false (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg8 : S256x256.Idx → EReal) (ix2 d f)) r f)
    (h2 : ∀ (i : Fin 2048) (k : Fin 8192), (outs 6 main_v62 c : S2048x8192.Idx → EReal) (ix2 i k) =
        Cert.Spec.accOut (fun i j => (V5 m outs c main_v45 : S2048x2048.Idx → EReal) (ix2 i j)) (fun j k => (V5 m outs c main_v53 : S2048x8192.Idx → EReal) (ix2 j k)) (fun k => (V5 m outs c main_v61 : S1x8192.Idx → EReal) (ix2 0 k)) i k)
    (n : Fin 2048) (b : Fin 16) (f : Fin 256) :
    (V7 m outs c main_v66 : S2048x16x256.Idx → EReal) (ix3 n b f) =
      Cert.Spec.final false (fun n b k => (m ((c.tc : Thread nD τ).loc main_arg0) : S2048x16x256.Idx → EReal) (ix3 n b k))
        (fun k h => (m ((c.tc : Thread nD τ).loc main_arg2) : S256x128.Idx → EReal) (ix2 k h))
        (fun h => (m ((c.tc : Thread nD τ).loc main_arg3) : S128.Idx → EReal) (ix1 h))
        (fun h d => (m ((c.tc : Thread nD τ).loc main_arg4) : S128x256.Idx → EReal) (ix2 h d))
        (fun d => (m ((c.tc : Thread nD τ).loc main_arg5) : S256.Idx → EReal) (ix1 d))
        (fun d f => (m ((c.tc : Thread nD τ).loc main_arg8) : S256x256.Idx → EReal) (ix2 d f))
        (fun f => (m ((c.tc : Thread nD τ).loc main_arg9) : S256.Idx → EReal) (ix1 f)) s d n b f := by
  refine (V7_conf m outs c n b f).trans ((h2 n (colB b f)).trans ?_)
  refine (accOut_eq_conv s d _ (fun i j => ?_) _ _ n (colB b f)).trans ?_
  · rw [V5_adj m outs c]
    exact V3_adj m c s d hs hd i j
  · unfold Cert.Spec.final Cert.Spec.conv
    beta_reduce
    have key : ∀ e : Fin 34816, (V5 m outs c main_v53 : S2048x8192.Idx → EReal) (ix2 (s e) (colB b f)) = _ :=
      fun e => ((V5_xw m outs c (s e) b f).2).trans
        ((h1 (Cert.Spec.row (s e) b) f).trans (gate_conf m c (Cert.Spec.row (s e) b) f))
    simp only [key, (V5_bias m outs c b f).2]

end Cert.KernelIdeal.Host

end
-- ==== Proof.RefMath.lean ====
/-
  Small facts that connect a program's spelling of a value to the specification's, free of any program.

  Row 16 n + b of the flattened input is entry (n, b). The logistic function of -z is 1 / (1 + exp (-(-z))): on the
  extended reals 0 - z = -z. A select on the bit of "a > 0" between the inverse square root of a and 0 is the
  specification's `if 0 < a`. Two node numbers are equal exactly when their values are equal as integers.
-/
import Mathlib
import Idealize.ShloMosaic.PureOps.Ideal.Laws
import Idealize.ShloMosaic.Lib.IdealHost
import proofs.«175657_j3204045603773_1_alg».proof.Proof.Spec
import proofs.«175657_j3204045603773_1_alg».proof.Proof.LibRealMask

noncomputable section

open scoped BigOperators

namespace Cert.ReferenceIdeal.RefMath

open Idealize.ShloMosaic

/-- Row `16 n + b` of the flattened input is entry `(n, b)`. -/
theorem flat_row (x : Fin 2048 → Fin 16 → Fin 256 → EReal) (n : Fin 2048) (b : Fin 16) (k : Fin 256) :
    Cert.Spec.flat x (Cert.Spec.row n b) k = x n b k := by
  unfold Cert.Spec.flat Cert.Spec.row
  have hb := b.isLt
  have h1 : (⟨(n.val * 16 + b.val) / 16, by omega⟩ : Fin 2048) = n := Fin.ext (by show (n.val * 16 + b.val) / 16 = n.val; omega)
  have h2 : (⟨(n.val * 16 + b.val) % 16, by omega⟩ : Fin 16) = b := Fin.ext (by show (n.val * 16 + b.val) % 16 = b.val; omega)
  show x ⟨(n.val * 16 + b.val) / 16, _⟩ ⟨(n.val * 16 + b.val) % 16, _⟩ k = x n b k
  rw [h1, h2]

/-- The reference's `1 / (1 + exp (-(-z)))` is the logistic function at `0 - z`. -/
theorem logistic_neg (z : EReal) : Ideal.div 1 (1 + Ideal.exp (-(-z))) = Ideal.logistic (0 - z) := by
  unfold Ideal.logistic
  rw [zero_sub]

/-- The reference's `1 / (1 + exp (-z))` is the logistic function at `z`. -/
theorem logistic_pos (z : EReal) : Ideal.div 1 (1 + Ideal.exp (-z)) = Ideal.logistic z := rfl

/-- `where(a > 0, rsqrt a, 0)` is the specification's `if 0 < a`. -/
theorem select_rsqrt_eq (a : EReal) :
    Scalar.select (Ideal.cmp .ogt a 0) (Ideal.rsqrt a) (0 : EReal) = if 0 < a then Ideal.rsqrt a else 0 := by
  show Scalar.select (BitVec.ofBool (decide (0 < a))) (Ideal.rsqrt a) (0 : EReal) = _
  rw [LibRealMask.sel_bool]
  by_cases h : 0 < a
  · rw [if_pos (decide_eq_true h), if_pos h]
  · rw [if_neg (by simpa using h), if_neg h]

/-- A word whose signed value is node `q` has signed value `p` exactly when `q = p`. -/
theorem hit_iff {N : Nat} (w : BitVec 32) (q p : Fin N) (hw : w.toInt = (q.val : Int)) :
    w.toInt = (p.val : Int) ↔ q = p := by
  rw [hw]
  constructor
  · intro h; exact Fin.ext (by exact_mod_cast h)
  · intro h; rw [h]

end Cert.ReferenceIdeal.RefMath

end
-- ==== Proof.RefEdges.lean ====
/-
  The two edge-word vectors of the reference program are the specification's edge words.

  Row a of the edge list, sliced out and reshaped to a vector, is joined with the node numbers 0, 1, …, 2047: entry e of
  the join is the given word (a, e) while e is below the number of given edges, and the node number e less that count as
  a 32-bit word from there on: one self loop per node.
-/
import proofs.«175657_j3204045603773_1_alg».proof.Proof.RefReadP
import proofs.«175657_j3204045603773_1_alg».proof.Proof.Spec

noncomputable section

namespace Cert.ReferenceIdeal.RefSide

open Idealize.ShloMosaic Idealize.ShloMosaic.TcCoe Idealize.ShloMosaic.ValueIdx Cert.ReferenceIdeal Cert.ReferenceIdeal.Gen Cert.ReferenceIdeal.ReadP

/-- The source words: row 0 of the edge list, then the node numbers. -/
theorem v27_eq (x1 : (⟨S2x32768, .i32⟩ : BufTy).Contents (Elt Ideal)) (e : Fin 34816) :
    val_main_v27 (F := Ideal) x1 (ix1 e) = Cert.Spec.edgeWord (fun a e => (x1 : S2x32768.Idx → BitVec 32) (ix2 a e)) 0 e := by
  unfold val_main_v27 Cert.Spec.edgeWord
  by_cases h : e.val < 32768
  · rw [dif_pos h]
    refine (concatenate_pair_apply_left (t := S34816) (s₁ := S32768) (s₂ := S2048) (0 : Fin S34816.rank) _ _ _ (ix1 e) rfl (ix1 (⟨e.val, h⟩ : Fin 32768))
      (fun b => match b with | ⟨0, _⟩ => rfl)).trans ?_
    rw [val_main_v26_apply, val_main_v25_apply]
    refine congrArg x1 ?_
    funext a
    match a with
    | ⟨0, _⟩ => rfl
    | ⟨1, _⟩ => exact Fin.ext (by show e.val % 32768 = e.val; omega)
  · rw [dif_neg h]
    refine (concatenate_pair_apply_right (t := S34816) (s₁ := S32768) (s₂ := S2048) (0 : Fin S34816.rank) _ _ _ (ix1 e) rfl rfl
      (ix1 (⟨e.val - 32768, by have := e.isLt; omega⟩ : Fin 2048))
      (fun b hb => match b, hb with | ⟨0, _⟩, hb => absurd rfl hb)
      (by show (e.val - 32768) + 32768 = e.val; omega)).trans ?_
    rfl

/-- The destination words: row 1 of the edge list, then the node numbers. -/
theorem v30_eq (x1 : (⟨S2x32768, .i32⟩ : BufTy).Contents (Elt Ideal)) (e : Fin 34816) :
    val_main_v30 (F := Ideal) x1 (ix1 e) = Cert.Spec.edgeWord (fun a e => (x1 : S2x32768.Idx → BitVec 32) (ix2 a e)) 1 e := by
  unfold val_main_v30 Cert.Spec.edgeWord
  by_cases h : e.val < 32768
  · rw [dif_pos h]
    refine (concatenate_pair_apply_left (t := S34816) (s₁ := S32768) (s₂ := S2048) (0 : Fin S34816.rank) _ _ _ (ix1 e) rfl (ix1 (⟨e.val, h⟩ : Fin 32768))
      (fun b => match b with | ⟨0, _⟩ => rfl)).trans ?_
    rw [val_main_v29_apply, val_main_v28_apply]
    refine congrArg x1 ?_
    funext a
    match a with
    | ⟨0, _⟩ => rfl
    | ⟨1, _⟩ => exact Fin.ext (by show e.val % 32768 = e.val; omega)
  · rw [dif_neg h]
    refine (concatenate_pair_apply_right (t := S34816) (s₁ := S32768) (s₂ := S2048) (0 : Fin S34816.rank) _ _ _ (ix1 e) rfl rfl
      (ix1 (⟨e.val - 32768, by have := e.isLt; omega⟩ : Fin 2048))
      (fun b hb => match b, hb with | ⟨0, _⟩, hb => absurd rfl hb)
      (by show (e.val - 32768) + 32768 = e.val; omega)).trans ?_
    rfl

/-- A source word's signed value is its node number. -/
theorem v27_toInt (x1 : (⟨S2x32768, .i32⟩ : BufTy).Contents (Elt Ideal)) (s : Fin 34816 → Fin 2048)
    (hs : ∀ e, (Cert.Spec.edgeWord (fun a e => (x1 : S2x32768.Idx → BitVec 32) (ix2 a e)) 0 e).toInt = ((s e).val : Int)) (e : Fin 34816) :
    (val_main_v27 (F := Ideal) x1 (ix1 e)).toInt = ((s e).val : Int) := by
  rw [v27_eq]; exact hs e

/-- A destination word's signed value is its node number. -/
theorem v30_toInt (x1 : (⟨S2x32768, .i32⟩ : BufTy).Contents (Elt Ideal)) (d : Fin 34816 → Fin 2048)
    (hd : ∀ e, (Cert.Spec.edgeWord (fun a e => (x1 : S2x32768.Idx → BitVec 32) (ix2 a e)) 1 e).toInt = ((d e).val : Int)) (e : Fin 34816) :
    (val_main_v30 (F := Ideal) x1 (ix1 e)).toInt = ((d e).val : Int) := by
  rw [v30_eq]; exact hd e

end Cert.ReferenceIdeal.RefSide

end
-- ==== Proof.RefGate.lean ====
/-
  The gate of the reference program, read at an entry, is the specification's.

  The einsum 'nbd,dh->nbh' at (n, b, h) is the sum over k of x(n, b, k) w1(k, h): the inner sum of the specification's
  pre-activation at the flattened row 16 n + b. Adding the bias, taking the maximum with zero, the second einsum and its
  bias give the pre-activation z. The two masks are 1 / (1 + exp (-(-z))) and 1 / (1 + exp (-z)): the logistic function
  at 0 - z and at z. Each masked row through its weight matrix is the specification's gated row.
-/
import proofs.«175657_j3204045603773_1_alg».proof.Proof.RefReadP
import proofs.«175657_j3204045603773_1_alg».proof.Proof.RefMath

noncomputable section

open scoped BigOperators

namespace Cert.ReferenceIdeal.RefSide

open Idealize.ShloMosaic Idealize.ShloMosaic.TcCoe Idealize.ShloMosaic.ValueIdx Cert.ReferenceIdeal Cert.ReferenceIdeal.ReadP

/-! ## Index bookkeeping: each layout step at an index built from its coordinates -/

theorem lidx_v0 (n : Fin 2048) (b : Fin 16) (h : Fin 128) (k : Fin 256) : lidx_main_v0 (ix3 n b h) k = ix3 n b k := by
  funext a; match a with | ⟨0, _⟩ => rfl | ⟨1, _⟩ => rfl | ⟨2, _⟩ => rfl
theorem ridx_v0 (n : Fin 2048) (b : Fin 16) (h : Fin 128) (k : Fin 256) : ridx_main_v0 (ix3 n b h) k = ix2 k h := by
  funext a; match a with | ⟨0, _⟩ => rfl | ⟨1, _⟩ => rfl
theorem idx_v1v2 (n : Fin 2048) (b : Fin 16) (h : Fin 128) : idx_main_v1 (idx_main_v2 (ix3 n b h)) = ix1 h := by
  funext a; match a with | ⟨0, _⟩ => rfl
theorem lidx_v5 (n : Fin 2048) (b : Fin 16) (d : Fin 256) (h : Fin 128) : lidx_main_v5 (ix3 n b d) h = ix3 n b h := by
  funext a; match a with | ⟨0, _⟩ => rfl | ⟨1, _⟩ => rfl | ⟨2, _⟩ => rfl
theorem ridx_v5 (n : Fin 2048) (b : Fin 16) (d : Fin 256) (h : Fin 128) : ridx_main_v5 (ix3 n b d) h = ix2 h d := by
  funext a; match a with | ⟨0, _⟩ => rfl | ⟨1, _⟩ => rfl
theorem idx_v6v7 (n : Fin 2048) (b : Fin 16) (d : Fin 256) : idx_main_v6 (idx_main_v7 (ix3 n b d)) = ix1 d := by
  funext a; match a with | ⟨0, _⟩ => rfl
theorem lidx_v54 (n : Fin 2048) (b : Fin 16) (f : Fin 256) (k : Fin 256) : lidx_main_v54 (ix3 n b f) k = ix3 n b k := by
  funext a; match a with | ⟨0, _⟩ => rfl | ⟨1, _⟩ => rfl | ⟨2, _⟩ => rfl
theorem ridx_v54 (n : Fin 2048) (b : Fin 16) (f : Fin 256) (k : Fin 256) : ridx_main_v54 (ix3 n b f) k = ix2 k f := by
  funext a; match a with | ⟨0, _⟩ => rfl | ⟨1, _⟩ => rfl
theorem lidx_v71 (n : Fin 2048) (b : Fin 16) (f : Fin 256) (k : Fin 256) : lidx_main_v71 (ix3 n b f) k = ix3 n b k := by
  funext a; match a with | ⟨0, _⟩ => rfl | ⟨1, _⟩ => rfl | ⟨2, _⟩ => rfl
theorem ridx_v71 (n : Fin 2048) (b : Fin 16) (f : Fin 256) (k : Fin 256) : ridx_main_v71 (ix3 n b f) k = ix2 k f := by
  funext a; match a with | ⟨0, _⟩ => rfl | ⟨1, _⟩ => rfl

/-! ## The hidden layer and the pre-activation -/

/-- The hidden layer at `(n, b, h)`: the maximum of the first einsum plus its bias with zero. -/
theorem v4_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (n : Fin 2048) (b : Fin 16) (h : Fin 128) :
    val_main_v4 (F := Ideal) x0 x2 x3 (ix3 n b h)
      = max ((∑ k : Fin 256, (x0 : S2048x16x256.Idx → EReal) (ix3 n b k) * (x2 : S256x128.Idx → EReal) (ix2 k h)) + (x3 : S128.Idx → EReal) (ix1 h)) 0 := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_v0, ridx_v0, idx_v1v2]

/-- The pre-activation at `(n, b, d)` is the specification's at the flattened row `16 n + b`. -/
theorem v8_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (n : Fin 2048) (b : Fin 16) (d : Fin 256) :
    val_main_v8 (F := Ideal) x0 x2 x3 x4 x5 (ix3 n b d)
      = Cert.Spec.gateZ (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (Cert.Spec.row n b) d := by
  rw [val_main_v8_apply, val_main_v5_apply, val_main_v7_apply, val_main_v6_apply]
  unfold Cert.Spec.gateZ
  simp only [Ideal.addf_def, RefMath.flat_row, lidx_v5, ridx_v5, idx_v6v7, v4_eq]

/-! ## The two masked inputs -/

/-- The row masked by the logistic function of `-z`. -/
theorem v16_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (n : Fin 2048) (b : Fin 16) (d : Fin 256) :
    val_main_v16 (F := Ideal) x0 x2 x3 x4 x5 (ix3 n b d)
      = Ideal.logistic (0 - Cert.Spec.gateZ (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (Cert.Spec.row n b) d) * (x0 : S2048x16x256.Idx → EReal) (ix3 n b d) := by
  rw [val_main_v16_apply, val_main_v15_apply, val_main_v14_apply, val_main_cst_0_apply, val_main_v13_apply,
    val_main_v12_apply, val_main_cst_apply, val_main_v11_apply, val_main_v10_apply, val_main_v9_apply, v8_eq]
  simp only [Ideal.mulf_def, Ideal.hostDivf_def, Ideal.ofBits_def, Ideal.ofBits_one_f32, Ideal.addf_def,
    Ideal.hostUnary_exp_def, Ideal.hostNegf_def, Ideal.negf_def, RefMath.logistic_neg]

/-- The row masked by the logistic function of `z`. -/
theorem v23_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (n : Fin 2048) (b : Fin 16) (d : Fin 256) :
    val_main_v23 (F := Ideal) x0 x2 x3 x4 x5 (ix3 n b d)
      = Ideal.logistic (Cert.Spec.gateZ (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (Cert.Spec.row n b) d) * (x0 : S2048x16x256.Idx → EReal) (ix3 n b d) := by
  rw [val_main_v23_apply, val_main_v22_apply, val_main_v21_apply, val_main_cst_2_apply, val_main_v20_apply,
    val_main_v19_apply, val_main_cst_1_apply, val_main_v18_apply, val_main_v17_apply, v8_eq]
  simp only [Ideal.mulf_def, Ideal.hostDivf_def, Ideal.ofBits_def, Ideal.ofBits_one_f32, Ideal.addf_def,
    Ideal.hostUnary_exp_def, Ideal.hostNegf_def, Ideal.negf_def, RefMath.logistic_pos]

/-! ## The gated rows through their weight matrices -/

/-- The rows masked by the logistic function of `-z`, through the first convolution's weights. -/
theorem v54_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (n : Fin 2048) (b : Fin 16) (f : Fin 256) :
    val_main_v54 (F := Ideal) x0 x2 x3 x4 x5 xw (ix3 n b f)
      = Cert.Spec.gateOut true (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n b) f := by
  rw [val_main_v54_apply]
  unfold Cert.Spec.gateOut
  refine Finset.sum_congr rfl fun d _ => ?_
  rw [lidx_v54, ridx_v54, v16_eq, if_pos rfl, RefMath.flat_row]

/-- The rows masked by the logistic function of `z`, through the second convolution's weights. -/
theorem v71_eq (x0 : (⟨S2048x16x256, .f32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (n : Fin 2048) (b : Fin 16) (f : Fin 256) :
    val_main_v71 (F := Ideal) x0 x2 x3 x4 x5 xw (ix3 n b f)
      = Cert.Spec.gateOut false (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n b) f := by
  rw [val_main_v71_apply]
  unfold Cert.Spec.gateOut
  refine Finset.sum_congr rfl fun d _ => ?_
  rw [lidx_v71, ridx_v71, v23_eq, if_neg (by decide), RefMath.flat_row]

end Cert.ReferenceIdeal.RefSide

end
-- ==== Proof.RefNorm.lean ====
/-
  The degree, the normaliser and the edge norm of the reference program are the specification's.

  The degree vector is a segment sum of ones into zeros at the destination words: at node v it is zero plus the number of
  edges whose destination word, read signed, is v. The normaliser is where(deg > 0, rsqrt deg, 0). An index column made
  from the edge words by moving a negative word up by the number of nodes names, after clamping, the node the word
  names; so the normaliser gathered at the source and destination columns is the normaliser of the edge's two ends, and
  their product the edge's norm.
-/
import proofs.«175657_j3204045603773_1_alg».proof.Proof.RefReadP
import proofs.«175657_j3204045603773_1_alg».proof.Proof.RefMath
import proofs.«175657_j3204045603773_1_alg».proof.Proof.RefEdges
import proofs.«175657_j3204045603773_1_alg».proof.Proof.LibScatterAddRows
import proofs.«175657_j3204045603773_1_alg».proof.Proof.LibGatherRows
import proofs.«175657_j3204045603773_1_alg».proof.Proof.LibWrapRow

noncomputable section

open scoped BigOperators

namespace Cert.ReferenceIdeal.RefSide

open Idealize.ShloMosaic Idealize.ShloMosaic.TcCoe Idealize.ShloMosaic.ValueIdx Cert.ReferenceIdeal Cert.ReferenceIdeal.Gen Cert.ReferenceIdeal.ReadP

/-! ## The wrapped index columns name the edges' ends -/

/-- The source column of the norm names the edge's source. -/
theorem row_v44 (x1 : (⟨S2x32768, .i32⟩ : BufTy).Contents (Elt Ideal)) (s : Fin 34816 → Fin 2048) (hs : ∀ e, (Cert.Spec.edgeWord (fun a e => (x1 : S2x32768.Idx → BitVec 32) (ix2 a e)) 0 e).toInt = ((s e).val : Int)) (e : Fin 34816) :
    LibGatherRows.row (by decide : 0 < 2048) (val_main_v44 (F := Ideal) x1) e = s e := by
  refine LibWrapRow.row_of_hit (by decide) (val_main_v44 (F := Ideal) x1) (val_main_v27 (F := Ideal) x1 (ix1 e))
    (val_main_v42 (F := Ideal) x1 (ix1 e)) e ?_ (s e) (v27_toInt x1 s hs e)
  rw [val_main_v44_apply,
    show idx_main_v44 (ix2 e (0 : Fin 1)) = ix1 e from (funext fun a => match a with | ⟨0, _⟩ => rfl),
    val_main_v43_apply, val_main_v40_apply, val_main_v39_apply, val_main_c_apply]

/-- The destination column of the norm names the edge's destination. -/
theorem row_v51 (x1 : (⟨S2x32768, .i32⟩ : BufTy).Contents (Elt Ideal)) (d : Fin 34816 → Fin 2048) (hd : ∀ e, (Cert.Spec.edgeWord (fun a e => (x1 : S2x32768.Idx → BitVec 32) (ix2 a e)) 1 e).toInt = ((d e).val : Int)) (e : Fin 34816) :
    LibGatherRows.row (by decide : 0 < 2048) (val_main_v51 (F := Ideal) x1) e = d e := by
  refine LibWrapRow.row_of_hit (by decide) (val_main_v51 (F := Ideal) x1) (val_main_v30 (F := Ideal) x1 (ix1 e))
    (val_main_v49 (F := Ideal) x1 (ix1 e)) e ?_ (d e) (v30_toInt x1 d hd e)
  rw [val_main_v51_apply,
    show idx_main_v51 (ix2 e (0 : Fin 1)) = ix1 e from (funext fun a => match a with | ⟨0, _⟩ => rfl),
    val_main_v50_apply, val_main_v47_apply, val_main_v46_apply, val_main_c_8_apply]

/-- The source column of the first convolution names the edge's source. -/
theorem row_v60 (x1 : (⟨S2x32768, .i32⟩ : BufTy).Contents (Elt Ideal)) (s : Fin 34816 → Fin 2048) (hs : ∀ e, (Cert.Spec.edgeWord (fun a e => (x1 : S2x32768.Idx → BitVec 32) (ix2 a e)) 0 e).toInt = ((s e).val : Int)) (e : Fin 34816) :
    LibGatherRows.row (by decide : 0 < 2048) (val_main_v60 (F := Ideal) x1) e = s e := by
  refine LibWrapRow.row_of_hit (by decide) (val_main_v60 (F := Ideal) x1) (val_main_v27 (F := Ideal) x1 (ix1 e))
    (val_main_v58 (F := Ideal) x1 (ix1 e)) e ?_ (s e) (v27_toInt x1 s hs e)
  rw [val_main_v60_apply,
    show idx_main_v60 (ix2 e (0 : Fin 1)) = ix1 e from (funext fun a => match a with | ⟨0, _⟩ => rfl),
    val_main_v59_apply, val_main_v56_apply, val_main_v55_apply, val_main_c_10_apply]

/-- The source column of the second convolution names the edge's source. -/
theorem row_v77 (x1 : (⟨S2x32768, .i32⟩ : BufTy).Contents (Elt Ideal)) (s : Fin 34816 → Fin 2048) (hs : ∀ e, (Cert.Spec.edgeWord (fun a e => (x1 : S2x32768.Idx → BitVec 32) (ix2 a e)) 0 e).toInt = ((s e).val : Int)) (e : Fin 34816) :
    LibGatherRows.row (by decide : 0 < 2048) (val_main_v77 (F := Ideal) x1) e = s e := by
  refine LibWrapRow.row_of_hit (by decide) (val_main_v77 (F := Ideal) x1) (val_main_v27 (F := Ideal) x1 (ix1 e))
    (val_main_v75 (F := Ideal) x1 (ix1 e)) e ?_ (s e) (v27_toInt x1 s hs e)
  rw [val_main_v77_apply,
    show idx_main_v77 (ix2 e (0 : Fin 1)) = ix1 e from (funext fun a => match a with | ⟨0, _⟩ => rfl),
    val_main_v76_apply, val_main_v73_apply, val_main_v72_apply, val_main_c_13_apply]

/-! ## Degree, normaliser, norm -/

/-- The degree of node `v`. -/
theorem v34_eq (x1 : (⟨S2x32768, .i32⟩ : BufTy).Contents (Elt Ideal)) (d : Fin 34816 → Fin 2048) (hd : ∀ e, (Cert.Spec.edgeWord (fun a e => (x1 : S2x32768.Idx → BitVec 32) (ix2 a e)) 1 e).toInt = ((d e).val : Int)) (v : Fin 2048) :
    val_main_v34 (F := Ideal) x1 (ix1 v) = Cert.Spec.deg d v := by
  unfold val_main_v34 Host.scatterAdd
  rw [Ideal.hostScatterAdd_def, LibScatterAddRows.scatterAdd_elems_apply _ rfl rfl rfl rfl,
    val_main_v32_apply, val_main_cst_4_apply]
  unfold Cert.Spec.deg
  simp only [Ideal.ofBits_def, Ideal.ofBits_zero_f32, zero_add]
  refine Finset.sum_congr rfl fun e _ => ?_
  have hw : val_main_v33 (F := Ideal) x1 (ix2 e (0 : Fin 1)) = val_main_v30 (F := Ideal) x1 (ix1 e) := by
    rw [val_main_v33_apply]
    exact congrArg _ (funext fun a => match a with | ⟨0, _⟩ => rfl)
  have h1 : val_main_v31 (F := Ideal) (ix1 e) = 1 := by
    rw [val_main_v31_apply, val_main_cst_3_apply]
    simp only [Ideal.ofBits_def, Ideal.ofBits_one_f32]
  rw [hw, h1]
  by_cases h : d e = v
  · rw [if_pos h, if_pos ((RefMath.hit_iff _ (d e) v (v30_toInt x1 d hd e)).mpr h)]
  · rw [if_neg h, if_neg (fun h' => h ((RefMath.hit_iff _ (d e) v (v30_toInt x1 d hd e)).mp h'))]

/-- The normaliser of node `v`. -/
theorem v38_eq (x1 : (⟨S2x32768, .i32⟩ : BufTy).Contents (Elt Ideal)) (d : Fin 34816 → Fin 2048) (hd : ∀ e, (Cert.Spec.edgeWord (fun a e => (x1 : S2x32768.Idx → BitVec 32) (ix2 a e)) 1 e).toInt = ((d e).val : Int)) (v : Fin 2048) :
    val_main_v38 (F := Ideal) x1 (ix1 v) = Cert.Spec.dinv d v := by
  rw [val_main_v38_apply, val_main_v36_apply, val_main_v37_apply, val_main_call1_v1_apply, val_main_call1_v0_apply,
    val_main_cst_6_apply, val_main_v35_apply, val_main_cst_5_apply, v34_eq x1 d hd v]
  unfold Cert.Spec.dinv
  simp only [Ideal.cmpf_def, Ideal.hostUnary_rsqrt_def, Ideal.ofBits_def, Ideal.ofBits_zero_f32]
  exact RefMath.select_rsqrt_eq _

/-- The normaliser gathered at the source column. -/
theorem v45_eq (x1 : (⟨S2x32768, .i32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (e : Fin 34816) :
    val_main_v45 (F := Ideal) x1 (ix1 e) = Cert.Spec.dinv d (s e) := by
  unfold val_main_v45
  rw [LibGatherRows.gather_elems_apply (by decide : 0 < 2048) _ rfl rfl rfl rfl rfl rfl rfl, row_v44 x1 s hs e,
    v38_eq x1 d hd (s e)]

/-- The normaliser gathered at the destination column. -/
theorem v52_eq (x1 : (⟨S2x32768, .i32⟩ : BufTy).Contents (Elt Ideal)) (d : Fin 34816 → Fin 2048) (hd : ∀ e, (Cert.Spec.edgeWord (fun a e => (x1 : S2x32768.Idx → BitVec 32) (ix2 a e)) 1 e).toInt = ((d e).val : Int)) (e : Fin 34816) :
    val_main_v52 (F := Ideal) x1 (ix1 e) = Cert.Spec.dinv d (d e) := by
  unfold val_main_v52
  rw [LibGatherRows.gather_elems_apply (by decide : 0 < 2048) _ rfl rfl rfl rfl rfl rfl rfl, row_v51 x1 d hd e,
    v38_eq x1 d hd (d e)]

/-- The edge's norm. -/
theorem v53_eq (x1 : (⟨S2x32768, .i32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (e : Fin 34816) :
    val_main_v53 (F := Ideal) x1 (ix1 e) = Cert.Spec.norm s d e := by
  rw [val_main_v53_apply, v45_eq x1 s hs d hd e, v52_eq x1 d hd e]
  rfl

end Cert.ReferenceIdeal.RefSide

end
-- ==== Proof.LibGatherRows3.lean ====
/-
  Taking rows of a rank-3 table by an index column, read at an entry. The operand is a table [N, B, C], the start
  indices a column [E, 1], and the dimension numbers are those of `table[idx]`: the row axis collapsed and named by the
  one start-index component, the two remaining axes the two offset axes. Entry (e, b, c) of the result is the table's
  entry (r, b, c) with r the start index idx[e, 0] read as a signed integer and clamped into [0, N - 1]: the same row
  as for a rank-2 table. Stated for any record with those dimension numbers.
-/
import Idealize.ShloMosaic.Lib.ValueIdx
import Idealize.ShloMosaic.PureOps.ShapeOps
import proofs.«175657_j3204045603773_1_alg».proof.Proof.LibGatherRows

namespace Cert.LibGatherRows3

open Idealize.ShloMosaic Idealize.ShloMosaic.ValueIdx

/-- Rows of a rank-3 table: result entry `(e, b, c)` reads the operand at `(row idx e, b, c)`. -/
theorem rows3_operandIdx {N B C E w : Nat} (hN : 0 < N)
    (d : GatherDims ⟨3, ![N, B, C]⟩ ⟨2, ![E, 1]⟩ ⟨3, ![E, B, C]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, B, C]) (idx : IVec ⟨2, ![E, 1]⟩ w) (e : Fin E) (b : Fin B) (c : Fin C) :
    d.operandIdx (ix3 e b c) idx = ix3 (LibGatherRows.row hN idx e) b c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix3 e b c) idx 0 + GatherDims.batchCoord _ (ix3 e b c) 0 + GatherDims.offCoord _ (ix3 e b c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext q; refine Fin.ext ?_
    match q with
    | ⟨0, _⟩ => rfl
    | ⟨1, _⟩ => rfl
  | ⟨1, _⟩ =>
    show GatherDims.start _ (ix3 e b c) idx 1 + GatherDims.batchCoord _ (ix3 e b c) 1 + GatherDims.offCoord _ (ix3 e b c) 1 = _
    rw [GatherDims.batchCoord_eq_zero _ _ _ List.not_mem_nil]
    unfold GatherDims.start
    rw [dif_neg (show ¬ ((1 : Fin 3) ∈ ([0] : List (Fin 3))) by decide)]
    simp only [Nat.add_zero, Nat.zero_add]
    unfold GatherDims.offCoord
    rw [dif_pos ((GatherDims.mem_sKept _ _).mpr ⟨(show ¬ ((1 : Fin 3) ∈ ([0] : List (Fin 3))) by decide), List.not_mem_nil⟩)]
    rfl
  | ⟨2, _⟩ =>
    show GatherDims.start _ (ix3 e b c) idx 2 + GatherDims.batchCoord _ (ix3 e b c) 2 + GatherDims.offCoord _ (ix3 e b c) 2 = _
    rw [GatherDims.batchCoord_eq_zero _ _ _ List.not_mem_nil]
    unfold GatherDims.start
    rw [dif_neg (show ¬ ((2 : Fin 3) ∈ ([0] : List (Fin 3))) by decide)]
    simp only [Nat.add_zero, Nat.zero_add]
    unfold GatherDims.offCoord
    rw [dif_pos ((GatherDims.mem_sKept _ _).mpr ⟨(show ¬ ((2 : Fin 3) ∈ ([0] : List (Fin 3))) by decide), List.not_mem_nil⟩)]
    rfl

/-- The rank-3 table's rows taken, at entry `(e, b, c)`. -/
theorem gather_rows3_apply {α : Type} {N B C E w : Nat} (hN : 0 < N)
    (d : GatherDims ⟨3, ![N, B, C]⟩ ⟨2, ![E, 1]⟩ ⟨3, ![E, B, C]⟩)
    (h1 : d.offsetDims = [1, 2]) (h2 : d.collapsedSliceDims = [0]) (h3 : d.operandBatchingDims = [])
    (h4 : d.startIndicesBatchingDims = []) (h5 : d.startIndexMap = [0]) (h6 : d.indexVectorDim = 1)
    (h7 : d.sliceSizes = ![1, B, C]) (x : (⟨3, ![N, B, C]⟩ : Shape).Idx → α) (idx : IVec ⟨2, ![E, 1]⟩ w)
    (e : Fin E) (b : Fin B) (c : Fin C) :
    Host.gather d x idx (ix3 e b c) = x (ix3 (LibGatherRows.row hN idx e) b c) := by
  unfold Host.gather
  rw [rows3_operandIdx hN d h1 h2 h3 h4 h5 h6 h7 idx e b c]

end Cert.LibGatherRows3
-- ==== Proof.LibScatterAddRows3.lean ====
/-
  A scatter-add of rows into a rank-3 table, read at an entry. The operand is a table [N, B, C], the scatter indices a
  column [E, 1], the updates [E, B, C], and the dimension numbers are those of a segment sum: the row axis is the one
  inserted window axis and the one the start index names, the two remaining axes the two window axes. Update row e lands
  on operand row p exactly when its start index idx[e, 0], read as a signed integer and NOT clamped, equals p; it is
  dropped otherwise. So on the extended reals entry (p, k, l) of the result is the operand's entry plus the sum over the
  update rows e with idx[e, 0] = p of the update's entry (e, k, l). Stated for any record with those dimension numbers,
  whatever the number of updates.
-/
import Idealize.ShloMosaic.Lib.ValueIdx
import Idealize.ShloMosaic.PureOps.Ideal

noncomputable section

open scoped BigOperators

namespace Cert.LibScatterAddRows3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The start index of update row `e` on the row axis: the scatter index `idx[e, 0]` read signed. -/
theorem rows3_start0 {N B C E w : Nat} (d : ScatterDims ⟨3, ![N, B, C]⟩ ⟨2, ![E, 1]⟩ ⟨3, ![E, B, C]⟩)
    (h1 : d.updateWindowDims = [1, 2]) (h3 : d.scatterDimsToOperandDims = [0]) (h4 : d.indexVectorDim = 1)
    (idx : IVec ⟨2, ![E, 1]⟩ w) (e : Fin E) (b : Fin B) (c : Fin C) :
    d.start (ix3 e b c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext q; refine Fin.ext ?_
  match q with
  | ⟨0, _⟩ => rfl
  | ⟨1, _⟩ => rfl

/-- The two window axes are not named by the start index: the window starts at 0 on them. -/
theorem rows3_start_ne {N B C E w : Nat} (d : ScatterDims ⟨3, ![N, B, C]⟩ ⟨2, ![E, 1]⟩ ⟨3, ![E, B, C]⟩)
    (h3 : d.scatterDimsToOperandDims = [0]) (idx : IVec ⟨2, ![E, 1]⟩ w) (j : (⟨3, ![E, B, C]⟩ : Shape).Idx)
    (a : Fin 3) (ha : a ≠ 0) : d.start j idx a = 0 := by
  obtain ⟨uw, iw, sd, iv, wf⟩ := d
  dsimp only at h3
  subst h3
  unfold ScatterDims.start
  rw [dif_neg (fun h => ha (List.mem_singleton.mp h))]

/-- The row axis is inserted: the window has no extent along it. -/
theorem rows3_window0 {N B C E : Nat} (d : ScatterDims ⟨3, ![N, B, C]⟩ ⟨2, ![E, 1]⟩ ⟨3, ![E, B, C]⟩)
    (h2 : d.insertedWindowDims = [0]) (j : (⟨3, ![E, B, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the first window axis the window coordinate is the update's second coordinate. -/
theorem rows3_window1 {N B C E : Nat} (d : ScatterDims ⟨3, ![N, B, C]⟩ ⟨2, ![E, 1]⟩ ⟨3, ![E, B, C]⟩)
    (h1 : d.updateWindowDims = [1, 2]) (h2 : d.insertedWindowDims = [0]) (e : Fin E) (b : Fin B) (c : Fin C) :
    d.window (ix3 e b c) 1 = b.val := by
  obtain ⟨uw, iw, sd, iv, wf⟩ := d
  dsimp only at h1 h2
  subst h1 h2
  unfold ScatterDims.window
  rw [dif_pos (by simp [ScatterDims.sKept, Shape.kept])]
  rfl

/-- Along the second window axis the window coordinate is the update's third coordinate. -/
theorem rows3_window2 {N B C E : Nat} (d : ScatterDims ⟨3, ![N, B, C]⟩ ⟨2, ![E, 1]⟩ ⟨3, ![E, B, C]⟩)
    (h1 : d.updateWindowDims = [1, 2]) (h2 : d.insertedWindowDims = [0]) (e : Fin E) (b : Fin B) (c : Fin C) :
    d.window (ix3 e b c) 2 = c.val := by
  obtain ⟨uw, iw, sd, iv, wf⟩ := d
  dsimp only at h1 h2
  subst h1 h2
  unfold ScatterDims.window
  rw [dif_pos (by simp [ScatterDims.sKept, Shape.kept])]
  rfl

/-- Update entry `(e, b, c)` of a row scatter lands on operand entry `(p, k, l)` exactly when the start index of row
    `e` is `p` and the two window coordinates agree. -/
theorem rows3_resultIdx {N B C E w : Nat} (d : ScatterDims ⟨3, ![N, B, C]⟩ ⟨2, ![E, 1]⟩ ⟨3, ![E, B, C]⟩)
    (h1 : d.updateWindowDims = [1, 2]) (h2 : d.insertedWindowDims = [0]) (h3 : d.scatterDimsToOperandDims = [0])
    (h4 : d.indexVectorDim = 1) (idx : IVec ⟨2, ![E, 1]⟩ w) (e : Fin E) (b : Fin B) (c : Fin C)
    (p : Fin N) (k : Fin B) (l : Fin C) :
    d.resultIdx? (ix3 e b c) idx = some (ix3 p k l)
      ↔ (idx (ix2 e (0 : Fin 1))).toInt = (p.val : Int) ∧ b = k ∧ c = l := by
  have hs0 := rows3_start0 d h1 h3 h4 idx e b c
  have hs1 := rows3_start_ne d h3 idx (ix3 e b c) 1 (by decide)
  have hs2 := rows3_start_ne d h3 idx (ix3 e b c) 2 (by decide)
  have hw0 := rows3_window0 d h2 (ix3 e b c)
  have hw1 := rows3_window1 d h1 h2 e b c
  have hw2 := rows3_window2 d h1 h2 e b c
  constructor
  · intro h
    unfold ScatterDims.resultIdx? at h
    split at h
    · next hall =>
      have hv := Option.some.inj h
      have v0 : (d.start (ix3 e b c) idx 0 + d.window (ix3 e b c) 0).toNat = p.val := congrArg Fin.val (congrFun hv 0)
      have v1 : (d.start (ix3 e b c) idx 1 + d.window (ix3 e b c) 1).toNat = k.val := congrArg Fin.val (congrFun hv 1)
      have v2 : (d.start (ix3 e b c) idx 2 + d.window (ix3 e b c) 2).toNat = l.val := congrArg Fin.val (congrFun hv 2)
      have h0 := (hall 0).1
      rw [hs0, hw0] at v0 h0
      rw [hs1, hw1] at v1
      rw [hs2, hw2] at v2
      exact ⟨by omega, Fin.ext (by omega), Fin.ext (by omega)⟩
    · exact absurd h (by simp)
  · rintro ⟨ht, rfl, rfl⟩
    unfold ScatterDims.resultIdx?
    have hall : ∀ a, 0 ≤ d.start (ix3 e b c) idx a + d.window (ix3 e b c) a ∧
        d.start (ix3 e b c) idx a + d.window (ix3 e b c) a < (⟨3, ![N, B, C]⟩ : Shape).size a := by
      intro a
      match a with
      | ⟨0, _⟩ =>
        have := p.isLt
        show 0 ≤ d.start (ix3 e b c) idx 0 + d.window (ix3 e b c) 0 ∧ d.start (ix3 e b c) idx 0 + d.window (ix3 e b c) 0 < (N : Int)
        rw [hs0, hw0, ht]; omega
      | ⟨1, _⟩ =>
        have := b.isLt
        show 0 ≤ d.start (ix3 e b c) idx 1 + d.window (ix3 e b c) 1 ∧ d.start (ix3 e b c) idx 1 + d.window (ix3 e b c) 1 < (B : Int)
        rw [hs1, hw1]; omega
      | ⟨2, _⟩ =>
        have := c.isLt
        show 0 ≤ d.start (ix3 e b c) idx 2 + d.window (ix3 e b c) 2 ∧ d.start (ix3 e b c) idx 2 + d.window (ix3 e b c) 2 < (C : Int)
        rw [hs2, hw2]; omega
    rw [dif_pos hall]
    congr 1; funext a; refine Fin.ext ?_
    match a with
    | ⟨0, _⟩ =>
      show (d.start (ix3 e b c) idx 0 + d.window (ix3 e b c) 0).toNat = p.val
      rw [hs0, hw0, ht]; omega
    | ⟨1, _⟩ =>
      show (d.start (ix3 e b c) idx 1 + d.window (ix3 e b c) 1).toNat = b.val
      rw [hs1, hw1]; omega
    | ⟨2, _⟩ =>
      show (d.start (ix3 e b c) idx 2 + d.window (ix3 e b c) 2).toNat = c.val
      rw [hs2, hw2]; omega

/-- A rank-3 row scatter-add at entry `(p, k, l)`: the operand's entry plus the update entries `(e, k, l)` of the rows
    `e` whose start index is `p`. -/
theorem scatterAdd_rows3_apply {N B C E w : Nat} (d : ScatterDims ⟨3, ![N, B, C]⟩ ⟨2, ![E, 1]⟩ ⟨3, ![E, B, C]⟩)
    (h1 : d.updateWindowDims = [1, 2]) (h2 : d.insertedWindowDims = [0]) (h3 : d.scatterDimsToOperandDims = [0])
    (h4 : d.indexVectorDim = 1) (x : (⟨3, ![N, B, C]⟩ : Shape).Idx → EReal) (idx : IVec ⟨2, ![E, 1]⟩ w)
    (upd : (⟨3, ![E, B, C]⟩ : Shape).Idx → EReal) (p : Fin N) (k : Fin B) (l : Fin C) :
    Ideal.hostScatterAdd d x idx upd (ix3 p k l)
      = x (ix3 p k l) + ∑ e : Fin E, if (idx (ix2 e (0 : Fin 1))).toInt = (p.val : Int) then upd (ix3 e k l) else 0 := by
  unfold Ideal.hostScatterAdd
  congr 1
  rw [Finset.sum_filter, sum_idx3]
  refine Finset.sum_congr rfl fun e _ => ?_
  by_cases ht : (idx (ix2 e (0 : Fin 1))).toInt = (p.val : Int)
  · rw [if_pos ht, Finset.sum_eq_single k]
    · rw [Finset.sum_eq_single l]
      · rw [if_pos ((rows3_resultIdx d h1 h2 h3 h4 idx e k l p k l).mpr ⟨ht, rfl, rfl⟩)]
      · intro c _ hc
        rw [if_neg (fun h => hc ((rows3_resultIdx d h1 h2 h3 h4 idx e k c p k l).mp h).2.2)]
      · intro h; exact absurd (Finset.mem_univ l) h
    · intro b _ hb
      refine Finset.sum_eq_zero fun c _ => ?_
      rw [if_neg (fun h => hb ((rows3_resultIdx d h1 h2 h3 h4 idx e b c p k l).mp h).2.1)]
    · intro h; exact absurd (Finset.mem_univ k) h
  · rw [if_neg ht]
    refine Finset.sum_eq_zero fun b _ => Finset.sum_eq_zero fun c _ => ?_
    rw [if_neg (fun h => ht ((rows3_resultIdx d h1 h2 h3 h4 idx e b c p k l).mp h).1)]

end Cert.LibScatterAddRows3

end
-- ==== Proof.RefSide.lean ====
/-
  The reference program's two results are the specification's layer, entry by entry.

  A convolution gathers the gated rows at the edges' sources, multiplies each by its edge's norm, and sums the
  messages over the edges into each node: a segment sum into zeros at the destination words, so at node n it is zero
  plus the sum over the edges whose destination is n. Adding the bias gives the specification's convolution of the
  gated rows.
-/
import proofs.«175657_j3204045603773_1_alg».proof.Proof.RefReadP
import proofs.«175657_j3204045603773_1_alg».proof.Proof.RefMath
import proofs.«175657_j3204045603773_1_alg».proof.Proof.RefEdges
import proofs.«175657_j3204045603773_1_alg».proof.Proof.RefGate
import proofs.«175657_j3204045603773_1_alg».proof.Proof.RefNorm
import proofs.«175657_j3204045603773_1_alg».proof.Proof.LibGatherRows3
import proofs.«175657_j3204045603773_1_alg».proof.Proof.LibScatterAddRows3

noncomputable section

open scoped BigOperators

namespace Cert.ReferenceIdeal.RefSide

open Idealize.ShloMosaic Idealize.ShloMosaic.TcCoe Idealize.ShloMosaic.ValueIdx Cert.ReferenceIdeal Cert.ReferenceIdeal.Gen Cert.ReferenceIdeal.ReadP

/-! ## The first convolution -/

/-- A message: the source's gated row times the edge's norm. -/
theorem v64_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (e : Fin 34816) (b : Fin 16) (f : Fin 256) :
    val_main_v64 (F := Ideal) x0 x1 x2 x3 x4 x5 xw (ix3 e b f)
      = (fun n' b' f' => Cert.Spec.gateOut true (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n' b') f') (s e) b f * Cert.Spec.norm s d e := by
  rw [val_main_v64_apply, val_main_v63_apply, val_main_v62_apply,
    show idx_main_v62 (idx_main_v63 (ix3 e b f)) = ix1 e from (funext fun a => match a with | ⟨0, _⟩ => rfl),
    v53_eq x1 s hs d hd e]
  unfold val_main_v61
  rw [LibGatherRows3.gather_rows3_apply (by decide : 0 < 2048) _ rfl rfl rfl rfl rfl rfl rfl, row_v60 x1 s hs e,
    v54_eq]
  rfl

/-- The segment sum of the messages over the destinations, at `(n, b, f)`. -/
theorem v67_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (n : Fin 2048) (b : Fin 16) (f : Fin 256) :
    val_main_v67 (F := Ideal) x0 x1 x2 x3 x4 x5 xw (ix3 n b f)
      = ∑ e : Fin 34816, if d e = n then (fun n' b' f' => Cert.Spec.gateOut true (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n' b') f') (s e) b f * Cert.Spec.norm s d e else 0 := by
  unfold val_main_v67 Host.scatterAdd
  rw [Ideal.hostScatterAdd_def, LibScatterAddRows3.scatterAdd_rows3_apply _ rfl rfl rfl rfl,
    val_main_v65_apply, val_main_cst_12_apply]
  simp only [Ideal.ofBits_def, Ideal.ofBits_zero_f32, zero_add]
  refine Finset.sum_congr rfl fun e _ => ?_
  have hw : val_main_v66 (F := Ideal) x1 (ix2 e (0 : Fin 1)) = val_main_v30 (F := Ideal) x1 (ix1 e) := by
    rw [val_main_v66_apply]
    exact congrArg _ (funext fun a => match a with | ⟨0, _⟩ => rfl)
  rw [hw, v64_eq x0 x1 x2 x3 x4 x5 xw s hs d hd e b f]
  by_cases h : d e = n
  · rw [if_pos h, if_pos ((RefMath.hit_iff _ (d e) n (v30_toInt x1 d hd e)).mpr h)]
  · rw [if_neg h, if_neg (fun h' => h ((RefMath.hit_iff _ (d e) n (v30_toInt x1 d hd e)).mp h'))]

/-- The first result at `(n, b, f)` is the specification's layer. -/
theorem v70_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (xb : (⟨S256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (n : Fin 2048) (b : Fin 16) (f : Fin 256) :
    val_main_v70 (F := Ideal) x0 x1 x2 x3 x4 x5 xw xb (ix3 n b f)
      = Cert.Spec.final true (fun n b k => (x0 : S2048x16x256.Idx → EReal) (ix3 n b k)) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (fun f => (xb : S256.Idx → EReal) (ix1 f)) s d n b f := by
  rw [val_main_v70_apply, v67_eq x0 x1 x2 x3 x4 x5 xw s hs d hd n b f, val_main_v69_apply, val_main_v68_apply,
    show idx_main_v68 (idx_main_v69 (ix3 n b f)) = ix1 f from (funext fun a => match a with | ⟨0, _⟩ => rfl)]
  rfl

/-! ## The second convolution -/

/-- A message: the source's gated row times the edge's norm. -/
theorem v81_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (e : Fin 34816) (b : Fin 16) (f : Fin 256) :
    val_main_v81 (F := Ideal) x0 x1 x2 x3 x4 x5 xw (ix3 e b f)
      = (fun n' b' f' => Cert.Spec.gateOut false (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n' b') f') (s e) b f * Cert.Spec.norm s d e := by
  rw [val_main_v81_apply, val_main_v80_apply, val_main_v79_apply,
    show idx_main_v79 (idx_main_v80 (ix3 e b f)) = ix1 e from (funext fun a => match a with | ⟨0, _⟩ => rfl),
    v53_eq x1 s hs d hd e]
  unfold val_main_v78
  rw [LibGatherRows3.gather_rows3_apply (by decide : 0 < 2048) _ rfl rfl rfl rfl rfl rfl rfl, row_v77 x1 s hs e,
    v71_eq]
  rfl

/-- The segment sum of the messages over the destinations, at `(n, b, f)`. -/
theorem v84_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (n : Fin 2048) (b : Fin 16) (f : Fin 256) :
    val_main_v84 (F := Ideal) x0 x1 x2 x3 x4 x5 xw (ix3 n b f)
      = ∑ e : Fin 34816, if d e = n then (fun n' b' f' => Cert.Spec.gateOut false (Cert.Spec.flat (fun n b k => (x0 : S2048x16x256.Idx → EReal) (ix3 n b k))) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (Cert.Spec.row n' b') f') (s e) b f * Cert.Spec.norm s d e else 0 := by
  unfold val_main_v84 Host.scatterAdd
  rw [Ideal.hostScatterAdd_def, LibScatterAddRows3.scatterAdd_rows3_apply _ rfl rfl rfl rfl,
    val_main_v82_apply, val_main_cst_15_apply]
  simp only [Ideal.ofBits_def, Ideal.ofBits_zero_f32, zero_add]
  refine Finset.sum_congr rfl fun e _ => ?_
  have hw : val_main_v83 (F := Ideal) x1 (ix2 e (0 : Fin 1)) = val_main_v30 (F := Ideal) x1 (ix1 e) := by
    rw [val_main_v83_apply]
    exact congrArg _ (funext fun a => match a with | ⟨0, _⟩ => rfl)
  rw [hw, v81_eq x0 x1 x2 x3 x4 x5 xw s hs d hd e b f]
  by_cases h : d e = n
  · rw [if_pos h, if_pos ((RefMath.hit_iff _ (d e) n (v30_toInt x1 d hd e)).mpr h)]
  · rw [if_neg h, if_neg (fun h' => h ((RefMath.hit_iff _ (d e) n (v30_toInt x1 d hd e)).mp h'))]

/-- The second result at `(n, b, f)` is the specification's layer. -/
theorem v87_eq (x0 : (⟨S2048x16x256, .f32⟩ : BufTy).Contents (Elt Ideal)) (x1 : (⟨S2x32768, .i32⟩ : BufTy).Contents (Elt Ideal)) (x2 : (⟨S256x128, .f32⟩ : BufTy).Contents (Elt Ideal)) (x3 : (⟨S128, .f32⟩ : BufTy).Contents (Elt Ideal)) (x4 : (⟨S128x256, .f32⟩ : BufTy).Contents (Elt Ideal)) (x5 : (⟨S256, .f32⟩ : BufTy).Contents (Elt Ideal)) (xw : (⟨S256x256, .f32⟩ : BufTy).Contents (Elt Ideal)) (xb : (⟨S256, .f32⟩ : BufTy).Contents (Elt Ideal)) (s : Fin 34816 → Fin 2048) (hs : ∀ e, (Cert.Spec.edgeWord (fun a e => (x1 : S2x32768.Idx → BitVec 32) (ix2 a e)) 0 e).toInt = ((s e).val : Int)) (d : Fin 34816 → Fin 2048) (hd : ∀ e, (Cert.Spec.edgeWord (fun a e => (x1 : S2x32768.Idx → BitVec 32) (ix2 a e)) 1 e).toInt = ((d e).val : Int)) (n : Fin 2048) (b : Fin 16) (f : Fin 256) :
    val_main_v87 (F := Ideal) x0 x1 x2 x3 x4 x5 xw xb (ix3 n b f)
      = Cert.Spec.final false (fun n b k => (x0 : S2048x16x256.Idx → EReal) (ix3 n b k)) (fun k h => (x2 : S256x128.Idx → EReal) (ix2 k h)) (fun h => (x3 : S128.Idx → EReal) (ix1 h)) (fun h d => (x4 : S128x256.Idx → EReal) (ix2 h d)) (fun d => (x5 : S256.Idx → EReal) (ix1 d)) (fun d f => (xw : S256x256.Idx → EReal) (ix2 d f)) (fun f => (xb : S256.Idx → EReal) (ix1 f)) s d n b f := by
  rw [val_main_v87_apply, v84_eq x0 x1 x2 x3 x4 x5 xw s hs d hd n b f, val_main_v86_apply, val_main_v85_apply,
    show idx_main_v85 (idx_main_v86 (ix3 n b f)) = ix1 f from (funext fun a => match a with | ⟨0, _⟩ => rfl)]
  rfl

/-! ## The two results -/

theorem ref_adj (m : (ℓ : Loc nD τ sig) → Buf (Elt Ideal) ℓ) (c : Dev nD) (s d : Fin 34816 → Fin 2048)
    (hs : ∀ e, (Cert.Spec.edgeWord (fun a e => (m ((c.tc : Thread nD τ).loc main_arg1) : S2x32768.Idx → BitVec 32) (ix2 a e)) 0 e).toInt = ((s e).val : Int))
    (hd : ∀ e, (Cert.Spec.edgeWord (fun a e => (m ((c.tc : Thread nD τ).loc main_arg1) : S2x32768.Idx → BitVec 32) (ix2 a e)) 1 e).toInt = ((d e).val : Int))
    (n : Fin 2048) (b : Fin 16) (f : Fin 256) :
    (Cert.ReferenceIdeal.ValueP.res_main_v70 (F := Ideal) m c : S2048x16x256.Idx → EReal) (ix3 n b f) =
      Cert.Spec.final true (fun n b k => (m ((c.tc : Thread nD τ).loc main_arg0) : S2048x16x256.Idx → EReal) (ix3 n b k))
        (fun k h => (m ((c.tc : Thread nD τ).loc main_arg2) : S256x128.Idx → EReal) (ix2 k h))
        (fun h => (m ((c.tc : Thread nD τ).loc main_arg3) : S128.Idx → EReal) (ix1 h))
        (fun h d => (m ((c.tc : Thread nD τ).loc main_arg4) : S128x256.Idx → EReal) (ix2 h d))
        (fun d => (m ((c.tc : Thread nD τ).loc main_arg5) : S256.Idx → EReal) (ix1 d))
        (fun d f => (m ((c.tc : Thread nD τ).loc main_arg6) : S256x256.Idx → EReal) (ix2 d f))
        (fun f => (m ((c.tc : Thread nD τ).loc main_arg7) : S256.Idx → EReal) (ix1 f)) s d n b f := by
  rw [val_main_v70_eq m c]
  exact v70_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) s hs d hd n b f

theorem ref_conf (m : (ℓ : Loc nD τ sig) → Buf (Elt Ideal) ℓ) (c : Dev nD) (s d : Fin 34816 → Fin 2048)
    (hs : ∀ e, (Cert.Spec.edgeWord (fun a e => (m ((c.tc : Thread nD τ).loc main_arg1) : S2x32768.Idx → BitVec 32) (ix2 a e)) 0 e).toInt = ((s e).val : Int))
    (hd : ∀ e, (Cert.Spec.edgeWord (fun a e => (m ((c.tc : Thread nD τ).loc main_arg1) : S2x32768.Idx → BitVec 32) (ix2 a e)) 1 e).toInt = ((d e).val : Int))
    (n : Fin 2048) (b : Fin 16) (f : Fin 256) :
    (Cert.ReferenceIdeal.ValueP.res_main_v87 (F := Ideal) m c : S2048x16x256.Idx → EReal) (ix3 n b f) =
      Cert.Spec.final false (fun n b k => (m ((c.tc : Thread nD τ).loc main_arg0) : S2048x16x256.Idx → EReal) (ix3 n b k))
        (fun k h => (m ((c.tc : Thread nD τ).loc main_arg2) : S256x128.Idx → EReal) (ix2 k h))
        (fun h => (m ((c.tc : Thread nD τ).loc main_arg3) : S128.Idx → EReal) (ix1 h))
        (fun h d => (m ((c.tc : Thread nD τ).loc main_arg4) : S128x256.Idx → EReal) (ix2 h d))
        (fun d => (m ((c.tc : Thread nD τ).loc main_arg5) : S256.Idx → EReal) (ix1 d))
        (fun d f => (m ((c.tc : Thread nD τ).loc main_arg8) : S256x256.Idx → EReal) (ix2 d f))
        (fun f => (m ((c.tc : Thread nD τ).loc main_arg9) : S256.Idx → EReal) (ix1 f)) s d n b f := by
  rw [val_main_v87_eq m c]
  exact v87_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) s hs d hd n b f

end Cert.ReferenceIdeal.RefSide

end
-- ==== Proof.PreRange.lean ====
/-
  The index range, read out of the precondition. The precondition is a conjunction of ten one-bit words, the last of
  which says of the edge-index array `x : [2, 32768]` of 32-bit words that every entry, read signed, lies in
  `[0, 2048)`: it is the `and` over all entries of `(x ≥ 0) and (x < 2048)`. A conjunction of bits that is 1 has every
  conjunct 1, an `and` over all entries that is 1 is 1 at every entry, and a signed comparison word that is 1 is the
  comparison of the signed values. The edge list of the specification appends one self loop per node, whose word is the
  node's number, below 2048 as well; so each word of either row of the list is the value of a `Fin 2048`.
-/
import proofs.«175657_j3204045603773_1_alg».proof.Defs
import proofs.«175657_j3204045603773_1_alg».proof.Proof.Spec
import Idealize.ShloMosaic.Lib.ValueIdx
import Idealize.ShloMosaic.Lib.ReduceAll

noncomputable section

namespace Cert.PreRange

open Idealize.ShloMosaic Idealize.ShloMosaic.TcCoe Idealize.ShloMosaic.ValueIdx Cert.KernelIdeal

/-- The scalar shape has one index. -/
instance : Subsingleton Cert.Pre_finite_inputs.S_.Idx := ⟨fun a b => funext fun d => d.elim0⟩

/-- The last conjunct of the second half of the predicate: if the half's word is 1, every entry of the index array lies
    in `[0, 2048)`, read signed. -/
theorem part2_range [Cert.Pre_finite_inputs.Facts] (x : IVec Cert.Pre_finite_inputs.S2x32768 32)
    (a8 : FVec Ideal Cert.Pre_finite_inputs.S256x256 .f32) (a9 : FVec Ideal Cert.Pre_finite_inputs.S256 .f32)
    (v : IVec Cert.Pre_finite_inputs.S_ 1)
    (h : Cert.Pre_finite_inputs.fn_part2 (F := Ideal) x a8 a9 v ix0 = 1#1) (i : Cert.Pre_finite_inputs.S2x32768.Idx) :
    0 ≤ (x i).toInt ∧ (x i).toInt < 2048 := by
  unfold Cert.Pre_finite_inputs.fn_part2 at h
  dsimp only at h
  -- the word is the `and` of the earlier conjuncts' word with the range conjunct's
  have h2 := (IntOp.andi_eq_one.1 h).2
  -- the range conjunct is an `and` over all entries: it is 1 at entry `i`
  have h3 := Host.reduce_andi_all _ _ _ _ _ h2 i
  -- at entry `i` it is the `and` of the two signed comparisons, with the literals 0 and 2048
  have h4 : IntOp.andi (IntOp.cmpi .sge (x i) (0#32)) (IntOp.cmpi .slt (x i) (2048#32)) = 1#1 := h3
  obtain ⟨h0, h1⟩ := IntOp.andi_eq_one.1 h4
  rw [IntOp.cmpi_sge] at h0
  rw [IntOp.cmpi_slt] at h1
  exact ⟨h0, h1⟩

/-- The whole predicate's word is the second half's word, at some word `v` for the earlier conjuncts. -/
theorem fn_eq_part2 [Cert.Pre_finite_inputs.Facts] (a0 : FVec Ideal Cert.Pre_finite_inputs.S2048x16x256 .f32)
    (x : IVec Cert.Pre_finite_inputs.S2x32768 32) (a2 : FVec Ideal Cert.Pre_finite_inputs.S256x128 .f32)
    (a3 : FVec Ideal Cert.Pre_finite_inputs.S128 .f32) (a4 : FVec Ideal Cert.Pre_finite_inputs.S128x256 .f32)
    (a5 : FVec Ideal Cert.Pre_finite_inputs.S256 .f32) (a6 : FVec Ideal Cert.Pre_finite_inputs.S256x256 .f32)
    (a7 : FVec Ideal Cert.Pre_finite_inputs.S256 .f32) (a8 : FVec Ideal Cert.Pre_finite_inputs.S256x256 .f32)
    (a9 : FVec Ideal Cert.Pre_finite_inputs.S256 .f32) :
    ∃ v, Cert.Pre_finite_inputs.fn (F := Ideal) a0 x a2 a3 a4 a5 a6 a7 a8 a9
      = Cert.Pre_finite_inputs.fn_part2 (F := Ideal) x a8 a9 v :=
  ⟨_, rfl⟩

/-- THE PRECONDITION DECODED: every entry of the edge-index array lies in `[0, 2048)`, read signed. -/
theorem range [Cert.Pre_finite_inputs.Facts] (m : (ℓ : Loc nD τ sig) → Buf (Elt Ideal) ℓ) (hpre : Cert.Pre_KernelIdeal m)
    (c : Dev nD) (a : Fin 2) (e : Fin 32768) :
    0 ≤ ((m ((c.tc : Thread nD τ).loc main_arg1) : S2x32768.Idx → BitVec 32) (ix2 a e)).toInt
      ∧ ((m ((c.tc : Thread nD τ).loc main_arg1) : S2x32768.Idx → BitVec 32) (ix2 a e)).toInt < 2048 := by
  have h := congrFun (hpre c) ix0
  obtain ⟨v, hv⟩ := fn_eq_part2 (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))
  rw [hv] at h
  exact part2_range _ _ _ v h (ix2 a e)

/-- A natural number below 2048, as a 32-bit word read signed, is itself. -/
theorem toInt_ofNat_small (n : Nat) (hn : n < 2048) : (BitVec.ofNat 32 n).toInt = (n : Int) := by
  have h1 : (BitVec.ofNat 32 n).toNat = n := by rw [BitVec.toNat_ofNat]; omega
  rw [BitVec.toInt_eq_toNat_of_lt (by omega), h1]

/-- Each word of the edge list — a given edge's or a self loop's — lies in `[0, 2048)`, read signed, when the given
    edges' words do. -/
theorem edgeWord_range (ei : Fin 2 → Fin 32768 → BitVec 32)
    (h : ∀ a e, 0 ≤ (ei a e).toInt ∧ (ei a e).toInt < 2048) (a : Fin 2) (e : Fin 34816) :
    0 ≤ (Cert.Spec.edgeWord ei a e).toInt ∧ (Cert.Spec.edgeWord ei a e).toInt < 2048 := by
  unfold Cert.Spec.edgeWord
  split
  · exact h a _
  · have he := e.isLt
    rw [toInt_ofNat_small _ (by omega)]
    omega

/-- The edge list's two rows are node numbers: source and destination maps into `Fin 2048` whose values are the words,
    read signed. -/
theorem edges [Cert.Pre_finite_inputs.Facts] (m : (ℓ : Loc nD τ sig) → Buf (Elt Ideal) ℓ) (hpre : Cert.Pre_KernelIdeal m) (c : Dev nD) :
    ∃ s d : Fin 34816 → Fin 2048,
      (∀ e, (Cert.Spec.edgeWord (fun a e => (m ((c.tc : Thread nD τ).loc main_arg1) : S2x32768.Idx → BitVec 32) (ix2 a e)) 0 e).toInt = ((s e).val : Int))
      ∧ (∀ e, (Cert.Spec.edgeWord (fun a e => (m ((c.tc : Thread nD τ).loc main_arg1) : S2x32768.Idx → BitVec 32) (ix2 a e)) 1 e).toInt = ((d e).val : Int)) := by
  have hr := fun a e => edgeWord_range
    (fun a e => (m ((c.tc : Thread nD τ).loc main_arg1) : S2x32768.Idx → BitVec 32) (ix2 a e))
    (fun a e => range m hpre c a e) a e
  refine ⟨fun e => ⟨(Cert.Spec.edgeWord (fun a e => (m ((c.tc : Thread nD τ).loc main_arg1) : S2x32768.Idx → BitVec 32) (ix2 a e)) 0 e).toInt.toNat, ?_⟩,
    fun e => ⟨(Cert.Spec.edgeWord (fun a e => (m ((c.tc : Thread nD τ).loc main_arg1) : S2x32768.Idx → BitVec 32) (ix2 a e)) 1 e).toInt.toNat, ?_⟩,
    fun e => ?_, fun e => ?_⟩
  · have := hr 0 e; omega
  · have := hr 1 e; omega
  · have := hr 0 e; exact (Int.toNat_of_nonneg this.1).symm
  · have := hr 1 e; exact (Int.toNat_of_nonneg this.1).symm

end Cert.PreRange

end
-- ==== Proof.Algebraic.lean ====
/-
  The two programs compute one function.

  Both results, at node `n`, batch entry `b`, feature `f`, are the shared specification's `final`: the gated rows
  through a weight matrix, then one graph convolution over the given edges and the self loops. The kernel reaches it
  through the dense normalised adjacency (its entries are sums of non-negative real norms, so the rows' entries — any
  extended reals — distribute over them), the reference through a gather, a scaling and a segment sum. The edge
  indices are node numbers by the precondition.
-/
import proofs.«175657_j3204045603773_1_alg».proof.Defs
import proofs.«175657_j3204045603773_1_alg».proof.Proof.FrRun
import proofs.«175657_j3204045603773_1_alg».proof.Proof.FrV0
import proofs.«175657_j3204045603773_1_alg».proof.Proof.FrV1
import proofs.«175657_j3204045603773_1_alg».proof.Proof.HostSide
import proofs.«175657_j3204045603773_1_alg».proof.Proof.RefSide
import proofs.«175657_j3204045603773_1_alg».proof.Proof.PreRange
import proofs.«175657_j3204045603773_1_alg».proof.Proof.Gen.Pre_finite_inputs
import Idealize.ShloMosaic.Lib.ValueIdx

noncomputable section

namespace Cert.Proof.Parts

open Idealize.ShloMosaic Idealize.ShloMosaic.TcCoe Idealize.SL.Sem Idealize.ShloMosaic.ValueIdx

section
open Cert.KernelIdeal Cert.KernelIdeal.Gen Cert.KernelIdeal.Fr
variable (m : (ℓ : Loc nD τ sig) → Buf (Elt Ideal) ℓ)

/-- What the gate region leaves in its first result array: the rows gated by `σ(-z)` through the first weight matrix. -/
theorem h0 (c : Dev nD) (r : Fin 32768) (f : Fin 256) :
    (outs m 4 main_v49_0 c : S32768x256.Idx → EReal) (ix2 r f) =
      Cert.Spec.gateOut true (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg6 : S256x256.Idx → EReal) (ix2 d f)) r f :=
  (congrFun ((outs4 m main_v49_0 c).trans (W4_arr m c 7)) (ix2 r f)).trans (Cert.KernelIdeal.FrV.region0_adj (E3 m) c r f)

/-- and in its second: the rows gated by `σ(z)` through the second. -/
theorem h1 (c : Dev nD) (r : Fin 32768) (f : Fin 256) :
    (outs m 4 main_v49_1 c : S32768x256.Idx → EReal) (ix2 r f) =
      Cert.Spec.gateOut false (fun r k => (V3 m c main_v46 : S32768x256.Idx → EReal) (ix2 r k)) (fun k h => (V3 m c main_arg2 : S256x128.Idx → EReal) (ix2 k h)) (fun h => (V3 m c main_v47 : S1x128.Idx → EReal) (ix2 0 h)) (fun h d => (V3 m c main_arg4 : S128x256.Idx → EReal) (ix2 h d)) (fun d => (V3 m c main_v48 : S1x256.Idx → EReal) (ix2 0 d)) (fun d f => (V3 m c main_arg8 : S256x256.Idx → EReal) (ix2 d f)) r f :=
  (congrFun ((outs4 m main_v49_1 c).trans (W4_arr m c 8)) (ix2 r f)).trans (Cert.KernelIdeal.FrV.region0_conf (E3 m) c r f)

/-- What the product region leaves: adjacency row against rows' column, the two halves accumulated, plus the bias. -/
theorem h2 (c : Dev nD) (i : Fin 2048) (k : Fin 8192) :
    (outs m 6 main_v62 c : S2048x8192.Idx → EReal) (ix2 i k) =
      Cert.Spec.accOut (fun i j => (V5 m (outs m) c main_v45 : S2048x2048.Idx → EReal) (ix2 i j)) (fun j k => (V5 m (outs m) c main_v53 : S2048x8192.Idx → EReal) (ix2 j k)) (fun k => (V5 m (outs m) c main_v61 : S1x8192.Idx → EReal) (ix2 0 k)) i k :=
  (congrFun ((outs6 m main_v62 c).trans (W6_arr m c 3)) (ix2 i k)).trans (Cert.KernelIdeal.FrV.region1_out (E5 m) c i k)
end

/-- The reference's first result is the kernel program's, from memories agreeing on the arguments. -/
theorem res_adj (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v70 (F := Ideal) m' c = Cert.KernelIdeal.Gen.V7 m (Cert.KernelIdeal.Fr.outs m) c Cert.KernelIdeal.main_v64 := by
  obtain ⟨s, d, hs, hd⟩ := Cert.PreRange.edges m hpre c
  have hs' : ∀ e, (Cert.Spec.edgeWord (fun a e => (m' ((c.tc : Thread Cert.ReferenceIdeal.nD Cert.ReferenceIdeal.τ).loc Cert.ReferenceIdeal.main_arg1) : Cert.ReferenceIdeal.S2x32768.Idx → BitVec 32) (ix2 a e)) 0 e).toInt = ((s e).val : Int) := by rw [e1]; exact hs
  have hd' : ∀ e, (Cert.Spec.edgeWord (fun a e => (m' ((c.tc : Thread Cert.ReferenceIdeal.nD Cert.ReferenceIdeal.τ).loc Cert.ReferenceIdeal.main_arg1) : Cert.ReferenceIdeal.S2x32768.Idx → BitVec 32) (ix2 a e)) 1 e).toInt = ((d e).val : Int) := by rw [e1]; exact hd
  show (Cert.ReferenceIdeal.ValueP.res_main_v70 (F := Ideal) m' c : Cert.ReferenceIdeal.S2048x16x256.Idx → EReal) = _
  funext j
  obtain ⟨n, b, f, rfl⟩ : ∃ (n : Fin 2048) (b : Fin 16) (f : Fin 256), j = ix3 n b f := ⟨j 0, j 1, j 2, eq_ix3 j⟩
  refine (Cert.ReferenceIdeal.RefSide.ref_adj m' c s d hs' hd' n b f).trans ?_
  rw [e0, e2, e3, e4, e5, e6, e7]
  exact (Cert.KernelIdeal.Host.result_adj m (Cert.KernelIdeal.Fr.outs m) c s d hs hd (h0 m c) (h1 m c) (h2 m c) n b f).symm

/-- The same for the second result. -/
theorem res_conf (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.ValueP.res_main_v87 (F := Ideal) m' c = Cert.KernelIdeal.Gen.V7 m (Cert.KernelIdeal.Fr.outs m) c Cert.KernelIdeal.main_v66 := by
  obtain ⟨s, d, hs, hd⟩ := Cert.PreRange.edges m hpre c
  have hs' : ∀ e, (Cert.Spec.edgeWord (fun a e => (m' ((c.tc : Thread Cert.ReferenceIdeal.nD Cert.ReferenceIdeal.τ).loc Cert.ReferenceIdeal.main_arg1) : Cert.ReferenceIdeal.S2x32768.Idx → BitVec 32) (ix2 a e)) 0 e).toInt = ((s e).val : Int) := by rw [e1]; exact hs
  have hd' : ∀ e, (Cert.Spec.edgeWord (fun a e => (m' ((c.tc : Thread Cert.ReferenceIdeal.nD Cert.ReferenceIdeal.τ).loc Cert.ReferenceIdeal.main_arg1) : Cert.ReferenceIdeal.S2x32768.Idx → BitVec 32) (ix2 a e)) 1 e).toInt = ((d e).val : Int) := by rw [e1]; exact hd
  show (Cert.ReferenceIdeal.ValueP.res_main_v87 (F := Ideal) m' c : Cert.ReferenceIdeal.S2048x16x256.Idx → EReal) = _
  funext j
  obtain ⟨n, b, f, rfl⟩ : ∃ (n : Fin 2048) (b : Fin 16) (f : Fin 256), j = ix3 n b f := ⟨j 0, j 1, j 2, eq_ix3 j⟩
  refine (Cert.ReferenceIdeal.RefSide.ref_conf m' c s d hs' hd' n b f).trans ?_
  rw [e0, e2, e3, e4, e5, e8, e9]
  exact (Cert.KernelIdeal.Host.result_conf m (Cert.KernelIdeal.Fr.outs m) c s d hs hd (h0 m c) (h1 m c) (h2 m c) n b f).symm

/-- At the extended reals the idealized kernel and the idealized reference, run from memories agreeing on the
    arguments, both end, with equal results and unchanged arguments. -/
theorem algebraic : Cert.algebraic_KernelIdeal_ReferenceIdeal := by
  intro m ρ m' ρ' hpre hagree
  refine ⟨fun c => Cert.KernelIdeal.Gen.V7 m (Cert.KernelIdeal.Fr.outs m) c Cert.KernelIdeal.main_v64, fun c => Cert.KernelIdeal.Gen.V7 m (Cert.KernelIdeal.Fr.outs m) c Cert.KernelIdeal.main_v66,
    Cert.KernelIdeal.Fr.run (F := Ideal) m ρ, ?_⟩
  refine (θ_run (Cert.ReferenceIdeal.defs (F := Ideal)) _ _).mono (fun _ h c => ⟨(h c).1.trans ?_, (h c).2.1.trans ?_, (h c).2.2⟩)
    (Cert.ReferenceIdeal.ValueP.run (F := Ideal) m' ρ')
  · obtain ⟨e0, e1, e2, e3, e4, e5, e6, e7, e8, e9⟩ := hagree c
    exact res_adj m m' hpre c e0 e1 e2 e3 e4 e5 e6 e7 e8 e9
  · obtain ⟨e0, e1, e2, e3, e4, e5, e6, e7, e8, e9⟩ := hagree c
    exact res_conf m m' hpre c e0 e1 e2 e3 e4 e5 e6 e7 e8 e9

end Cert.Proof.Parts

end
-- ==== Proof.lean ====
/-
  The certificate's claim: the kernel program (a gated perceptron kernel, a dense normalised adjacency built on the
  host, a tiled adjacency-times-rows kernel) and the reference (gather, scale, segment sum) compute the same two
  graph-convolution layers on the extended reals, whenever the edge indices are node numbers; each program runs to
  the end without fault and leaves its arguments unchanged. The frames are in Proof/Frames.lean, the equality of the
  results in Proof/Algebraic.lean over the shared specification Proof/Spec.lean.
-/
import proofs.«175657_j3204045603773_1_alg».proof.Defs
import proofs.«175657_j3204045603773_1_alg».proof.Proof.Gen.Kernel
import proofs.«175657_j3204045603773_1_alg».proof.Proof.Gen.KernelIdeal
import proofs.«175657_j3204045603773_1_alg».proof.Proof.Gen.ReferenceIdeal
import proofs.«175657_j3204045603773_1_alg».proof.Proof.Gen.Pre_finite_inputs
import proofs.«175657_j3204045603773_1_alg».proof.Proof.Frames
import proofs.«175657_j3204045603773_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Parts.frame_k, Cert.Proof.Parts.frame_ki, Cert.Proof.Parts.frame_ri, Cert.Proof.Parts.preserves,
    Cert.Proof.Parts.algebraic⟩

end Cert.Proof

end
